-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S512x128 : Shape := ⟨2, ![512, 128]⟩
abbrev S640x17 : Shape := ⟨2, ![640, 17]⟩
abbrev S17 : Shape := ⟨1, ![17]⟩
abbrev S512x10 : Shape := ⟨2, ![512, 10]⟩
abbrev S10 : Shape := ⟨1, ![10]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S640x17 : S_.BroadcastsInDim S640x17 (![] : Fin 0 → Fin S640x17.rank)
  reducesTo_S640x17_S_d0_1 : S640x17.ReducesTo [0, 1] S_
  bcast_S_S17 : S_.BroadcastsInDim S17 (![] : Fin 0 → Fin S17.rank)
  reducesTo_S17_S_d0 : S17.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S17 .f32) (main_arg8 : FVec F S512x10 .f32) (main_arg9 : FVec F S10 .f32) (main_v33 : IVec S_ 1) : IVec S_ 1 :=
  let main_v34 : FVec F S17 .f32 := Host.absf main_arg7
  let main_cst_12 : FVec F S_ .f32 := constant S_ .f32 0x7F800000#32
  let main_v35 : FVec F S17 .f32 := broadcastInDim S17 ![] bcast_S_S17 main_cst_12
  let main_v36 : IVec S17 1 := cmpf .olt main_v34 main_v35
  let main_c_13 : IVec S_ 1 := constantI S_ 1 1#1
  let main_v37 : IVec S_ 1 := (fun x v => Host.reduce IntOp.andi x v reducesTo_S17_S_d0 h_S_) main_v36 main_c_13
  let main_v38 : IVec S_ 1 := andi main_v33 main_v37
  let main_v39 : FVec F S512x10 .f32 := Host.absf main_arg8
  let main_cst_14 : FVec F S_ .f32 := constant S_ .f32 0x7F800000#32
  let main_v40 : FVec F S512x10 .f32 := broadcastInDim S512x10 ![] bcast_S_S512x10 main_cst_14
  let main_v41 : IVec S512x10 1 := cmpf .olt main_v39 main_v40
  let main_c_15 : IVec S_ 1 := constantI S_ 1 1#1
  let main_v42 : IVec S_ 1 := (fun x v => Host.reduce IntOp.andi x v reducesTo_S512x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg4 : FVec F S512 .f32) (main_arg5 : FVec F S512x128 .f32) (main_arg6 : FVec F S640x17 .f32) (main_arg7 : FVec F S17 .f32) (main_arg8 : FVec F S512x10 .f32) (main_arg9 : FVec F S10 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S640x17 .f32 := Host.absf main_arg6
  let main_cst_10 : FVec F S_ .f32 := constant S_ .f32 0x7F800000#32
  let main_v30 : FVec F S640x17 .f32 := broadcastInDim S640x17 ![] bcast_S_S640x17 main_cst_10
  let main_v31 : IVec S640x17 1 := cmpf .olt main_v29 main_v30
  let main_c_11 : IVec S_ 1 := constantI S_ 1 1#1
  let main_v32 : IVec S_ 1 := (fun x v => Host.reduce IntOp.andi x v reducesTo_S640x17_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x512 .f32) (main_arg1 : FVec F S512x1024 .f32) (main_arg2 : FVec F S1024 .f32) (main_arg3 : FVec F S1024x512 .f32) (main_arg4 : FVec F S512 .f32) (main_arg5 : FVec F S512x128 .f32) (main_arg6 : FVec F S640x17 .f32) (main_arg7 : FVec F S17 .f32) (main_arg8 : FVec F S512x10 .f32) (main_arg9 : FVec F S10 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_v13 main_v16
-- ==== Kernel.lean ====
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S512x128 : Shape := ⟨2, ![512, 128]⟩
abbrev S640x17 : Shape := ⟨2, ![640, 17]⟩
abbrev S17 : Shape := ⟨1, ![17]⟩
abbrev S512x10 : Shape := ⟨2, ![512, 10]⟩
abbrev S10 : Shape := ⟨1, ![10]⟩
abbrev S1024x128 : Shape := ⟨2, ![1024, 128]⟩
abbrev S256x512 : Shape := ⟨2, ![256, 512]⟩
abbrev S256x128 : Shape := ⟨2, ![256, 128]⟩
abbrev S256x1024 : Shape := ⟨2, ![256, 1024]⟩
abbrev S1x1024 : Shape := ⟨2, ![1, 1024]⟩
abbrev S1x512 : Shape := ⟨2, ![1, 512]⟩
abbrev S512x17 : Shape := ⟨2, ![512, 17]⟩
abbrev S128x17 : Shape := ⟨2, ![128, 17]⟩
abbrev S1024x17 : Shape := ⟨2, ![1024, 17]⟩
abbrev S1024x10 : Shape := ⟨2, ![1024, 10]⟩
abbrev S128x128 : Shape := ⟨2, ![128, 128]⟩
abbrev S128x512 : Shape := ⟨2, ![128, 512]⟩
abbrev S128x10 : Shape := ⟨2, ![128, 10]⟩
abbrev S1x128x128 : Shape := ⟨3, ![1, 128, 128]⟩
abbrev S128x1x128 : Shape := ⟨3, ![128, 1, 128]⟩
abbrev S128x128x128 : Shape := ⟨3, ![128, 128, 128]⟩
abbrev S1x17 : Shape := ⟨2, ![1, 17]⟩
abbrev S1x10 : Shape := ⟨2, ![1, 10]⟩

abbrev nBuf : Space → Nat
  | .hbm => 16
  | .vmem => 25
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x128, .f32⟩
  | .hbm, ⟨6, _⟩ => ⟨S640x17, .f32⟩
  | .hbm, ⟨7, _⟩ => ⟨S17, .f32⟩
  | .hbm, ⟨8, _⟩ => ⟨S512x10, .f32⟩
  | .hbm, ⟨9, _⟩ => ⟨S10, .f32⟩
  | .hbm, ⟨10, _⟩ => ⟨S1024x512, .bf16⟩
  | .hbm, ⟨11, _⟩ => ⟨S1024x128, .f32⟩
  | .hbm, ⟨12, _⟩ => ⟨S512x17, .f32⟩
  | .hbm, ⟨13, _⟩ => ⟨S128x17, .f32⟩
  | .hbm, ⟨14, _⟩ => ⟨S1024x17, .f32⟩
  | .hbm, ⟨15, _⟩ => ⟨S1024x10, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S1024, .f32⟩
  | .local _ .vmem, ⟨4, _⟩ => ⟨S1024x512, .f32⟩
  | .local _ .vmem, ⟨5, _⟩ => ⟨S512, .f32⟩
  | .local _ .vmem, ⟨6, _⟩ => ⟨S512x128, .f32⟩
  | .local _ .vmem, ⟨7, _⟩ => ⟨S256x512, .bf16⟩
  | .local _ .vmem, ⟨8, _⟩ => ⟨S256x512, .bf16⟩
  | .local _ .vmem, ⟨9, _⟩ => ⟨S256x128, .f32⟩
  | .local _ .vmem, ⟨10, _⟩ => ⟨S256x128, .f32⟩
  | .local _ .vmem, ⟨11, _⟩ => ⟨S128x128, .f32⟩
  | .local _ .vmem, ⟨12, _⟩ => ⟨S128x128, .f32⟩
  | .local _ .vmem, ⟨13, _⟩ => ⟨S1024x128, .f32⟩
  | .local _ .vmem, ⟨14, _⟩ => ⟨S128x512, .bf16⟩
  | .local _ .vmem, ⟨15, _⟩ => ⟨S128x512, .bf16⟩
  | .local _ .vmem, ⟨16, _⟩ => ⟨S512x17, .f32⟩
  | .local _ .vmem, ⟨17, _⟩ => ⟨S128x17, .f32⟩
  | .local _ .vmem, ⟨18, _⟩ => ⟨S17, .f32⟩
  | .local _ .vmem, ⟨19, _⟩ => ⟨S512x10, .f32⟩
  | .local _ .vmem, ⟨20, _⟩ => ⟨S10, .f32⟩
  | .local _ .vmem, ⟨21, _⟩ => ⟨S128x17, .f32⟩
  | .local _ .vmem, ⟨22, _⟩ => ⟨S128x17, .f32⟩
  | .local _ .vmem, ⟨23, _⟩ => ⟨S128x10, .f32⟩
  | .local _ .vmem, ⟨24, _⟩ => ⟨S128x10, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x17 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x17 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S17 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x17 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x10 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  packedbf16_S256x512_S256x512_0_0 : (Rect.unit (s := S256x512) ![0, 0] S256x512.size inb_S256x512_S256x512_0_0).PackedRows (EltTy.packing .bf16)
  inb_S512x128_S512x128_0_0 : ∀ a, (![0, 0] : Fin 2 → Nat) a + S512x128.size a ≤ S512x128.size a
  h_S512x128 : 0 < S512x128.numel
  inb_S256x128_S256x128_0_0 : ∀ a, (![0, 0] : Fin 2 → Nat) a + S256x128.size a ≤ S256x128.size a
  h_S256x128 : 0 < S256x128.numel
  slices_S640x17_S512x17_0_0 : S640x17.Slices ![0, 0] S512x17
  slices_S640x17_S128x17_512_0 : S640x17.Slices ![512, 0] S128x17
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S128x128_0_0 : ∀ a, (![0, 0] : Fin 2 → Nat) a + S128x128.size a ≤ S1024x128.size a
  shapeCasts_S128x128_S1x128x128 : S128x128.ShapeCasts S1x128x128
  shapeCasts_S128x128_S128x1x128 : S128x128.ShapeCasts S128x1x128
  broadcasts_S1x128x128_S128x128x128 : S1x128x128.Broadcasts S128x128x128
  broadcasts_S128x1x128_S128x128x128 : S128x1x128.Broadcasts S128x128x128
  reduces_S128x128x128_S128x128 : S128x128x128.Reduces [0] S128x128
  inb_S1024x128_S128x128_128_0 : ∀ a, (![128, 0] : Fin 2 → Nat) a + S128x128.size a ≤ S1024x128.size a
  inb_S1024x128_S128x128_256_0 : ∀ a, (![256, 0] : Fin 2 → Nat) a + S128x128.size a ≤ S1024x128.size a
  inb_S1024x128_S128x128_384_0 : ∀ a, (![384, 0] : Fin 2 → Nat) a + S128x128.size a ≤ S1024x128.size a
  inb_S1024x128_S128x128_512_0 : ∀ a, (![512, 0] : Fin 2 → Nat) a + S128x128.size a ≤ S1024x128.size a
  inb_S1024x128_S128x128_640_0 : ∀ a, (![640, 0] : Fin 2 → Nat) a + S128x128.size a ≤ S1024x128.size a
  inb_S1024x128_S128x128_768_0 : ∀ a, (![768, 0] : Fin 2 → Nat) a + S128x128.size a ≤ S1024x128.size a
  inb_S1024x128_S128x128_896_0 : ∀ a, (![896, 0] : Fin 2 → Nat) a + S128x128.size a ≤ S1024x128.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x17_S512x17_0_0 : ∀ a, (![0, 0] : Fin 2 → Nat) a + S512x17.size a ≤ S512x17.size a
  h_S512x17 : 0 < S512x17.numel
  shapeCasts_S512x17_S512x17 : S512x17.ShapeCasts S512x17
  inb_S128x17_S128x17_0_0 : ∀ a, (![0, 0] : Fin 2 → Nat) a + S128x17.size a ≤ S128x17.size a
  h_S128x17 : 0 < S128x17.numel
  shapeCasts_S128x17_S128x17 : S128x17.ShapeCasts S128x17
  inb_S17_S17_0 : ∀ a, (![0] : Fin 1 → Nat) a + S17.size a ≤ S17.size a
  h_S17 : 0 < S17.numel
  shapeCasts_S17_S1x17 : S17.ShapeCasts S1x17
  broadcasts_S1x17_S128x17 : S1x17.Broadcasts S128x17
  inb_S512x10_S512x10_0_0 : ∀ a, (![0, 0] : Fin 2 → Nat) a + S512x10.size a ≤ S512x10.size a
  h_S512x10 : 0 < S512x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []
  dot_S256x512_S512x128_S256x128_1_0_0_1_n_n_wf : DotDims.WF S256x512 S512x128 S256x128 [1] [0] [0] [1] [] []
  dot_S128x512_S512x17_S128x17_1_0_0_1_n_n_wf : DotDims.WF S128x512 S512x17 S128x17 [1] [0] [0] [1] [] []
  dot_S128x128_S128x17_S128x17_1_0_0_1_n_n_wf : DotDims.WF S128x128 S128x17 S128x17 [1] [0] [0] [1] [] []
  dot_S128x512_S512x10_S128x10_1_0_0_1_n_n_wf : DotDims.WF S128x512 S512x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S1024x512.size a
  hwx0_6 : ∀ i : grid0.Coords, EltTy.bits .bf16 = 32 ∨ (Rect.block (s := S1024x512) S256x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S1024x128.size a
  hwx0_7 : ∀ i : grid0.Coords, EltTy.bits .f32 = 32 ∨ (Rect.block (s := S1024x128) S256x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S1024x128.size a
  hwx1_0 : ∀ i : grid1.Coords, EltTy.bits .f32 = 32 ∨ (Rect.block (s := S1024x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S1024x512.size a
  hwx1_2 : ∀ i : grid1.Coords, EltTy.bits .bf16 = 32 ∨ (Rect.block (s := S1024x512) S128x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x17.size a ≤ S512x17.size a
  hwx1_3 : ∀ i : grid1.Coords, EltTy.bits .f32 = 32 ∨ (Rect.block (s := S512x17) S512x17.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x17.size a ≤ S128x17.size a
  hwx1_4 : ∀ i : grid1.Coords, EltTy.bits .f32 = 32 ∨ (Rect.block (s := S128x17) S128x17.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S17.size a ≤ S17.size a
  hwx1_5 : ∀ i : grid1.Coords, EltTy.bits .f32 = 32 ∨ (Rect.block (s := S17) S17.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x10.size a ≤ S512x10.size a
  hwx1_6 : ∀ i : grid1.Coords, EltTy.bits .f32 = 32 ∨ (Rect.block (s := S512x10) S512x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10.size a ≤ S10.size a
  hwx1_7 : ∀ i : grid1.Coords, EltTy.bits .f32 = 32 ∨ (Rect.block (s := S10) S10.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x17.size a ≤ S1024x17.size a
  hwx1_8 : ∀ i : grid1.Coords, EltTy.bits .f32 = 32 ∨ (Rect.block (s := S1024x17) S128x17.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x10.size a ≤ S1024x10.size a
  hwx1_9 : ∀ i : grid1.Coords, EltTy.bits .f32 = 32 ∨ (Rect.block (s := S1024x10) S128x10.size (cc1_transform_9 i) (hinb1_9 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S128x512_S512x17_S128x17_1_0_0_1_n_n : DotDims S128x512 S512x17 S128x17 where
  lhsContracting := [1]
  rhsContracting := [0]
  lhsNonContracting := [0]
  rhsNonContracting := [1]
  lhsBatch := []
  rhsBatch := []
  wf := dot_S128x512_S512x17_S128x17_1_0_0_1_n_n_wf
def dot_S128x128_S128x17_S128x17_1_0_0_1_n_n : DotDims S128x128 S128x17 S128x17 where
  lhsContracting := [1]
  rhsContracting := [0]
  lhsNonContracting := [0]
  rhsNonContracting := [1]
  lhsBatch := []
  rhsBatch := []
  wf := dot_S128x128_S128x17_S128x17_1_0_0_1_n_n_wf
def dot_S128x512_S512x10_S128x10_1_0_0_1_n_n : DotDims S128x512 S512x10 S128x10 where
  lhsContracting := [1]
  rhsContracting := [0]
  lhsNonContracting := [0]
  rhsNonContracting := [1]
  lhsBatch := []
  rhsBatch := []
  wf := dot_S128x512_S512x10_S128x10_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_1) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x17.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x17.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S17.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S512x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3_0) S128x17.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v3_1) S128x10.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S512x128 : Shape := ⟨2, ![512, 128]⟩
abbrev S640x17 : Shape := ⟨2, ![640, 17]⟩
abbrev S17 : Shape := ⟨1, ![17]⟩
abbrev S512x10 : Shape := ⟨2, ![512, 10]⟩
abbrev S10 : Shape := ⟨1, ![10]⟩
abbrev S1024x1024 : Shape := ⟨2, ![1024, 1024]⟩
abbrev S1x1024 : Shape := ⟨2, ![1, 1024]⟩
abbrev S_ : Shape := ⟨0, ![]⟩
abbrev S1x512 : Shape := ⟨2, ![1, 512]⟩
abbrev S1024x128 : Shape := ⟨2, ![1024, 128]⟩
abbrev S1x1024x128 : Shape := ⟨3, ![1, 1024, 128]⟩
abbrev S1024x1x128 : Shape := ⟨3, ![1024, 1, 128]⟩
abbrev S1024x1024x128 : Shape := ⟨3, ![1024, 1024, 128]⟩
abbrev S1024x640 : Shape := ⟨2, ![1024, 640]⟩
abbrev S1024x17 : Shape := ⟨2, ![1024, 17]⟩
abbrev S1x17 : Shape := ⟨2, ![1, 17]⟩
abbrev S1024x10 : Shape := ⟨2, ![1024, 10]⟩
abbrev S1x10 : Shape := ⟨2, ![1, 10]⟩

abbrev nBuf : Space → Nat
  | .hbm => 71
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x128, .f32⟩
  | .hbm, ⟨6, _⟩ => ⟨S640x17, .f32⟩
  | .hbm, ⟨7, _⟩ => ⟨S17, .f32⟩
  | .hbm, ⟨8, _⟩ => ⟨S512x10, .f32⟩
  | .hbm, ⟨9, _⟩ => ⟨S10, .f32⟩
  | .hbm, ⟨10, _⟩ => ⟨S1024x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .i1⟩
  | .hbm, ⟨17, _⟩ => ⟨S_, .f32⟩
  | .hbm, ⟨18, _⟩ => ⟨S1024x1024, .f32⟩
  | .hbm, ⟨19, _⟩ => ⟨S1024x1024, .i1⟩
  | .hbm, ⟨20, _⟩ => ⟨S_, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x512, .f32⟩
  | .hbm, ⟨30, _⟩ => ⟨S1x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .i1⟩
  | .hbm, ⟨36, _⟩ => ⟨S_, .f32⟩
  | .hbm, ⟨37, _⟩ => ⟨S1024x512, .f32⟩
  | .hbm, ⟨38, _⟩ => ⟨S1024x512, .i1⟩
  | .hbm, ⟨39, _⟩ => ⟨S_, .f32⟩
  | .hbm, ⟨40, _⟩ => ⟨S_, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S_, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1024x128, .f32⟩
  | .hbm, ⟨49, _⟩ => ⟨S1x1024x128, .f32⟩
  | .hbm, ⟨50, _⟩ => ⟨S1024x1x128, .f32⟩
  | .hbm, ⟨51, _⟩ => ⟨S1024x1024x128, .f32⟩
  | .hbm, ⟨52, _⟩ => ⟨S1024x1024x128, .f32⟩
  | .hbm, ⟨53, _⟩ => ⟨S1024x1024x128, .f32⟩
  | .hbm, ⟨54, _⟩ => ⟨S1024x1024x128, .f32⟩
  | .hbm, ⟨55, _⟩ => ⟨S1024x1024x128, .f32⟩
  | .hbm, ⟨56, _⟩ => ⟨S1024x1024x128, .f32⟩
  | .hbm, ⟨57, _⟩ => ⟨S_, .f32⟩
  | .hbm, ⟨58, _⟩ => ⟨S1024x128, .f32⟩
  | .hbm, ⟨59, _⟩ => ⟨S_, .f32⟩
  | .hbm, ⟨60, _⟩ => ⟨S1024x128, .f32⟩
  | .hbm, ⟨61, _⟩ => ⟨S1024x128, .f32⟩
  | .hbm, ⟨62, _⟩ => ⟨S1024x640, .f32⟩
  | .hbm, ⟨63, _⟩ => ⟨S1024x17, .f32⟩
  | .hbm, ⟨64, _⟩ => ⟨S1x17, .f32⟩
  | .hbm, ⟨65, _⟩ => ⟨S1024x17, .f32⟩
  | .hbm, ⟨66, _⟩ => ⟨S1024x17, .f32⟩
  | .hbm, ⟨67, _⟩ => ⟨S1024x10, .f32⟩
  | .hbm, ⟨68, _⟩ => ⟨S1x10, .f32⟩
  | .hbm, ⟨69, _⟩ => ⟨S1024x10, .f32⟩
  | .hbm, ⟨70, _⟩ => ⟨S1024x10, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_cst_1 : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_v4 : Ref sig .tc := ⟨.hbm, 23, rfl⟩
abbrev main_call0_v5 : Ref sig .tc := ⟨.hbm, 24, rfl⟩
abbrev main_call0_cst_2 : Ref sig .tc := ⟨.hbm, 25, rfl⟩
abbrev main_call0_v6 : Ref sig .tc := ⟨.hbm, 26, rfl⟩
abbrev main_call0_v7 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_cst_1 : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_v4 : Ref sig .tc := ⟨.hbm, 42, rfl⟩
abbrev main_call1_v5 : Ref sig .tc := ⟨.hbm, 43, rfl⟩
abbrev main_call1_cst_2 : Ref sig .tc := ⟨.hbm, 44, rfl⟩
abbrev main_call1_v6 : Ref sig .tc := ⟨.hbm, 45, rfl⟩
abbrev main_call1_v7 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst : Ref sig .tc := ⟨.hbm, 57, rfl⟩
abbrev main_v19 : Ref sig .tc := ⟨.hbm, 58, rfl⟩
abbrev main_cst_0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024x128_S1x1024x128_1_2 : S1024x128.BroadcastsInDim S1x1024x128 (![1, 2] : Fin 2 → Fin S1x1024x128.rank)
  bcast_S1024x128_S1024x1x128_0_2 : S1024x128.BroadcastsInDim S1024x1x128 (![0, 2] : Fin 2 → Fin S1024x1x128.rank)
  bcast_S1x1024x128_S1024x1024x128_0_1_2 : S1x1024x128.BroadcastsInDim S1024x1024x128 (![0, 1, 2] : Fin 3 → Fin S1024x1024x128.rank)
  bcast_S1024x1x128_S1024x1024x128_0_1_2 : S1024x1x128.BroadcastsInDim S1024x1024x128 (![0, 1, 2] : Fin 3 → Fin S1024x1024x128.rank)
  reducesTo_S1024x1024x128_S1024x128_d0 : S1024x1024x128.ReducesTo [0] S1024x128
  h_S_ : 0 < S_.numel
  bcast_S_S1024x128 : S_.BroadcastsInDim S1024x128 (![] : Fin 0 → Fin S1024x128.rank)
  concatenates_S1024x512_S1024x128_S1024x640_d1 : Shape.Concatenates [S1024x512, S1024x128] S1024x640 1
  bcast_S17_S1x17_1 : S17.BroadcastsInDim S1x17 (![1] : Fin 1 → Fin S1x17.rank)
  bcast_S1x17_S1024x17_0_1 : S1x17.BroadcastsInDim S1024x17 (![0, 1] : Fin 2 → Fin S1024x17.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x640_S640x17_S1024x17_1_0_0_1_n_n_wf : DotDims.WF S1024x640 S640x17 S1024x17 [1] [0] [0] [1] [] []
  dot_S1024x512_S512x10_S1024x10_1_0_0_1_n_n_wf : DotDims.WF S1024x512 S512x10 S1024x10 [1] [0] [0] [1] [] []

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x640_S640x17_S1024x17_1_0_0_1_n_n : DotDims S1024x640 S640x17 S1024x17 where
  lhsContracting := [1]
  rhsContracting := [0]
  lhsNonContracting := [0]
  rhsNonContracting := [1]
  lhsBatch := []
  rhsBatch := []
  wf := dot_S1024x640_S640x17_S1024x17_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

class Facts : Prop extends Facts₀ where

variable [Facts]
-- ==== Proof.R0Kernel.lean ====
import proofs.«161479_j81209241633290_1_alg».proof.Proof.Gen.KernelIdeal.Launch
import proofs.«161479_j81209241633290_1_alg».proof.Proof.Gen.KernelIdeal.Skeleton
import proofs.«161479_j81209241633290_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body on whole staging buffers

The body reads its six inputs whole — a 256-row block of `x`, the two weight matrices, the two bias rows and the
projection `T` —, and overwrites its two output buffers whole: the 256×512 block of features (rounded to bf16) and
the 256×128 block of their projection. It also loads each output buffer once before storing into it; the loaded
values are never used. -/

/-! ## The rectangles the body accesses: each is a whole buffer -/

abbrev rX : Rect S256x512 := Rect.unit (s := S256x512) ![0, 0] S256x512.size inb_S256x512_S256x512_0_0
abbrev rW0 : Rect S512x1024 := Rect.unit (s := S512x1024) ![0, 0] S512x1024.size inb_S512x1024_S512x1024_0_0
abbrev rB0 : Rect S1024 := Rect.unit (s := S1024) ![0] S1024.size inb_S1024_S1024_0
abbrev rW1 : Rect S1024x512 := Rect.unit (s := S1024x512) ![0, 0] S1024x512.size inb_S1024x512_S1024x512_0_0
abbrev rB1 : Rect S512 := Rect.unit (s := S512) ![0] S512.size inb_S512_S512_0
abbrev rT : Rect S512x128 := Rect.unit (s := S512x128) ![0, 0] S512x128.size inb_S512x128_S512x128_0_0
abbrev rM : Rect S256x128 := Rect.unit (s := S256x128) ![0, 0] S256x128.size inb_S256x128_S256x128_0_0

/-! ## What the body leaves in each output buffer -/

/-- The feature buffer after the body: its one store, of the features of the loaded inputs, over the whole buffer. -/
def outFeat (x0 : Vec F S256x512 .f32) (x1 : Vec F S512x1024 .f32) (x2 : Vec F S1024 .f32) (x3 : Vec F S1024x512 .f32)
    (x4 : Vec F S512 .f32) : Vec F S256x512 .bf16 :=
  View.canon [⟨rX, k0_pay2 (View.ld x0 rX) (View.ld x1 rW0) (View.ld x2 rB0) (View.ld x3 rW1) (View.ld x4 rB1)⟩]

/-- The projection buffer after the body: its one store, of the features times `T`, over the whole buffer. -/
def outMb (x0 : Vec F S256x512 .f32) (x1 : Vec F S512x1024 .f32) (x2 : Vec F S1024 .f32) (x3 : Vec F S1024x512 .f32)
    (x4 : Vec F S512 .f32) (x5 : Vec F S512x128 .f32) : Vec F S256x128 .f32 :=
  View.canon [⟨rM, k0_pay3 (View.ld x0 rX) (View.ld x1 rW0) (View.ld x2 rB0) (View.ld x3 rW1) (View.ld x4 rB1) (View.ld x5 rT)⟩]

/-- A store over the whole 256×512 buffer covers it. -/
theorem coverFeat (p : Vec F S256x512 .bf16) (y : S256x512.Idx) :
    ∃ pc ∈ ([⟨rX, p⟩] : List (View.Piece (Elt F) S256x512 .bf16)), y ∈ pc.1.set :=
  View.cover_of_tiled [⟨rX, p⟩] S256x512.size (by rfl) y

/-- A store over the whole 256×128 buffer covers it. -/
theorem coverMb (p : Vec F S256x128 .f32) (y : S256x128.Idx) :
    ∃ pc ∈ ([⟨rM, p⟩] : List (View.Piece (Elt F) S256x128 .f32)), y ∈ pc.1.set :=
  View.cover_of_tiled [⟨rM, p⟩] S256x128.size (by rfl) y

/-! ## The body's triple -/

set_option maxHeartbeats 1000000 in
/-- The body on whole staging buffers, the six inputs' at read contents `x0 … x5` and the two outputs' at anything,
    runs to the continuation holding the inputs' as they were and the outputs' at `outFeat` and `outMb` of the
    inputs. -/
theorem sound_kernel (c : Dev nD) (E : Set ℕ) (i : grid0.Coords)
    (arg1 : Memref sig .tc .vmem S256x512 .f32) (harg1 : arg1.IsWhole) (arg2 : Memref sig .tc .vmem S512x1024 .f32) (harg2 : arg2.IsWhole)
    (arg3 : Memref sig .tc .vmem S1024 .f32) (harg3 : arg3.IsWhole) (arg4 : Memref sig .tc .vmem S1024x512 .f32) (harg4 : arg4.IsWhole)
    (arg5 : Memref sig .tc .vmem S512 .f32) (harg5 : arg5.IsWhole) (arg6 : Memref sig .tc .vmem S512x128 .f32) (harg6 : arg6.IsWhole)
    (arg7 : Memref sig .tc .vmem S256x512 .bf16) (harg7 : arg7.IsWhole) (arg8 : Memref sig .tc .vmem S256x128 .f32) (harg8 : arg8.IsWhole)
    (x0 : Vec F S256x512 .f32) (x1 : Vec F S512x1024 .f32) (x2 : Vec F S1024 .f32) (x3 : Vec F S1024x512 .f32)
    (x4 : Vec F S512 .f32) (x5 : Vec F S512x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outFeat x0 x1 x2 x3 x4)
            ∗ owns (c : Thread nD τ) arg8 fullShare (outMb x0 x1 x2 x3 x4 x5)) -∗ K ⟨⟩))
      ⊢ wp frame (wpE (defs₀ (F := F)) Variants.none c none) E
          (cc0__feat_kernel i arg1 harg1 arg2 harg2 arg3 harg3 arg4 harg4 arg5 harg5 arg6 harg6 arg7 harg7 arg8 harg8) K := by
  simp only [cc0__feat_kernel_eq_skeleton]; unfold cc0__feat_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverFeat _)
  iexists _; isplitr
  swap; · iexact H7
  ipureintro
  exact View.read_writes_eq_canon _ _ _ (coverMb _)

end Cert.KernelIdeal.R0

end
-- ==== Proof.R0Body.lean ====
import proofs.«161479_j81209241633290_1_alg».proof.Proof.Gen.KernelIdeal.Launch
import proofs.«161479_j81209241633290_1_alg».proof.Proof.Gen.KernelIdeal.Skeleton
import proofs.«161479_j81209241633290_1_alg».proof.Proof.Gen.KernelIdeal.Points
import proofs.«161479_j81209241633290_1_alg».proof.Proof.R0Kernel
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data and its body obligation

The region runs the first kernel on a grid of four points. Point `t` is handed rows `256·t … 256·t + 255` of `x` and
the five parameter arrays whole, and writes back the same rows of the feature array and of the projection array.
Everything is stated at the contents `V` the region finds in the buffers when it is entered. -/

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- The proof data of the region on core `c`: the arrays as the region finds them; after the body at point `t` each
    input's buffer at its block and each output's at what the body's one store leaves there; the invariant is the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outFeat (iblk V c 0 t) (iblk V c 1 t) (iblk V c 2 t) (iblk V c 3 t) (iblk V c 4 t)
    | ⟨7, _⟩ => outMb (iblk V c 0 t) (iblk V c 1 t) (iblk V c 2 t) (iblk V c 3 t) (iblk V c 4 t) (iblk V c 5 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = outFeat (iblk V c 0 t) (iblk V c 1 t) (iblk V c 2 t) (iblk V c 3 t) (iblk V c 4 t) := by dsimp only [dat]
theorem after_7 (c : Dev nD) (t : Fin cfg0.N) : (dat V c).after 7 t
    = outMb (iblk V c 0 t) (iblk V c 1 t) (iblk V c 2 t) (iblk V c 3 t) (iblk V c 4 t) (iblk V c 5 t) := by dsimp only [dat]

/-- Each input's current staging buffer holds its block at every point, fetched there or not: where it is not
    fetched the block index has not moved since the point before, and the body leaves the block in place. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.Val1Defs.lean ====
/-
  The two blocks that one grid point of the second kernel stores, as pure functions of its whole input
  blocks.

  x1 holds the 128 query rows of the projection, x2 all 1024 rows of it, x3 the query rows of the
  features; x4 and x5 are the upper 512 and the lower 128 rows of the first head's weights, x6 its bias,
  x7 and x8 the second head's weights and bias. The body reads x2 in eight blocks of 128 rows, block t
  being rows 128 t … 128 t + 127, and every other operand whole. An accumulator that starts at the word
  0.0 takes in, block after block, the lane sums of exp (0.0 − |x1 − row of the block|); the first head
  then takes away the word 1.0, multiplies by x5, adds the product of x3 and x4 and the bias; the second
  head is the product of x3 and x7 plus its bias.
-/
import proofs.«161479_j81209241633290_1_alg».proof.Proof.Gen.KernelIdeal.Skeleton
import Idealize.ShloMosaic.Lib.Pipeline.FrameBody

noncomputable section

namespace Cert.KernelIdeal.Val1

open Idealize.ShloMosaic Cert.KernelIdeal Cert.KernelIdeal.Gen

variable {F : FTy → Type} [FloatOps F]

/-- Block t of the 1024 rows: rows 128 t … 128 t + 127, all 128 lanes. -/
def chunk0 (x2 : Vec F S1024x128 .f32) : Vec F S128x128 .f32 :=
  View.ld x2 (Rect.unit (s := S1024x128) ![0, 0] S128x128.size inb_S1024x128_S128x128_0_0)
def chunk1 (x2 : Vec F S1024x128 .f32) : Vec F S128x128 .f32 :=
  View.ld x2 (Rect.unit (s := S1024x128) ![128, 0] S128x128.size inb_S1024x128_S128x128_128_0)
def chunk2 (x2 : Vec F S1024x128 .f32) : Vec F S128x128 .f32 :=
  View.ld x2 (Rect.unit (s := S1024x128) ![256, 0] S128x128.size inb_S1024x128_S128x128_256_0)
def chunk3 (x2 : Vec F S1024x128 .f32) : Vec F S128x128 .f32 :=
  View.ld x2 (Rect.unit (s := S1024x128) ![384, 0] S128x128.size inb_S1024x128_S128x128_384_0)
def chunk4 (x2 : Vec F S1024x128 .f32) : Vec F S128x128 .f32 :=
  View.ld x2 (Rect.unit (s := S1024x128) ![512, 0] S128x128.size inb_S1024x128_S128x128_512_0)
def chunk5 (x2 : Vec F S1024x128 .f32) : Vec F S128x128 .f32 :=
  View.ld x2 (Rect.unit (s := S1024x128) ![640, 0] S128x128.size inb_S1024x128_S128x128_640_0)
def chunk6 (x2 : Vec F S1024x128 .f32) : Vec F S128x128 .f32 :=
  View.ld x2 (Rect.unit (s := S1024x128) ![768, 0] S128x128.size inb_S1024x128_S128x128_768_0)
def chunk7 (x2 : Vec F S1024x128 .f32) : Vec F S128x128 .f32 :=
  View.ld x2 (Rect.unit (s := S1024x128) ![896, 0] S128x128.size inb_S1024x128_S128x128_896_0)

/-- The query rows as the body reads them: the whole block. -/
def q (x1 : Vec F S128x128 .f32) : Vec F S128x128 .f32 :=
  View.ld x1 (Rect.unit (s := S128x128) ![0, 0] S128x128.size inb_S128x128_S128x128_0_0)

/-- The query rows after the body's first (trivial) reshape. -/
def q1 (x1 : Vec F S128x128 .f32) : FVec F S128x128 .f32 := k1_pay2 (q x1)

/-- The accumulator after blocks 0, 1, 2. -/
def acc3 (x1 : Vec F S128x128 .f32) (x2 : Vec F S1024x128 .f32) : FVec F S128x128 .f32 :=
  k1_pay3 (q x1) (chunk0 x2) (chunk1 x2) (chunk2 x2)

/-- The accumulator after blocks 0 … 5. -/
def acc6 (x1 : Vec F S128x128 .f32) (x2 : Vec F S1024x128 .f32) : FVec F S128x128 .f32 :=
  k1_pay4 (q1 x1) (acc3 x1 x2) (chunk3 x2) (chunk4 x2) (chunk5 x2)

/-- The distances |x1 − row| of block 6, before the exponential. -/
def dist6 (x1 : Vec F S128x128 .f32) (x2 : Vec F S1024x128 .f32) : FVec F S128x128x128 .f32 :=
  k1_pay5 (q1 x1) (chunk6 x2)

/-- The block stored whole into the first head's window. -/
def o8 (x1 : Vec F S128x128 .f32) (x2 : Vec F S1024x128 .f32) (x3 : Vec F S128x512 .bf16)
    (x4 : Vec F S512x17 .f32) (x5 : Vec F S128x17 .f32) (x6 : Vec F S17 .f32) : FVec F S128x17 .f32 :=
  k1_pay7 (q1 x1) (acc6 x1 x2) (dist6 x1 x2) (Scalar.ofBits .f32 0x00000000#32) (chunk7 x2)
    (View.ld x3 (Rect.unit (s := S128x512) ![0, 0] S128x512.size inb_S128x512_S128x512_0_0))
    (View.ld x4 (Rect.unit (s := S512x17) ![0, 0] S512x17.size inb_S512x17_S512x17_0_0))
    (View.ld x5 (Rect.unit (s := S128x17) ![0, 0] S128x17.size inb_S128x17_S128x17_0_0))
    (View.ld x6 (Rect.unit (s := S17) ![0] S17.size inb_S17_S17_0))

/-- The block stored whole into the second head's window. -/
def o9 (x3 : Vec F S128x512 .bf16) (x7 : Vec F S512x10 .f32) (x8 : Vec F S10 .f32) : FVec F S128x10 .f32 :=
  k1_pay1
    (k1_pay6 (View.ld x3 (Rect.unit (s := S128x512) ![0, 0] S128x512.size inb_S128x512_S128x512_0_0)))
    (k1_pay8 (View.ld x7 (Rect.unit (s := S512x10) ![0, 0] S512x10.size inb_S512x10_S512x10_0_0)))
    (constant S128x10 .f32 0x00000000#32)
    (View.ld x8 (Rect.unit (s := S10) ![0] S10.size inb_S10_S10_0))

end Cert.KernelIdeal.Val1

end
-- ==== Proof.Body1.lean ====
/-
  The second kernel's grid point, as a step of the pipeline.

  At grid point t the body is handed ten staging buffers. Eight hold inputs: rows 128 t … 128 t + 127 of the
  projection matrix (window 0), ALL 1024 rows of the same matrix (window 1, the same array seen through a second
  window), the same 128 rows of the features (window 2), the upper and lower row blocks of the first head's
  weights (windows 3, 4), its bias (5), the second head's weights (6) and bias (7). It reads the 1024 rows
  of window 1 as eight loads of 128 rows, adds up the eight partial similarity sums, forms the two heads and
  stores each head's 128-row block WHOLE into windows 8 and 9. So after the body each output buffer is one
  function of the input blocks (o8, o9: the stored values as terms over the blocks), the inputs are as they were,
  and nothing else is touched.

  The proof data of the pipeline says exactly that: every array as the region finds it (V), after the body each
  input buffer at its block and each output buffer at that function of the input blocks. The projection matrix is
  held through two windows, so its one full share is dealt to them as its left and right halves; every other
  input array is held whole.
-/
import proofs.«161479_j81209241633290_1_alg».proof.Proof.Gen.KernelIdeal.Launch
import proofs.«161479_j81209241633290_1_alg».proof.Proof.Gen.KernelIdeal.Skeleton
import proofs.«161479_j81209241633290_1_alg».proof.Proof.Gen.KernelIdeal.Points
import proofs.«161479_j81209241633290_1_alg».proof.Proof.Val1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The blocks -/

/-- Window w's block at grid point t: the rectangle of its array that the index map selects there. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or left it from an earlier point (then its block index has not moved), for any proof data whose array is
    V's (hA) and whose body leaves the block in place (hafter). One statement per input window. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The whole of an output block. -/
abbrev r8 : Rect S128x17 := Rect.unit (s := S128x17) ![0, 0] S128x17.size inb_S128x17_S128x17_0_0
abbrev r9 : Rect S128x10 := Rect.unit (s := S128x10) ![0, 0] S128x10.size inb_S128x10_S128x10_0_0

/-- Window 8's buffer after the body: its one store, of the first head's block. -/
def out8 (x0 : Vec F S128x128 .f32) (x1 : Vec F S1024x128 .f32) (x2 : Vec F S128x512 .bf16) (x3 : Vec F S512x17 .f32)
    (x4 : Vec F S128x17 .f32) (x5 : Vec F S17 .f32) : Vec F S128x17 .f32 :=
  View.canon [⟨r8, Val1.o8 x0 x1 x2 x3 x4 x5⟩]

/-- Window 9's buffer after the body: its one store, of the second head's block. -/
def out9 (x2 : Vec F S128x512 .bf16) (x6 : Vec F S512x10 .f32) (x7 : Vec F S10 .f32) : Vec F S128x10 .f32 :=
  View.canon [⟨r9, Val1.o9 x2 x6 x7⟩]

/-- One whole-block store covers the block. -/
theorem cover8 (p : Vec F S128x17 .f32) (y : S128x17.Idx) :
    ∃ pc ∈ ([⟨r8, p⟩] : List (View.Piece (Elt F) S128x17 .f32)), y ∈ pc.1.set :=
  View.cover_of_tiled [⟨r8, p⟩] S128x17.size (by rfl) y
theorem cover9 (p : Vec F S128x10 .f32) (y : S128x10.Idx) :
    ∃ pc ∈ ([⟨r9, p⟩] : List (View.Piece (Elt F) S128x10 .f32)), y ∈ pc.1.set :=
  View.cover_of_tiled [⟨r9, p⟩] S128x10.size (by rfl) y

/-! ## The body's triple -/

set_option maxHeartbeats 1000000 in
/-- On whole staging memrefs, the inputs' at contents x0 … x7 and the outputs' at anything, the body runs to its end
    holding the inputs' as they were and the outputs' at out8 and out9 of the inputs. -/
theorem sound_kernel (c : Dev nD) (E : Set ℕ) (i : grid1.Coords) (a0 : Memref sig .tc .vmem S128x128 .f32) (ha0 : a0.IsWhole) (a1 : Memref sig .tc .vmem S1024x128 .f32) (ha1 : a1.IsWhole) (a2 : Memref sig .tc .vmem S128x512 .bf16) (ha2 : a2.IsWhole) (a3 : Memref sig .tc .vmem S512x17 .f32) (ha3 : a3.IsWhole) (a4 : Memref sig .tc .vmem S128x17 .f32) (ha4 : a4.IsWhole) (a5 : Memref sig .tc .vmem S17 .f32) (ha5 : a5.IsWhole) (a6 : Memref sig .tc .vmem S512x10 .f32) (ha6 : a6.IsWhole) (a7 : Memref sig .tc .vmem S10 .f32) (ha7 : a7.IsWhole) (a8 : Memref sig .tc .vmem S128x17 .f32) (ha8 : a8.IsWhole) (a9 : Memref sig .tc .vmem S128x10 .f32) (ha9 : a9.IsWhole)
    (x0 : Vec F S128x128 .f32) (x1 : Vec F S1024x128 .f32) (x2 : Vec F S128x512 .bf16) (x3 : Vec F S512x17 .f32) (x4 : Vec F S128x17 .f32) (x5 : Vec F S17 .f32) (x6 : Vec F S512x10 .f32) (x7 : Vec F S10 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (out8 x0 x1 x2 x3 x4 x5) ∗ owns (c : Thread nD τ) a9 fullShare (out9 x2 x6 x7)) -∗ K ⟨⟩))
      ⊢ wp frame (wpE (defs₀ (F := F)) Variants.none c none) E (cc1__mad_heads_kernel i a0 ha0 a1 ha1 a2 ha2 a3 ha3 a4 ha4 a5 ha5 a6 ha6 a7 ha7 a8 ha8 a9 ha9) K := by
  simp only [cc1__mad_heads_kernel_eq_skeleton]; unfold cc1__mad_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8 _)
  iexists _; isplitr
  swap; · iexact H9
  ipureintro
  exact View.read_writes_eq_canon _ _ _ (cover9 _)

/-! ## The pipeline's proof data -/

/-- The proof data of the second pipeline on core c: the arrays as the region finds them; after the body at point t
    each input's buffer at its block and each output's at out8 / out9 of the input blocks; the invariant is the
    scoped rest and the generator register, untouched; nothing owed. The projection matrix is seen through windows
    0 and 1: its full share is dealt to them as its two halves; every other input array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 (iblk V c 0 t) (iblk V c 1 t) (iblk V c 2 t) (iblk V c 3 t) (iblk V c 4 t) (iblk V c 5 t)
    | ⟨9, _⟩ => out9 (iblk V c 2 t) (iblk V c 6 t) (iblk V c 7 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out8 (iblk V c 0 t) (iblk V c 1 t) (iblk V c 2 t) (iblk V c 3 t) (iblk V c 4 t) (iblk V c 5 t) := by dsimp only [dat]
theorem after_9 (c : Dev nD) (t : Fin cfg1.N) : (dat V c).after 9 t = out9 (iblk V c 2 t) (iblk V c 6 t) (iblk V c 7 t) := by dsimp only [dat]

/-- The shares the two windows on the projection matrix hold it at, and the others'. -/
theorem q_0 (c : Dev nD) : (dat V c).q 0 = fullShare.left := by dsimp only [dat]; rfl
theorem q_1 (c : Dev nD) : (dat V c).q 1 = fullShare.right := by dsimp only [dat]; rfl
theorem q_rest (c : Dev nD) (w : Fin cfg1.W) (h0 : w ≠ 0) (h1 : w ≠ 1) : (dat V c).q w = fullShare := by
  dsimp only [dat]
  match w, h0, h1 with
  | ⟨0, _⟩, h0, _ => exact absurd rfl h0
  | ⟨1, _⟩, _, h1 => exact absurd rfl h1
  | ⟨n + 2, _⟩, _, _ => rfl

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d
theorem before_6 (c : Dev nD) (t : Fin cfg1.N) (d) : (dat V c).before 6 t d = iblk V c 6 t :=
  before_of_6 V (dat V c) (A_eq V c 6) (after_6 V c) t d
theorem before_7 (c : Dev nD) (t : Fin cfg1.N) (d) : (dat V c).before 7 t d = iblk V c 7 t :=
  before_of_7 V (dat V c) (A_eq V c 7) (after_7 V c) t d

/-! ## The body obligation, at a generic point -/

/-- What the body is called with at point t: the invariant, the core's dues, and each window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨G0, G1, G2, G3, G4, G5, G6, G7, G8, G9⟩
  isplitl [HΦ]; · iexact HΦ
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.RunShare1.lean ====
/-
  One array seen through two windows.

  The second kernel is handed the projection matrix twice: window 0 reads its 128 rows of the current grid point,
  window 1 reads all 1024 rows. Both are inputs, so the pipeline only ever READS the array, and reading needs only a
  share of it. When the region is entered the core holds each of its buffers whole, at the full share. The pipeline's
  own account of its arrays has one term per WINDOW, each at that window's share. The two accounts are the same
  resource: the full share of the projection matrix is the composite of two shares ql and qr, one per window
  (a points-to splits along a composite share and the two parts hold the same contents), and every other buffer
  stands behind exactly one window, which holds it whole. ENTRY deals the nine buffers to the ten windows; EXIT
  collects them again. Both windows on the shared array hold the contents of that one buffer, which is why the
  two parts rejoin.
-/
import proofs.«161479_j81209241633290_1_alg».proof.Proof.Gen.KernelIdeal.Launch
import proofs.«161479_j81209241633290_1_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.R1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.RA.PCS
open Idealize.ShloMosaic.Pipeline (Dat Cfg Window BodyObligation cellOf)

variable {F : FTy → Type} [FloatOps F]

local notation "𝕄" => MT nD τ sig Unit (Elt F) ℕ (UR sig nD τ) ℕ

/-- The nine distinct buffers behind the ten windows: window 1's array is window 0's. -/
abbrev bufs1 : List (Ref sig .tc) :=
  [Pipeline.arrRef spec1 0, Pipeline.arrRef spec1 2, Pipeline.arrRef spec1 3, Pipeline.arrRef spec1 4, Pipeline.arrRef spec1 5,
   Pipeline.arrRef spec1 6, Pipeline.arrRef spec1 7, Pipeline.arrRef spec1 8, Pipeline.arrRef spec1 9]

theorem img1 : Finset.univ.image (Pipeline.arrRef spec1) = bufs1.toFinset := by decide
theorem nodup1 : bufs1.Nodup := by decide
theorem ref10 : Pipeline.arrRef spec1 1 = Pipeline.arrRef spec1 0 := rfl

/-- A points-to at a buffer, transported along an equation of buffers. -/
theorem pts_ref {c : Dev nD} (V : (b : Ref sig .tc) → Buf (Elt F) ((c : Thread nD τ).loc b)) (q : PosShare TreeShare)
    {b b' : Ref sig .tc} (h : b = b') :
    ((((c : Thread nD τ).loc b) ↦{q} V b) : sProp 𝕄) = (((c : Thread nD τ).loc b') ↦{q} V b') := by
  subst h; rfl

set_option maxHeartbeats 400000 in
/-- ENTRY: the nine buffers behind the ten windows, each whole at the full share, are the windows' arrays: the
    projection matrix's share is dealt to its two windows, every other buffer goes to its one window. -/
theorem arrays_of_bufs (c : Dev nD) (dat : Dat τ (Elt F) Unit ℕ (UR sig nD τ) ℕ cfg1 c)
    (ql qr : PosShare TreeShare) (hsh : fullShare ∈ ql ·? qr)
    (hq0 : dat.q 0 = ql) (hq1 : dat.q 1 = qr)
    (hq : ∀ w : Fin cfg1.W, w ≠ 0 → w ≠ 1 → dat.q w = fullShare)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    (Pipeline.arrBufs spec1 c V : sProp 𝕄) ⊢ dat.arrays Fn := by
  have e : ∀ w : Fin cfg1.W, ((cfg1.win w).arr.view.loc (c : Thread nD τ) ↦[(cfg1.win w).arr.view.set]{dat.share w} Fn w : sProp 𝕄)
      = (((c : Thread nD τ).loc (Pipeline.arrRef spec1 w)) ↦{dat.share w} V (Pipeline.arrRef spec1 w)) := fun w => by
    rw [(arr_whole1 w).set_eq_univ, hF]
  have s0 : dat.share 0 = ql := by unfold Pipeline.Dat.share; rw [if_neg (by decide), hq0]
  have s1 : dat.share 1 = qr := by unfold Pipeline.Dat.share; rw [if_neg (by decide), hq1]
  have s2 : dat.share 2 = fullShare := by unfold Pipeline.Dat.share; rw [if_neg (by decide), hq 2 (by decide) (by decide)]
  have s3 : dat.share 3 = fullShare := by unfold Pipeline.Dat.share; rw [if_neg (by decide), hq 3 (by decide) (by decide)]
  have s4 : dat.share 4 = fullShare := by unfold Pipeline.Dat.share; rw [if_neg (by decide), hq 4 (by decide) (by decide)]
  have s5 : dat.share 5 = fullShare := by unfold Pipeline.Dat.share; rw [if_neg (by decide), hq 5 (by decide) (by decide)]
  have s6 : dat.share 6 = fullShare := by unfold Pipeline.Dat.share; rw [if_neg (by decide), hq 6 (by decide) (by decide)]
  have s7 : dat.share 7 = fullShare := by unfold Pipeline.Dat.share; rw [if_neg (by decide), hq 7 (by decide) (by decide)]
  have s8 : dat.share 8 = fullShare := by unfold Pipeline.Dat.share; rw [if_pos (by decide)]
  have s9 : dat.share 9 = fullShare := by unfold Pipeline.Dat.share; rw [if_pos (by decide)]
  unfold Pipeline.Dat.arrays Pipeline.arrBufs
  simp only [e]
  rw [bigSep_W1, bigSep_eq_bigSepL_of_eq bufs1 img1 nodup1]
  simp only [s0, s1, s2, s3, s4, s5, s6, s7, s8, s9, bigSepL_cons_cons, bigSepL_singleton]
  rw [pts_ref V qr ref10]
  exact (sep_mono (pointsTo_share hsh).1 .rfl).trans sep_assoc.1

set_option maxHeartbeats 400000 in
/-- EXIT: the converse; the two windows on the projection matrix hold the same contents, and their shares rejoin. -/
theorem bufs_of_arrays (c : Dev nD) (dat : Dat τ (Elt F) Unit ℕ (UR sig nD τ) ℕ cfg1 c)
    (ql qr : PosShare TreeShare) (hsh : fullShare ∈ ql ·? qr)
    (hq0 : dat.q 0 = ql) (hq1 : dat.q 1 = qr)
    (hq : ∀ w : Fin cfg1.W, w ≠ 0 → w ≠ 1 → dat.q w = fullShare)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    dat.arrays Fn ⊢ (Pipeline.arrBufs spec1 c V : sProp 𝕄) := by
  have e : ∀ w : Fin cfg1.W, ((cfg1.win w).arr.view.loc (c : Thread nD τ) ↦[(cfg1.win w).arr.view.set]{dat.share w} Fn w : sProp 𝕄)
      = (((c : Thread nD τ).loc (Pipeline.arrRef spec1 w)) ↦{dat.share w} V (Pipeline.arrRef spec1 w)) := fun w => by
    rw [(arr_whole1 w).set_eq_univ, hF]
  have s0 : dat.share 0 = ql := by unfold Pipeline.Dat.share; rw [if_neg (by decide), hq0]
  have s1 : dat.share 1 = qr := by unfold Pipeline.Dat.share; rw [if_neg (by decide), hq1]
  have s2 : dat.share 2 = fullShare := by unfold Pipeline.Dat.share; rw [if_neg (by decide), hq 2 (by decide) (by decide)]
  have s3 : dat.share 3 = fullShare := by unfold Pipeline.Dat.share; rw [if_neg (by decide), hq 3 (by decide) (by decide)]
  have s4 : dat.share 4 = fullShare := by unfold Pipeline.Dat.share; rw [if_neg (by decide), hq 4 (by decide) (by decide)]
  have s5 : dat.share 5 = fullShare := by unfold Pipeline.Dat.share; rw [if_neg (by decide), hq 5 (by decide) (by decide)]
  have s6 : dat.share 6 = fullShare := by unfold Pipeline.Dat.share; rw [if_neg (by decide), hq 6 (by decide) (by decide)]
  have s7 : dat.share 7 = fullShare := by unfold Pipeline.Dat.share; rw [if_neg (by decide), hq 7 (by decide) (by decide)]
  have s8 : dat.share 8 = fullShare := by unfold Pipeline.Dat.share; rw [if_pos (by decide)]
  have s9 : dat.share 9 = fullShare := by unfold Pipeline.Dat.share; rw [if_pos (by decide)]
  unfold Pipeline.Dat.arrays Pipeline.arrBufs
  simp only [e]
  rw [bigSep_W1, bigSep_eq_bigSepL_of_eq bufs1 img1 nodup1]
  simp only [s0, s1, s2, s3, s4, s5, s6, s7, s8, s9, bigSepL_cons_cons, bigSepL_singleton]
  rw [pts_ref V qr ref10]
  exact sep_assoc.2.trans (sep_mono (pointsTo_share hsh).2 .rfl)

end Cert.KernelIdeal.R1

end
-- ==== Proof.RunVal.lean ====
/-
  The whole program as three steps: the first kernel, two slices on the host, the second kernel.

  What every buffer of a core holds is followed from the launch to the return. W0 is the launch memory. The first
  kernel changes only its two result arrays (the features and the projections), which end at what its pipeline
  leaves: W1. The host then cuts the first head's weights into its upper 512 and lower 128 rows: W2. The second
  kernel changes only ITS two result arrays, the two heads: W3. Nothing on the way writes an argument, so each
  argument array is read back through W3, W2, W1 to the launch memory; and the two results are read off W3 as what
  the second pipeline leaves.
-/
import proofs.«161479_j81209241633290_1_alg».proof.Proof.R0Body
import proofs.«161479_j81209241633290_1_alg».proof.Proof.Body1
import proofs.«161479_j81209241633290_1_alg».proof.Proof.RunShare1
import proofs.«161479_j81209241633290_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the steps -/

/-- Core c's buffers at launch. -/
abbrev W0 : Dev nD → Valuation τ sig (Elt F) := fun c b => (s₀ m ρ).mem ((c : Dev nD), b)
/-- The same read at the TensorCore's references: what the first kernel finds. -/
abbrev V0 : (c : Dev nD) → (b : Ref sig .tc) → Buf (Elt F) ((c : Thread nD τ).loc b) := fun c b => W0 m ρ c b

/-- After the first kernel: its arrays at what its pipeline leaves, every other buffer as it was. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host slices: what the second kernel finds. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second kernel: its two result arrays at what its pipeline leaves, every other buffer as it was (its
    eight input windows only read). -/
def W3 (c : Dev nD) : Valuation τ sig (Elt F) :=
  Function.update (Function.update (W2 m ρ c) (Proc.devRef .tc main_v3_0) ((R1.dat (V2 m ρ) c).arrAt 8 cfg1.N))
    (Proc.devRef .tc main_v3_1) ((R1.dat (V2 m ρ) c).arrAt 9 cfg1.N)
abbrev V3 : (c : Dev nD) → (b : Ref sig .tc) → Buf (Elt F) ((c : Thread nD τ).loc b) := fun c b => W3 m ρ c b

theorem W3_out8 (c : Dev nD) : W3 m ρ c (Proc.devRef .tc main_v3_0) = (R1.dat (V2 m ρ) c).arrAt 8 cfg1.N := by
  unfold W3
  rw [Function.update_of_ne (StableHlo.devRef_ne_of_ne (by decide) : (Proc.devRef .tc main_v3_0 : DevRef τ sig) ≠ Proc.devRef .tc main_v3_1),
    Function.update_self]
theorem W3_out9 (c : Dev nD) : W3 m ρ c (Proc.devRef .tc main_v3_1) = (R1.dat (V2 m ρ) c).arrAt 9 cfg1.N := by
  unfold W3; rw [Function.update_self]
theorem W3_of_ne (c : Dev nD) (b : Ref sig .tc) (h8 : b ≠ main_v3_0) (h9 : b ≠ main_v3_1) :
    W3 m ρ c (Proc.devRef .tc b) = W2 m ρ c (Proc.devRef .tc b) := by
  unfold W3
  rw [Function.update_of_ne (StableHlo.devRef_ne_of_ne h9 : (Proc.devRef .tc b : DevRef τ sig) ≠ Proc.devRef .tc main_v3_1),
    Function.update_of_ne (StableHlo.devRef_ne_of_ne h8 : (Proc.devRef .tc b : DevRef τ sig) ≠ Proc.devRef .tc main_v3_0)]

end Cert.KernelIdeal.Run

end
-- ==== Proof.RunSeg.lean ====
/-
  The three steps as segments of one run, and the run.

  Between steps a core holds every unscoped buffer whole at the step's contents (W0, W1, W2, W3), the generator
  register at some state, and owes nothing. A kernel region takes its windows' arrays out of that holding when it is
  entered and puts them back, at what its pipeline leaves, when it ends; the register goes into the pipeline's
  invariant and comes back. The first kernel's eight arrays are eight distinct buffers, each held whole. The second
  kernel's ten windows stand on nine buffers: the projection matrix is dealt to windows 0 and 1 as the two halves of
  its full share at entry and the halves are joined again at exit, where both windows still hold the buffer's
  contents (they only read it). Every weakly fair execution of the program then terminates, and its final memory
  holds, on every core, every unscoped buffer at W3.
-/
import proofs.«161479_j81209241633290_1_alg».proof.Proof.RunVal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.RA.PCS
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 2) → (pcfgs (F := F) p).Adm := fun p => (cfgs p).toPCfg_adm

/-- Each pipeline's proof data at what its region finds. -/
def pdats : (p : Fin 2) → (c : Dev nD) → Dat τ (Elt F) Unit ℕ (UR sig nD τ) ℕ (Pipeline.pin (pcfgs (F := F)) adm p) c
  | ⟨0, _⟩ => fun c => R0.dat (V0 m ρ) c
  | ⟨1, _⟩ => fun c => R1.dat (V2 m ρ) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers: the generator register at some state, and nothing owed. -/
abbrev R (c : Dev nD) : sProp 𝕄 := iprop((∃ r, prngReg c r) ∗ ∃ W, owes (c : Thread nD τ) (0 : CellTallies nD τ sig Unit) W)

/-- The host stretch as a segment over the unscoped buffers from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last holding without the dues. -/
abbrev Tₙ (c : Dev nD) : sProp 𝕄 := iprop(StableHlo.held (c : Thread nD τ) (Pipeline.ucRefs τ sig) (W3 m ρ c) ∗ ∃ r, prngReg c r)

/-! ## The first kernel as a segment -/

set_option backward.isDefEq.respectTransparency.types false in
/-- Entered from every unscoped buffer at W0, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second kernel as a segment -/

/-- Off the second kernel's arrays nothing changes between W2 and W3. -/
theorem hrest1 (c : Dev nD) : ∀ b, b ∉ Finset.univ.image (Pipeline.arrRef spec1) → V3 m ρ c b = V2 m ρ c b :=
  fun b hb => W3_of_ne m ρ c b
    (fun e => hb (Finset.mem_image.mpr ⟨8, Finset.mem_univ _, e.symm⟩))
    (fun e => hb (Finset.mem_image.mpr ⟨9, Finset.mem_univ _, e.symm⟩))

/-- At its end each of its windows' arrays holds W3's contents: the inputs what they held (they were only read, and
    W3 keeps W2 there), the two results what the pipeline leaves. -/
theorem hF1 (c : Dev nD) : ∀ w : Fin cfg1.W, (R1.dat (V2 m ρ) c).arrAt w cfg1.N = V3 m ρ c (Pipeline.arrRef spec1 w)
  | ⟨0, _⟩ => (((R1.dat (V2 m ρ) c).arrAt_in 0 rfl _).trans (R1.A_eq (V2 m ρ) c 0)).trans (W3_of_ne m ρ c _ (by decide) (by decide)).symm
  | ⟨1, _⟩ => (((R1.dat (V2 m ρ) c).arrAt_in 1 rfl _).trans (R1.A_eq (V2 m ρ) c 1)).trans (W3_of_ne m ρ c _ (by decide) (by decide)).symm
  | ⟨2, _⟩ => (((R1.dat (V2 m ρ) c).arrAt_in 2 rfl _).trans (R1.A_eq (V2 m ρ) c 2)).trans (W3_of_ne m ρ c _ (by decide) (by decide)).symm
  | ⟨3, _⟩ => (((R1.dat (V2 m ρ) c).arrAt_in 3 rfl _).trans (R1.A_eq (V2 m ρ) c 3)).trans (W3_of_ne m ρ c _ (by decide) (by decide)).symm
  | ⟨4, _⟩ => (((R1.dat (V2 m ρ) c).arrAt_in 4 rfl _).trans (R1.A_eq (V2 m ρ) c 4)).trans (W3_of_ne m ρ c _ (by decide) (by decide)).symm
  | ⟨5, _⟩ => (((R1.dat (V2 m ρ) c).arrAt_in 5 rfl _).trans (R1.A_eq (V2 m ρ) c 5)).trans (W3_of_ne m ρ c _ (by decide) (by decide)).symm
  | ⟨6, _⟩ => (((R1.dat (V2 m ρ) c).arrAt_in 6 rfl _).trans (R1.A_eq (V2 m ρ) c 6)).trans (W3_of_ne m ρ c _ (by decide) (by decide)).symm
  | ⟨7, _⟩ => (((R1.dat (V2 m ρ) c).arrAt_in 7 rfl _).trans (R1.A_eq (V2 m ρ) c 7)).trans (W3_of_ne m ρ c _ (by decide) (by decide)).symm
  | ⟨8, _⟩ => (W3_out8 m ρ c).symm
  | ⟨9, _⟩ => (W3_out9 m ρ c).symm
  | ⟨_ + 10, h⟩ => absurd h (Nat.not_lt.2 (Nat.le_add_left _ _))

set_option backward.isDefEq.respectTransparency.types false in
/-- EXIT, the arrays: what the second pipeline's windows hold at its end is the nine buffers at W3. -/
theorem exit_collect (c : Dev nD) : (pdats m ρ 1 c).arrays ((pdats m ρ 1 c).arrAt · cfg1.N)
    ⊢ (Pipeline.arrBufs (Ix := Unit) (Name := ℕ) (U := UR sig nD τ) (Lvl := ℕ) spec1 c (V3 m ρ c) : sProp 𝕄) :=
  R1.bufs_of_arrays c (R1.dat (V2 m ρ) c) fullShare.left fullShare.right (PosShare.mem_left_op_right fullShare)
    (R1.q_0 (V2 m ρ) c) (R1.q_1 (V2 m ρ) c) (R1.q_rest (V2 m ρ) c) (V3 m ρ c) _ (hF1 m ρ c)

omit m ρ in
set_option backward.isDefEq.respectTransparency.types false in
/-- EXIT, in general: a resource that yields the nine buffers at contents V', beside the other unscoped buffers at
    contents V that agree with V' off the windows' arrays, is every unscoped buffer at V'. -/
theorem join_bufs (c : Dev nD) (A : sProp 𝕄) (V V' : (b : Ref sig .tc) → Buf (Elt F) ((c : Thread nD τ).loc b))
    (hcol : A ⊢ (Pipeline.arrBufs (Ix := Unit) (Name := ℕ) (U := UR sig nD τ) (Lvl := ℕ) spec1 c V' : sProp 𝕄))
    (hrest : ∀ b, b ∉ Finset.univ.image (Pipeline.arrRef spec1) → V' b = V b) :
    iprop(A ∗ Pipeline.unscopedRest (Ix := Unit) (Name := ℕ) (U := UR sig nD τ) (Lvl := ℕ) spec1 c V) ⊢ (unscopedBufs c V' : sProp 𝕄) := by
  rw [Pipeline.unscopedBufs_split₀ (Pipeline.pin (pcfgs (F := F)) adm) 1 winFacts₀1.arr_unscoped c V']
  refine sep_mono hcol (Entails.of_eq ?_)
  unfold Pipeline.unscopedRest
  exact bigSep_congr fun b hb => by rw [hrest b (Finset.mem_sdiff.mp hb).2]

set_option backward.isDefEq.respectTransparency.types false in
/-- Entered from every unscoped buffer at W2, left at W3. The nine buffers behind its ten windows are dealt to the
    windows at entry (the projection matrix to windows 0 and 1 as the halves of its full share) and collected at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have harr : (Pipeline.arrBufs (Ix := Unit) (Name := ℕ) (U := UR sig nD τ) (Lvl := ℕ) spec1 c (V2 m ρ c) : sProp 𝕄)
        ⊢ (pdats m ρ 1 c).arrays ((pdats m ρ 1 c).arrAt · 0) :=
      R1.arrays_of_bufs c (R1.dat (V2 m ρ) c) fullShare.left fullShare.right (PosShare.mem_left_op_right fullShare)
        (R1.q_0 (V2 m ρ) c) (R1.q_1 (V2 m ρ) c) (R1.q_rest (V2 m ρ) c) (V2 m ρ c) _ (fun _ => rfl)
    have hsplit : (unscopedBufs c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono harr .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join_bufs c _ (V2 m ρ c) (V3 m ρ c) (exit_collect m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]

/-- The program IS the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state every core holds every unscoped buffer at W3. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Run

end
-- ==== Proof.RunRead.lean ====
import proofs.«161479_j81209241633290_1_alg».proof.Proof.RunVal
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-! # The buffers read back through the three steps

The second kernel writes only the two heads; the host slices write only the two cuts of the first head's weights; the
first kernel writes only the features and the projections, and reads six of the arguments through input windows,
which it leaves as found. So every argument is read back to the launch memory, and what the second kernel finds is
the first kernel's two results, the two cuts, and three arguments untouched. -/

/-- The two host slices write the two cuts and nothing else. -/
theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h

/-! ## The arguments after the first kernel -/

/-- Argument 0 is input window 0 of the first kernel: left as found. -/
theorem W1_main_arg0 (c : Dev nD) : W1 m ρ c (Proc.devRef .tc main_arg0) = m ((c : Thread nD τ).loc main_arg0) :=
  (W1_arr m ρ c 0).trans (((R0.dat (V0 m ρ) c).arrAt_in 0 rfl _).trans (R0.A_eq (V0 m ρ) c 0))

/-- Argument 1 is input window 1 of the first kernel: left as found. -/
theorem W1_main_arg1 (c : Dev nD) : W1 m ρ c (Proc.devRef .tc main_arg1) = m ((c : Thread nD τ).loc main_arg1) :=
  (W1_arr m ρ c 1).trans (((R0.dat (V0 m ρ) c).arrAt_in 1 rfl _).trans (R0.A_eq (V0 m ρ) c 1))

/-- Argument 2 is input window 2 of the first kernel: left as found. -/
theorem W1_main_arg2 (c : Dev nD) : W1 m ρ c (Proc.devRef .tc main_arg2) = m ((c : Thread nD τ).loc main_arg2) :=
  (W1_arr m ρ c 2).trans (((R0.dat (V0 m ρ) c).arrAt_in 2 rfl _).trans (R0.A_eq (V0 m ρ) c 2))

/-- Argument 3 is input window 3 of the first kernel: left as found. -/
theorem W1_main_arg3 (c : Dev nD) : W1 m ρ c (Proc.devRef .tc main_arg3) = m ((c : Thread nD τ).loc main_arg3) :=
  (W1_arr m ρ c 3).trans (((R0.dat (V0 m ρ) c).arrAt_in 3 rfl _).trans (R0.A_eq (V0 m ρ) c 3))

/-- Argument 4 is input window 4 of the first kernel: left as found. -/
theorem W1_main_arg4 (c : Dev nD) : W1 m ρ c (Proc.devRef .tc main_arg4) = m ((c : Thread nD τ).loc main_arg4) :=
  (W1_arr m ρ c 4).trans (((R0.dat (V0 m ρ) c).arrAt_in 4 rfl _).trans (R0.A_eq (V0 m ρ) c 4))

/-- Argument 5 is input window 5 of the first kernel: left as found. -/
theorem W1_main_arg5 (c : Dev nD) : W1 m ρ c (Proc.devRef .tc main_arg5) = m ((c : Thread nD τ).loc main_arg5) :=
  (W1_arr m ρ c 5).trans (((R0.dat (V0 m ρ) c).arrAt_in 5 rfl _).trans (R0.A_eq (V0 m ρ) c 5))

/-- Argument 6 is no window of the first kernel. -/
theorem W1_main_arg6 (c : Dev nD) : W1 m ρ c (Proc.devRef .tc main_arg6) = m ((c : Thread nD τ).loc main_arg6) :=
  W1_of_ne m ρ c main_arg6 (by decide)

/-- Argument 7 is no window of the first kernel. -/
theorem W1_main_arg7 (c : Dev nD) : W1 m ρ c (Proc.devRef .tc main_arg7) = m ((c : Thread nD τ).loc main_arg7) :=
  W1_of_ne m ρ c main_arg7 (by decide)

/-- Argument 8 is no window of the first kernel. -/
theorem W1_main_arg8 (c : Dev nD) : W1 m ρ c (Proc.devRef .tc main_arg8) = m ((c : Thread nD τ).loc main_arg8) :=
  W1_of_ne m ρ c main_arg8 (by decide)

/-- Argument 9 is no window of the first kernel. -/
theorem W1_main_arg9 (c : Dev nD) : W1 m ρ c (Proc.devRef .tc main_arg9) = m ((c : Thread nD τ).loc main_arg9) :=
  W1_of_ne m ρ c main_arg9 (by decide)

/-! ## The arguments at the end -/

theorem W3_main_arg0 (c : Dev nD) : W3 m ρ c (Proc.devRef .tc main_arg0) = m ((c : Thread nD τ).loc main_arg0) :=
  (W3_of_ne m ρ c main_arg0 (by decide) (by decide)).trans <|
    (W2_of m ρ c main_arg0 (by decide)).trans <| W1_main_arg0 m ρ c

theorem W3_main_arg1 (c : Dev nD) : W3 m ρ c (Proc.devRef .tc main_arg1) = m ((c : Thread nD τ).loc main_arg1) :=
  (W3_of_ne m ρ c main_arg1 (by decide) (by decide)).trans <|
    (W2_of m ρ c main_arg1 (by decide)).trans <| W1_main_arg1 m ρ c

theorem W3_main_arg2 (c : Dev nD) : W3 m ρ c (Proc.devRef .tc main_arg2) = m ((c : Thread nD τ).loc main_arg2) :=
  (W3_of_ne m ρ c main_arg2 (by decide) (by decide)).trans <|
    (W2_of m ρ c main_arg2 (by decide)).trans <| W1_main_arg2 m ρ c

theorem W3_main_arg3 (c : Dev nD) : W3 m ρ c (Proc.devRef .tc main_arg3) = m ((c : Thread nD τ).loc main_arg3) :=
  (W3_of_ne m ρ c main_arg3 (by decide) (by decide)).trans <|
    (W2_of m ρ c main_arg3 (by decide)).trans <| W1_main_arg3 m ρ c

theorem W3_main_arg4 (c : Dev nD) : W3 m ρ c (Proc.devRef .tc main_arg4) = m ((c : Thread nD τ).loc main_arg4) :=
  (W3_of_ne m ρ c main_arg4 (by decide) (by decide)).trans <|
    (W2_of m ρ c main_arg4 (by decide)).trans <| W1_main_arg4 m ρ c

theorem W3_main_arg5 (c : Dev nD) : W3 m ρ c (Proc.devRef .tc main_arg5) = m ((c : Thread nD τ).loc main_arg5) :=
  (W3_of_ne m ρ c main_arg5 (by decide) (by decide)).trans <|
    (W2_of m ρ c main_arg5 (by decide)).trans <| W1_main_arg5 m ρ c

theorem W3_main_arg6 (c : Dev nD) : W3 m ρ c (Proc.devRef .tc main_arg6) = m ((c : Thread nD τ).loc main_arg6) :=
  (W3_of_ne m ρ c main_arg6 (by decide) (by decide)).trans <|
    (W2_of m ρ c main_arg6 (by decide)).trans <| W1_main_arg6 m ρ c

theorem W3_main_arg7 (c : Dev nD) : W3 m ρ c (Proc.devRef .tc main_arg7) = m ((c : Thread nD τ).loc main_arg7) :=
  (W3_of_ne m ρ c main_arg7 (by decide) (by decide)).trans <|
    (W2_of m ρ c main_arg7 (by decide)).trans <| W1_main_arg7 m ρ c

theorem W3_main_arg8 (c : Dev nD) : W3 m ρ c (Proc.devRef .tc main_arg8) = m ((c : Thread nD τ).loc main_arg8) :=
  (W3_of_ne m ρ c main_arg8 (by decide) (by decide)).trans <|
    (W2_of m ρ c main_arg8 (by decide)).trans <| W1_main_arg8 m ρ c

theorem W3_main_arg9 (c : Dev nD) : W3 m ρ c (Proc.devRef .tc main_arg9) = m ((c : Thread nD τ).loc main_arg9) :=
  (W3_of_ne m ρ c main_arg9 (by decide) (by decide)).trans <|
    (W2_of m ρ c main_arg9 (by decide)).trans <| W1_main_arg9 m ρ c

/-! ## What the second kernel finds -/

/-- The projections and the features are what the first kernel's pipeline left. -/
theorem V2_mb (c : Dev nD) : V2 m ρ c main_v0_1 = (R0.dat (V0 m ρ) c).arrAt 7 cfg0.N :=
  (W2_of m ρ c main_v0_1 (by decide)).trans (W1_arr m ρ c 7)
theorem V2_feat (c : Dev nD) : V2 m ρ c main_v0_0 = (R0.dat (V0 m ρ) c).arrAt 6 cfg0.N :=
  (W2_of m ρ c main_v0_0 (by decide)).trans (W1_arr m ρ c 6)

/-- The two cuts are the slices of the first head's weights as launched. -/
theorem V2_upper (c : Dev nD) : V2 m ρ c main_v1
    = extractStridedSlice S512x17 ![0, 0] (m ((c : Thread nD τ).loc main_arg6)) slices_S640x17_S512x17_0_0 := by
  show StableHlo.after hostOps1 (W1 m ρ c) (Proc.devRef .tc main_v1) = _
  after_results
  rw [W1_main_arg6 m ρ c]
theorem V2_lower (c : Dev nD) : V2 m ρ c main_v2
    = extractStridedSlice S128x17 ![512, 0] (m ((c : Thread nD τ).loc main_arg6)) slices_S640x17_S128x17_512_0 := by
  show StableHlo.after hostOps1 (W1 m ρ c) (Proc.devRef .tc main_v2) = _
  after_results
  rw [W1_main_arg6 m ρ c]

/-- The first head's bias and the second head's weights and bias are as launched. -/
theorem V2_bm (c : Dev nD) : V2 m ρ c main_arg7 = m ((c : Thread nD τ).loc main_arg7) :=
  (W2_of m ρ c main_arg7 (by decide)).trans (W1_main_arg7 m ρ c)
theorem V2_Wc (c : Dev nD) : V2 m ρ c main_arg8 = m ((c : Thread nD τ).loc main_arg8) :=
  (W2_of m ρ c main_arg8 (by decide)).trans (W1_main_arg8 m ρ c)
theorem V2_bc (c : Dev nD) : V2 m ρ c main_arg9 = m ((c : Thread nD τ).loc main_arg9) :=
  (W2_of m ρ c main_arg9 (by decide)).trans (W1_main_arg9 m ρ c)

end Cert.KernelIdeal.Run

end
-- ==== Proof.Spec.lean ====
/-
  The two results of the network as functions of its ten argument arrays, entry by entry, on the extended reals.

  A row i of the input goes through two dense layers with an exponential linear unit after each
  (elu v = v where v > 0, exp v − 1 elsewhere): hid, then feat. The features are projected by T to mb
  (1024 × 128). For every row i and lane b the similarity sim i b adds exp (−|mb i b − mb a b|) over ALL
  rows a and takes away the row's own term, the word 1.0. The first head multiplies the features by the
  upper 512 rows of Wm and the similarities by its lower 128 rows and adds the bias bm; the second head
  multiplies the features by Wc and adds bc.

  Every sum is a finite sum in the commutative monoid of extended reals, so neither its order nor its
  grouping matters; no law used to reach these formulas from either program needs a finite entry.
  The float words 0.0 and 1.0 are kept as the words the programs spell.
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-- A matrix, and a vector, of extended reals over literal extents. -/
abbrev Mat (a b : Nat) : Type := (⟨2, ![a, b]⟩ : Shape).Idx → EReal
abbrev Row (a : Nat) : Type := (⟨1, ![a]⟩ : Shape).Idx → EReal

/-- The float words 0.0 and 1.0 as the extended reals they denote. -/
abbrev w0 : EReal := Ideal.ofBits .f32 0x00000000#32
abbrev w1 : EReal := Ideal.ofBits .f32 0x3F800000#32

/-- The exponential linear unit: v where v is above the word 0.0, exp v less the word 1.0 elsewhere. -/
def elu (v : EReal) : EReal := Scalar.select (Ideal.cmp .ogt v w0) v (Ideal.exp v - w1)

/-- One term of a similarity: exp of minus the distance of two projections. -/
def term (p q : EReal) : EReal := Ideal.exp (-(max (p - q) (-(p - q))))

section

variable (x : Mat 1024 512) (Wb0 : Mat 512 1024) (bb0 : Row 1024) (Wb1 : Mat 1024 512) (bb1 : Row 512)
  (T : Mat 512 128) (Wm : Mat 640 17) (bm : Row 17) (Wc : Mat 512 10) (bc : Row 10)

/-- The first layer: elu (x · Wb0 + bb0). -/
def hid (i : Fin 1024) (k : Fin 1024) : EReal :=
  elu ((∑ d : Fin 512, x (ix2 i d) * Wb0 (ix2 d k)) + bb0 (ix1 k))

/-- The second layer: elu (hid · Wb1 + bb1). -/
def feat (i : Fin 1024) (k : Fin 512) : EReal :=
  elu ((∑ d : Fin 1024, hid x Wb0 bb0 i d * Wb1 (ix2 d k)) + bb1 (ix1 k))

/-- The projection feat · T. -/
def mb (i : Fin 1024) (b : Fin 128) : EReal :=
  ∑ d : Fin 512, feat x Wb0 bb0 Wb1 bb1 i d * T (ix2 d b)

/-- The similarity of row i in lane b to all rows, its own term (the word 1.0) taken away. -/
def sim (i : Fin 1024) (b : Fin 128) : EReal :=
  (∑ a : Fin 1024, term (mb x Wb0 bb0 Wb1 bb1 T i b) (mb x Wb0 bb0 Wb1 bb1 T a b)) - w1

/-- Row k of the upper block of Wm (rows 0 … 511), and of its lower block (rows 512 … 639). -/
def upper (k : Fin 512) : Fin 640 := ⟨k.val, by omega⟩
def lower (k : Fin 128) : Fin 640 := ⟨512 + k.val, by omega⟩

/-- The first head. -/
def mad (i : Fin 1024) (j : Fin 17) : EReal :=
  ((∑ k : Fin 512, feat x Wb0 bb0 Wb1 bb1 i k * Wm (ix2 (upper k) j))
    + (∑ k : Fin 128, sim x Wb0 bb0 Wb1 bb1 T i k * Wm (ix2 (lower k) j))) + bm (ix1 j)

/-- The second head. -/
def clf (i : Fin 1024) (j : Fin 10) : EReal :=
  (∑ k : Fin 512, feat x Wb0 bb0 Wb1 bb1 i k * Wc (ix2 k j)) + bc (ix1 j)

/-- The two results as whole arrays. -/
def madArr : Mat 1024 17 := fun j => mad x Wb0 bb0 Wb1 bb1 T Wm bm ⟨(j 0).val, idx2_lt0 j⟩ ⟨(j 1).val, idx2_lt1 j⟩
def clfArr : Mat 1024 10 := fun j => clf x Wb0 bb0 Wb1 bb1 Wc bc ⟨(j 0).val, idx2_lt0 j⟩ ⟨(j 1).val, idx2_lt1 j⟩

/-- The features and the projections as whole arrays (what the first kernel writes). -/
def featArr : Mat 1024 512 := fun j => feat x Wb0 bb0 Wb1 bb1 ⟨(j 0).val, idx2_lt0 j⟩ ⟨(j 1).val, idx2_lt1 j⟩
def mbArr : Mat 1024 128 := fun j => mb x Wb0 bb0 Wb1 bb1 T ⟨(j 0).val, idx2_lt0 j⟩ ⟨(j 1).val, idx2_lt1 j⟩

theorem madArr_apply (i : Fin 1024) (j : Fin 17) :
    madArr x Wb0 bb0 Wb1 bb1 T Wm bm (ix2 i j) = mad x Wb0 bb0 Wb1 bb1 T Wm bm i j := rfl
theorem clfArr_apply (i : Fin 1024) (j : Fin 10) :
    clfArr x Wb0 bb0 Wb1 bb1 Wc bc (ix2 i j) = clf x Wb0 bb0 Wb1 bb1 Wc bc i j := rfl
theorem featArr_apply (i : Fin 1024) (k : Fin 512) :
    featArr x Wb0 bb0 Wb1 bb1 (ix2 i k) = feat x Wb0 bb0 Wb1 bb1 i k := rfl
theorem mbArr_apply (i : Fin 1024) (b : Fin 128) :
    mbArr x Wb0 bb0 Wb1 bb1 T (ix2 i b) = mb x Wb0 bb0 Wb1 bb1 T i b := rfl

end

/-- The word 1.0 denotes the extended real 1. -/
theorem w1_eq : w1 = 1 := by
  simp [w1, Ideal.ofBits, Ideal.ieee, -EReal.coe_mul]; norm_num

/-- The word 0.0 denotes the extended real 0. -/
theorem w0_eq : w0 = 0 := Ideal.ofBits_zero_f32

end Cert.Spec

end
-- ==== Proof.R0ValMat.lean ====
import proofs.«161479_j81209241633290_1_alg».proof.Proof.Gen.KernelIdeal.Skeleton
import proofs.«161479_j81209241633290_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R0

open Cert.KernelIdeal Cert.KernelIdeal.Gen
open Idealize.ShloMosaic Idealize.ShloMosaic.ValueIdx

/-! # The first kernel's three matrix products, read at an entry

On the extended reals a product into a zero accumulator is the plain sum of products over the contracted axis; the
three products of the body contract the left operand's columns against the right operand's rows. -/

/-- The left operand's index at output index `i` and contraction position `q`: row `i 0`, column `q`. -/
theorem lhs0_hid (i : S256x1024.Idx) (q : dot_S256x512_S512x1024_S256x1024_1_0_0_1_n_n.contr.Idx) : (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide),
    dif_pos (show (0 : Fin S256x512.rank) ∈ dot_S256x512_S512x1024_S256x1024_1_0_0_1_n_n.lhsNonContracting by decide)]
  rfl
theorem lhs1_hid (i : S256x1024.Idx) (q : dot_S256x512_S512x1024_S256x1024_1_0_0_1_n_n.contr.Idx) : (dot_S256x512_S512x1024_S256x1024_1_0_0_1_n_n.lhsIdx i q 1).val = (q ⟨0, by decide⟩).val :=
  dot_S256x512_S512x1024_S256x1024_1_0_0_1_n_n.lhsIdx_val_of_single rfl i q
/-- The right operand's index: row `q`, column `i 1`. -/
theorem rhs0_hid (i : S256x1024.Idx) (q : dot_S256x512_S512x1024_S256x1024_1_0_0_1_n_n.contr.Idx) : (dot_S256x512_S512x1024_S256x1024_1_0_0_1_n_n.rhsIdx i q 0).val = (q ⟨0, by decide⟩).val :=
  dot_S256x512_S512x1024_S256x1024_1_0_0_1_n_n.rhsIdx_val_of_single rfl i q
theorem rhs1_hid (i : S256x1024.Idx) (q : dot_S256x512_S512x1024_S256x1024_1_0_0_1_n_n.contr.Idx) : (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide),
    dif_pos (show (1 : Fin S512x1024.rank) ∈ dot_S256x512_S512x1024_S256x1024_1_0_0_1_n_n.rhsNonContracting by decide)]
  rfl

/-- The 256×512 by 512×1024 product into a zero accumulator, read at `(r, k)`: the sum over `d` of
    `lhs (r, d) · rhs (d, k)`. -/
theorem matmul_hid_apply {φ₁ φ₂ : FTy} (lhs : FVec Ideal S256x512 φ₁) (rhs : FVec Ideal S512x1024 φ₂) (r : Fin 256) (k : Fin 1024) :
    matmul dot_S256x512_S512x1024_S256x1024_1_0_0_1_n_n none lhs rhs (constant (F := Ideal) S256x1024 .f32 0x00000000#32) (ix2 r k)
      = ∑ d : Fin 512, lhs (ix2 r d) * rhs (ix2 d k) := by
  simp only [matmul]
  rw [Ideal.matmul_constant_zero_apply, ← Equiv.sum_comp (ValueIdx.contrEquiv1 dot_S256x512_S512x1024_S256x1024_1_0_0_1_n_n 512 rfl rfl).symm]
  refine Finset.sum_congr rfl fun d _ => ?_
  have hk := ValueIdx.contrEquiv1_symm_val dot_S256x512_S512x1024_S256x1024_1_0_0_1_n_n 512 rfl rfl d
  have el : dot_S256x512_S512x1024_S256x1024_1_0_0_1_n_n.lhsIdx (ix2 r k) ((ValueIdx.contrEquiv1 dot_S256x512_S512x1024_S256x1024_1_0_0_1_n_n 512 rfl rfl).symm d) = ix2 r d :=
    funext fun a => Fin.ext (by
      match a with
      | ⟨0, _⟩ => exact lhs0_hid _ _
      | ⟨1, _⟩ => exact (lhs1_hid _ _).trans hk)
  have er : dot_S256x512_S512x1024_S256x1024_1_0_0_1_n_n.rhsIdx (ix2 r k) ((ValueIdx.contrEquiv1 dot_S256x512_S512x1024_S256x1024_1_0_0_1_n_n 512 rfl rfl).symm d) = ix2 d k :=
    funext fun a => Fin.ext (by
      match a with
      | ⟨0, _⟩ => exact (rhs0_hid _ _).trans hk
      | ⟨1, _⟩ => exact rhs1_hid _ _)
  rw [el, er]

/-- The left operand's index at output index `i` and contraction position `q`: row `i 0`, column `q`. -/
theorem lhs0_feat (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide),
    dif_pos (show (0 : Fin S256x1024.rank) ∈ dot_S256x1024_S1024x512_S256x512_1_0_0_1_n_n.lhsNonContracting by decide)]
  rfl
theorem lhs1_feat (i : S256x512.Idx) (q : dot_S256x1024_S1024x512_S256x512_1_0_0_1_n_n.contr.Idx) : (dot_S256x1024_S1024x512_S256x512_1_0_0_1_n_n.lhsIdx i q 1).val = (q ⟨0, by decide⟩).val :=
  dot_S256x1024_S1024x512_S256x512_1_0_0_1_n_n.lhsIdx_val_of_single rfl i q
/-- The right operand's index: row `q`, column `i 1`. -/
theorem rhs0_feat (i : S256x512.Idx) (q : dot_S256x1024_S1024x512_S256x512_1_0_0_1_n_n.contr.Idx) : (dot_S256x1024_S1024x512_S256x512_1_0_0_1_n_n.rhsIdx i q 0).val = (q ⟨0, by decide⟩).val :=
  dot_S256x1024_S1024x512_S256x512_1_0_0_1_n_n.rhsIdx_val_of_single rfl i q
theorem rhs1_feat (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide),
    dif_pos (show (1 : Fin S1024x512.rank) ∈ dot_S256x1024_S1024x512_S256x512_1_0_0_1_n_n.rhsNonContracting by decide)]
  rfl

/-- The 256×1024 by 1024×512 product into a zero accumulator, read at `(r, k)`: the sum over `d` of
    `lhs (r, d) · rhs (d, k)`. -/
theorem matmul_feat_apply {φ₁ φ₂ : FTy} (lhs : FVec Ideal S256x1024 φ₁) (rhs : FVec Ideal S1024x512 φ₂) (r : Fin 256) (k : Fin 512) :
    matmul dot_S256x1024_S1024x512_S256x512_1_0_0_1_n_n none lhs rhs (constant (F := Ideal) S256x512 .f32 0x00000000#32) (ix2 r k)
      = ∑ d : Fin 1024, lhs (ix2 r d) * rhs (ix2 d k) := by
  simp only [matmul]
  rw [Ideal.matmul_constant_zero_apply, ← Equiv.sum_comp (ValueIdx.contrEquiv1 dot_S256x1024_S1024x512_S256x512_1_0_0_1_n_n 1024 rfl rfl).symm]
  refine Finset.sum_congr rfl fun d _ => ?_
  have hk := ValueIdx.contrEquiv1_symm_val dot_S256x1024_S1024x512_S256x512_1_0_0_1_n_n 1024 rfl rfl d
  have el : dot_S256x1024_S1024x512_S256x512_1_0_0_1_n_n.lhsIdx (ix2 r k) ((ValueIdx.contrEquiv1 dot_S256x1024_S1024x512_S256x512_1_0_0_1_n_n 1024 rfl rfl).symm d) = ix2 r d :=
    funext fun a => Fin.ext (by
      match a with
      | ⟨0, _⟩ => exact lhs0_feat _ _
      | ⟨1, _⟩ => exact (lhs1_feat _ _).trans hk)
  have er : dot_S256x1024_S1024x512_S256x512_1_0_0_1_n_n.rhsIdx (ix2 r k) ((ValueIdx.contrEquiv1 dot_S256x1024_S1024x512_S256x512_1_0_0_1_n_n 1024 rfl rfl).symm d) = ix2 d k :=
    funext fun a => Fin.ext (by
      match a with
      | ⟨0, _⟩ => exact (rhs0_feat _ _).trans hk
      | ⟨1, _⟩ => exact rhs1_feat _ _)
  rw [el, er]

/-- The left operand's index at output index `i` and contraction position `q`: row `i 0`, column `q`. -/
theorem lhs0_mb (i : S256x128.Idx) (q : dot_S256x512_S512x128_S256x128_1_0_0_1_n_n.contr.Idx) : (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide),
    dif_pos (show (0 : Fin S256x512.rank) ∈ dot_S256x512_S512x128_S256x128_1_0_0_1_n_n.lhsNonContracting by decide)]
  rfl
theorem lhs1_mb (i : S256x128.Idx) (q : dot_S256x512_S512x128_S256x128_1_0_0_1_n_n.contr.Idx) : (dot_S256x512_S512x128_S256x128_1_0_0_1_n_n.lhsIdx i q 1).val = (q ⟨0, by decide⟩).val :=
  dot_S256x512_S512x128_S256x128_1_0_0_1_n_n.lhsIdx_val_of_single rfl i q
/-- The right operand's index: row `q`, column `i 1`. -/
theorem rhs0_mb (i : S256x128.Idx) (q : dot_S256x512_S512x128_S256x128_1_0_0_1_n_n.contr.Idx) : (dot_S256x512_S512x128_S256x128_1_0_0_1_n_n.rhsIdx i q 0).val = (q ⟨0, by decide⟩).val :=
  dot_S256x512_S512x128_S256x128_1_0_0_1_n_n.rhsIdx_val_of_single rfl i q
theorem rhs1_mb (i : S256x128.Idx) (q : dot_S256x512_S512x128_S256x128_1_0_0_1_n_n.contr.Idx) : (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide),
    dif_pos (show (1 : Fin S512x128.rank) ∈ dot_S256x512_S512x128_S256x128_1_0_0_1_n_n.rhsNonContracting by decide)]
  rfl

/-- The 256×512 by 512×128 product into a zero accumulator, read at `(r, k)`: the sum over `d` of
    `lhs (r, d) · rhs (d, k)`. -/
theorem matmul_mb_apply {φ₁ φ₂ : FTy} (lhs : FVec Ideal S256x512 φ₁) (rhs : FVec Ideal S512x128 φ₂) (r : Fin 256) (k : Fin 128) :
    matmul dot_S256x512_S512x128_S256x128_1_0_0_1_n_n none lhs rhs (constant (F := Ideal) S256x128 .f32 0x00000000#32) (ix2 r k)
      = ∑ d : Fin 512, lhs (ix2 r d) * rhs (ix2 d k) := by
  simp only [matmul]
  rw [Ideal.matmul_constant_zero_apply, ← Equiv.sum_comp (ValueIdx.contrEquiv1 dot_S256x512_S512x128_S256x128_1_0_0_1_n_n 512 rfl rfl).symm]
  refine Finset.sum_congr rfl fun d _ => ?_
  have hk := ValueIdx.contrEquiv1_symm_val dot_S256x512_S512x128_S256x128_1_0_0_1_n_n 512 rfl rfl d
  have el : dot_S256x512_S512x128_S256x128_1_0_0_1_n_n.lhsIdx (ix2 r k) ((ValueIdx.contrEquiv1 dot_S256x512_S512x128_S256x128_1_0_0_1_n_n 512 rfl rfl).symm d) = ix2 r d :=
    funext fun a => Fin.ext (by
      match a with
      | ⟨0, _⟩ => exact lhs0_mb _ _
      | ⟨1, _⟩ => exact (lhs1_mb _ _).trans hk)
  have er : dot_S256x512_S512x128_S256x128_1_0_0_1_n_n.rhsIdx (ix2 r k) ((ValueIdx.contrEquiv1 dot_S256x512_S512x128_S256x128_1_0_0_1_n_n 512 rfl rfl).symm d) = ix2 d k :=
    funext fun a => Fin.ext (by
      match a with
      | ⟨0, _⟩ => exact (rhs0_mb _ _).trans hk
      | ⟨1, _⟩ => exact rhs1_mb _ _)
  rw [el, er]

end Cert.KernelIdeal.R0

end
-- ==== Proof.R0ValPay.lean ====
import proofs.«161479_j81209241633290_1_alg».proof.Proof.Gen.KernelIdeal.Skeleton
import proofs.«161479_j81209241633290_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«161479_j81209241633290_1_alg».proof.Proof.R0ValMat

noncomputable section

open scoped BigOperators

namespace Cert.KernelIdeal.R0

open Cert.KernelIdeal Cert.KernelIdeal.Gen
open Idealize.ShloMosaic Idealize.ShloMosaic.ValueIdx

open Cert.Spec

/-! # The first kernel's stored values, read at an entry

Row `r` of the 256-row block goes through the two dense layers, each followed by the exponential linear unit; the
feature block is the second layer's output (the change of float format is the identity on the extended reals), and
the projection block is the feature block times `T`. Each entry depends on row `r` of the `x` block alone. -/

/-- The exponential linear unit as the body spells it on a whole vector: select (v > 0.0) v (exp v − 1.0). -/
def eluV {S : Shape} (v : FVec Ideal S .f32) : FVec Ideal S .f32 :=
  select (cmpf .ogt v (broadcast S (Scalar.ofBits .f32 0x00000000#32))) v
    (subf (exp v) (broadcast S (Scalar.ofBits .f32 0x3F800000#32)))

/-- Read at an entry it is the specification's unit of that entry. -/
theorem eluV_apply {S : Shape} (v : FVec Ideal S .f32) (i : S.Idx) : eluV v i = elu (v i) := rfl

/-- The first layer of the block: elu (x · Wb0 + bb0), 256 × 1024. -/
def hidV (v0 : Vec Ideal S256x512 .f32) (v2 : Vec Ideal S512x1024 .f32) (v5 : Vec Ideal S1024 .f32) : FVec Ideal S256x1024 .f32 :=
  eluV (addf (matmul dot_S256x512_S512x1024_S256x1024_1_0_0_1_n_n none (truncf .bf16 v0 bitsLt_bf16_f32)
      (truncf .bf16 v2 bitsLt_bf16_f32) (constant S256x1024 .f32 0x00000000#32))
    (broadcastTo S256x1024 (shapeCast S1x1024 v5 shapeCasts_S1024_S1x1024) broadcasts_S1x1024_S256x1024))

/-- The first layer at `(r, d)`. -/
theorem hidV_apply (v0 : Vec Ideal S256x512 .f32) (v2 : Vec Ideal S512x1024 .f32) (v5 : Vec Ideal S1024 .f32)
    (r : Fin 256) (d : Fin 1024) :
    hidV v0 v2 v5 (ix2 r d) = elu ((∑ e : Fin 512, v0 (ix2 r e) * v2 (ix2 e d)) + v5 (ix1 d)) := by
  unfold hidV
  rw [eluV_apply, addf_apply, matmul_hid_apply, broadcastTo_1b_ab_apply, shapeCast_a_1a_apply]
  rfl

/-- The stored features before the change of format are the second layer over the first. -/
theorem pay1_eq (v0 : Vec Ideal S256x512 .f32) (v2 : Vec Ideal S512x1024 .f32) (v5 : Vec Ideal S1024 .f32)
    (v16 : Vec Ideal S1024x512 .f32) (v19 : Vec Ideal S512 .f32) :
    k0_pay1 v0 v2 v5 v16 v19
      = eluV (addf (matmul dot_S256x1024_S1024x512_S256x512_1_0_0_1_n_n none (truncf .bf16 (hidV v0 v2 v5) bitsLt_bf16_f32)
          (truncf .bf16 v16 bitsLt_bf16_f32) (constant S256x512 .f32 0x00000000#32))
        (broadcastTo S256x512 (shapeCast S1x512 v19 shapeCasts_S512_S1x512) broadcasts_S1x512_S256x512)) := rfl

/-- The features of row `r` as the specification writes them, from the block's row and the parameters. -/
def featRow (v0 : Vec Ideal S256x512 .f32) (v2 : Vec Ideal S512x1024 .f32) (v5 : Vec Ideal S1024 .f32)
    (v16 : Vec Ideal S1024x512 .f32) (v19 : Vec Ideal S512 .f32) (r : Fin 256) (k : Fin 512) : EReal :=
  elu ((∑ d : Fin 1024, elu ((∑ e : Fin 512, v0 (ix2 r e) * v2 (ix2 e d)) + v5 (ix1 d)) * v16 (ix2 d k)) + v19 (ix1 k))

/-- The second layer at `(r, k)`. -/
theorem pay1_apply (v0 : Vec Ideal S256x512 .f32) (v2 : Vec Ideal S512x1024 .f32) (v5 : Vec Ideal S1024 .f32)
    (v16 : Vec Ideal S1024x512 .f32) (v19 : Vec Ideal S512 .f32) (r : Fin 256) (k : Fin 512) :
    k0_pay1 v0 v2 v5 v16 v19 (ix2 r k) = featRow v0 v2 v5 v16 v19 r k := by
  rw [pay1_eq, eluV_apply, addf_apply, matmul_feat_apply, broadcastTo_1b_ab_apply, shapeCast_a_1a_apply]
  unfold featRow
  refine congrArg (fun s => elu (s + v19 (ix1 k))) (Finset.sum_congr rfl fun d _ => ?_)
  rw [truncf_apply, truncf_apply, hidV_apply]

/-- The stored feature block at `(r, k)`: the change of format is the identity. -/
theorem pay2_apply (v0 : Vec Ideal S256x512 .f32) (v2 : Vec Ideal S512x1024 .f32) (v5 : Vec Ideal S1024 .f32)
    (v16 : Vec Ideal S1024x512 .f32) (v19 : Vec Ideal S512 .f32) (r : Fin 256) (k : Fin 512) :
    k0_pay2 v0 v2 v5 v16 v19 (ix2 r k) = featRow v0 v2 v5 v16 v19 r k :=
  pay1_apply v0 v2 v5 v16 v19 r k

/-- The stored projection block at `(r, b)`: the row's features times column `b` of `T`. -/
theorem pay3_apply (v0 : Vec Ideal S256x512 .f32) (v2 : Vec Ideal S512x1024 .f32) (v5 : Vec Ideal S1024 .f32)
    (v16 : Vec Ideal S1024x512 .f32) (v19 : Vec Ideal S512 .f32) (v32 : Vec Ideal S512x128 .f32) (r : Fin 256) (b : Fin 128) :
    k0_pay3 v0 v2 v5 v16 v19 v32 (ix2 r b) = ∑ d : Fin 512, featRow v0 v2 v5 v16 v19 r d * v32 (ix2 d b) := by
  unfold k0_pay3
  refine (matmul_mb_apply _ _ r b).trans (Finset.sum_congr rfl fun d _ => ?_)
  rw [truncf_apply, truncf_apply, pay1_apply]

end Cert.KernelIdeal.R0

end
-- ==== Proof.R0ValArr.lean ====
import proofs.«161479_j81209241633290_1_alg».proof.Proof.R0Body
import proofs.«161479_j81209241633290_1_alg».proof.Proof.R0ValPay
import Idealize.ShloMosaic.Lib.Pipeline.Value

noncomputable section

open scoped BigOperators

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

/-! # The two arrays the first region leaves, as the specification's

Point `t` of the grid reads rows `256·t … 256·t + 255` of `x` and the five parameter arrays whole, and writes back the
same rows of the feature array and of the projection array. Row `i` of either array is therefore written by point
`i / 256`, from row `i` of `x`: each array ends as the specification's function of the region's inputs. -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the `x` window and the two output windows are at block row `t`, column
    block 0; the parameter windows do not move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem row_lt (t : Fin cfg0.N) (r : Fin 256) : 256 * t.val + r.val < 1024 := by
  have hN : cfg0.N = 4 := N_0
  have := t.isLt; have := r.isLt; omega

/-! ## Each input block read where it lies in its array -/

/-- The `x` block at point `t` is rows `256·t …` of `x`. -/
theorem iblk0_apply (c : Dev nD) (t : Fin cfg0.N) (r : Fin 256) (e : Fin 512) :
    (iblk V c 0 t : Vec Ideal S256x512 .f32) (ix2 r e)
      = (V c main_arg0 : S1024x512.Idx → EReal) (ix2 ⟨256 * t.val + r.val, row_lt t r⟩ e) := by
  obtain ⟨e0, e1, -⟩ := idx_facts t
  unfold iblk
  rw [View.read_apply]
  show V c main_arg0 _ = V c main_arg0 _
  refine congrArg _ (funext fun a => Fin.ext ?_)
  match a with
  | ⟨0, _⟩ => show win0_0.index t (0 : Fin 2) * 256 + 1 * r.val = 256 * t.val + r.val; rw [e0]; omega
  | ⟨1, _⟩ => show win0_0.index t (1 : Fin 2) * 512 + 1 * e.val = e.val; rw [e1]; omega

/-- The parameter windows hold their arrays whole. -/
theorem iblk1_eq (c : Dev nD) (t : Fin cfg0.N) :
    (iblk V c 1 t : Vec Ideal S512x1024 .f32) = (V c main_arg1 : S512x1024.Idx → EReal) := by
  obtain ⟨-, -, e0, e1, -⟩ := idx_facts t
  funext j
  unfold iblk
  rw [View.read_apply]
  show V c main_arg1 _ = V c main_arg1 _
  refine congrArg _ (funext fun a => Fin.ext ?_)
  match a with
  | ⟨0, _⟩ => show win0_1.index t (0 : Fin 2) * 512 + 1 * (j 0).val = (j 0).val; rw [e0]; omega
  | ⟨1, _⟩ => show win0_1.index t (1 : Fin 2) * 1024 + 1 * (j 1).val = (j 1).val; rw [e1]; omega

theorem iblk2_eq (c : Dev nD) (t : Fin cfg0.N) :
    (iblk V c 2 t : Vec Ideal S1024 .f32) = (V c main_arg2 : S1024.Idx → EReal) := by
  obtain ⟨-, -, -, -, e0, -⟩ := idx_facts t
  funext j
  unfold iblk
  rw [View.read_apply]
  show V c main_arg2 _ = V c main_arg2 _
  refine congrArg _ (funext fun a => Fin.ext ?_)
  match a with
  | ⟨0, _⟩ => show win0_2.index t (0 : Fin 1) * 1024 + 1 * (j 0).val = (j 0).val; rw [e0]; omega

theorem iblk3_eq (c : Dev nD) (t : Fin cfg0.N) :
    (iblk V c 3 t : Vec Ideal S1024x512 .f32) = (V c main_arg3 : S1024x512.Idx → EReal) := by
  obtain ⟨-, -, -, -, -, e0, e1, -⟩ := idx_facts t
  funext j
  unfold iblk
  rw [View.read_apply]
  show V c main_arg3 _ = V c main_arg3 _
  refine congrArg _ (funext fun a => Fin.ext ?_)
  match a with
  | ⟨0, _⟩ => show win0_3.index t (0 : Fin 2) * 1024 + 1 * (j 0).val = (j 0).val; rw [e0]; omega
  | ⟨1, _⟩ => show win0_3.index t (1 : Fin 2) * 512 + 1 * (j 1).val = (j 1).val; rw [e1]; omega

theorem iblk4_eq (c : Dev nD) (t : Fin cfg0.N) :
    (iblk V c 4 t : Vec Ideal S512 .f32) = (V c main_arg4 : S512.Idx → EReal) := by
  obtain ⟨-, -, -, -, -, -, -, e0, -⟩ := idx_facts t
  funext j
  unfold iblk
  rw [View.read_apply]
  show V c main_arg4 _ = V c main_arg4 _
  refine congrArg _ (funext fun a => Fin.ext ?_)
  match a with
  | ⟨0, _⟩ => show win0_4.index t (0 : Fin 1) * 512 + 1 * (j 0).val = (j 0).val; rw [e0]; omega

theorem iblk5_eq (c : Dev nD) (t : Fin cfg0.N) :
    (iblk V c 5 t : Vec Ideal S512x128 .f32) = (V c main_arg5 : S512x128.Idx → EReal) := by
  obtain ⟨-, -, -, -, -, -, -, -, e0, e1, -⟩ := idx_facts t
  funext j
  unfold iblk
  rw [View.read_apply]
  show V c main_arg5 _ = V c main_arg5 _
  refine congrArg _ (funext fun a => Fin.ext ?_)
  match a with
  | ⟨0, _⟩ => show win0_5.index t (0 : Fin 2) * 512 + 1 * (j 0).val = (j 0).val; rw [e0]; omega
  | ⟨1, _⟩ => show win0_5.index t (1 : Fin 2) * 128 + 1 * (j 1).val = (j 1).val; rw [e1]; omega

/-! ## The features of a block's row are the specification's features of the array's row -/

/-- Row `r` of the block's features, when the block holds rows `256·p …` of `x` and the parameters are whole. -/
theorem featRow_eq (x0 : Vec Ideal S256x512 .f32) (x : Mat 1024 512) (Wb0 : Mat 512 1024) (bb0 : Row 1024)
    (Wb1 : Mat 1024 512) (bb1 : Row 512) (i : Fin 1024) (r : Fin 256)
    (h0 : ∀ e : Fin 512, x0 (ix2 r e) = x (ix2 i e)) (k : Fin 512) :
    featRow x0 Wb0 bb0 Wb1 bb1 r k = feat x Wb0 bb0 Wb1 bb1 i k := by
  unfold featRow feat hid
  simp only [h0]

variable (x : Mat 1024 512) (Wb0 : Mat 512 1024) (bb0 : Row 1024) (Wb1 : Mat 1024 512) (bb1 : Row 512) (T : Mat 512 128)

/-! ## What point `t` writes back -/

/-- An entry of the feature window's block at point `t` lies at row `256·t + r` of the array. -/
theorem emb6 (t : Fin cfg0.N) (r : Fin 256) (k : Fin 512) :
    (((cfg0.win 6).blk t).view.emb (ix2 r k) : S1024x512.Idx) = ix2 ⟨256 * t.val + r.val, row_lt t r⟩ k := by
  obtain ⟨-, -, -, -, -, -, -, -, -, -, e0, e1, -⟩ := idx_facts t
  refine funext fun a => Fin.ext ?_
  match a with
  | ⟨0, _⟩ => show win0_6.index t (0 : Fin 2) * 256 + 1 * r.val = 256 * t.val + r.val; rw [e0]; omega
  | ⟨1, _⟩ => show win0_6.index t (1 : Fin 2) * 512 + 1 * k.val = k.val; rw [e1]; omega

/-- An entry of the projection window's block at point `t` lies at row `256·t + r` of the array. -/
theorem emb7 (t : Fin cfg0.N) (r : Fin 256) (b : Fin 128) :
    (((cfg0.win 7).blk t).view.emb (ix2 r b) : S1024x128.Idx) = ix2 ⟨256 * t.val + r.val, row_lt t r⟩ b := by
  obtain ⟨-, -, -, -, -, -, -, -, -, -, -, -, e0, e1⟩ := idx_facts t
  refine funext fun a => Fin.ext ?_
  match a with
  | ⟨0, _⟩ => show win0_7.index t (0 : Fin 2) * 256 + 1 * r.val = 256 * t.val + r.val; rw [e0]; omega
  | ⟨1, _⟩ => show win0_7.index t (1 : Fin 2) * 128 + 1 * b.val = b.val; rw [e1]; omega

/-- Point `t` writes back block `t` of the specification's feature array. -/
theorem flushed6_eq (c : Dev nD) (hV0 : (V c main_arg0 : S1024x512.Idx → EReal) = x)
    (hV1 : (V c main_arg1 : S512x1024.Idx → EReal) = Wb0) (hV2 : (V c main_arg2 : S1024.Idx → EReal) = bb0)
    (hV3 : (V c main_arg3 : S1024x512.Idx → EReal) = Wb1) (hV4 : (V c main_arg4 : S512.Idx → EReal) = bb1)
    (t : Fin cfg0.N) :
    (dat (F := Ideal) V c).flushed 6 t = ((cfg0.win 6).blk t).view.read (Elt Ideal) (featArr x Wb0 bb0 Wb1 bb1) := by
  show (cfg0.win 6).cut (grid0.coords t) ((dat (F := Ideal) V c).after 6 t) = _
  rw [after_6]
  unfold outFeat
  rw [View.canon_unit_zero hz2]
  simp only [View.ld_unit_zero (S := S256x512) hz2, View.ld_unit_zero (S := S512x1024) hz2,
    View.ld_unit_zero (S := S1024) hz1, View.ld_unit_zero (S := S1024x512) hz2, View.ld_unit_zero (S := S512) hz1]
  funext j
  obtain ⟨r, k, rfl⟩ : ∃ (r : Fin 256) (k : Fin 512), j = ix2 r k := ⟨j 0, j 1, eq_ix2 j⟩
  show k0_pay2 (iblk V c 0 t) (iblk V c 1 t) (iblk V c 2 t) (iblk V c 3 t) (iblk V c 4 t) (ix2 r k)
    = featArr x Wb0 bb0 Wb1 bb1 (((cfg0.win 6).blk t).view.emb (ix2 r k))
  rw [emb6 t r k, featArr_apply, iblk1_eq V c t, iblk2_eq V c t, iblk3_eq V c t, iblk4_eq V c t, hV1, hV2, hV3, hV4]
  refine (pay2_apply (iblk V c 0 t) Wb0 bb0 Wb1 bb1 r k).trans ?_
  exact featRow_eq (iblk V c 0 t) x Wb0 bb0 Wb1 bb1 _ r (fun e => by rw [iblk0_apply V c t r e, hV0]) k

/-- Point `t` writes back block `t` of the specification's projection array. -/
theorem flushed7_eq (c : Dev nD) (hV0 : (V c main_arg0 : S1024x512.Idx → EReal) = x)
    (hV1 : (V c main_arg1 : S512x1024.Idx → EReal) = Wb0) (hV2 : (V c main_arg2 : S1024.Idx → EReal) = bb0)
    (hV3 : (V c main_arg3 : S1024x512.Idx → EReal) = Wb1) (hV4 : (V c main_arg4 : S512.Idx → EReal) = bb1)
    (hV5 : (V c main_arg5 : S512x128.Idx → EReal) = T) (t : Fin cfg0.N) :
    (dat (F := Ideal) V c).flushed 7 t = ((cfg0.win 7).blk t).view.read (Elt Ideal) (mbArr x Wb0 bb0 Wb1 bb1 T) := by
  show (cfg0.win 7).cut (grid0.coords t) ((dat (F := Ideal) V c).after 7 t) = _
  rw [after_7]
  unfold outMb
  rw [View.canon_unit_zero hz2]
  simp only [View.ld_unit_zero (S := S256x512) hz2, View.ld_unit_zero (S := S512x1024) hz2,
    View.ld_unit_zero (S := S1024) hz1, View.ld_unit_zero (S := S1024x512) hz2, View.ld_unit_zero (S := S512) hz1,
    View.ld_unit_zero (S := S512x128) hz2]
  funext j
  obtain ⟨r, b, rfl⟩ : ∃ (r : Fin 256) (b : Fin 128), j = ix2 r b := ⟨j 0, j 1, eq_ix2 j⟩
  show k0_pay3 (iblk V c 0 t) (iblk V c 1 t) (iblk V c 2 t) (iblk V c 3 t) (iblk V c 4 t) (iblk V c 5 t) (ix2 r b)
    = mbArr x Wb0 bb0 Wb1 bb1 T (((cfg0.win 7).blk t).view.emb (ix2 r b))
  rw [emb7 t r b, mbArr_apply, iblk1_eq V c t, iblk2_eq V c t, iblk3_eq V c t, iblk4_eq V c t, iblk5_eq V c t,
    hV1, hV2, hV3, hV4, hV5]
  refine (pay3_apply (iblk V c 0 t) Wb0 bb0 Wb1 bb1 T r b).trans ?_
  unfold mb
  refine Finset.sum_congr rfl fun d _ => ?_
  rw [featRow_eq (iblk V c 0 t) x Wb0 bb0 Wb1 bb1 _ r (fun e => by rw [iblk0_apply V c t r e, hV0]) d]

/-! ## Every row is some point's -/

/-- An index of the feature array is in point `t`'s block iff its coordinates are in the block's ranges. -/
theorem mem_blk6 (t : Fin cfg0.N) (i : S1024x512.Idx) :
    i ∈ ((cfg0.win 6).blk t).view.set ↔ ∀ a : Fin 2, win0_6.index t a * S256x512.size a ≤ (i a).val
      ∧ (i a).val < win0_6.index t a * S256x512.size a + S256x512.size a := by
  show i ∈ ((View.whole main_v0_0).slice (win0_6.rect t)).set ↔ _
  rw [View.set_slice_whole, Rect.mem_set_unit]
  exact Iff.rfl

theorem mem_blk7 (t : Fin cfg0.N) (i : S1024x128.Idx) :
    i ∈ ((cfg0.win 7).blk t).view.set ↔ ∀ a : Fin 2, win0_7.index t a * S256x128.size a ≤ (i a).val
      ∧ (i a).val < win0_7.index t a * S256x128.size a + S256x128.size a := by
  show i ∈ ((View.whole main_v0_1).slice (win0_7.rect t)).set ↔ _
  rw [View.set_slice_whole, Rect.mem_set_unit]
  exact Iff.rfl

/-- Row `i` of the feature array is covered by point `i / 256`. -/
theorem cover6 (i : S1024x512.Idx) : ∃ t : Fin cfg0.N, (cfg0.win 6).flush t = true ∧ i ∈ ((cfg0.win 6).blk t).view.set := by
  have hN : cfg0.N = 4 := N_0
  have hi0 : (i 0).val < 1024 := (i 0).isLt
  have hi1 : (i 1).val < 512 := (i 1).isLt
  refine ⟨⟨(i 0).val / 256, by omega⟩, flush0_6 _, ?_⟩
  rw [mem_blk6]
  obtain ⟨-, -, -, -, -, -, -, -, -, -, e0, e1, -⟩ := idx_facts ⟨(i 0).val / 256, by omega⟩
  intro a
  match a with
  | ⟨0, _⟩ =>
    show win0_6.index _ (0 : Fin 2) * 256 ≤ (i 0).val ∧ (i 0).val < win0_6.index _ (0 : Fin 2) * 256 + 256
    rw [e0]; show (i 0).val / 256 * 256 ≤ (i 0).val ∧ (i 0).val < (i 0).val / 256 * 256 + 256; omega
  | ⟨1, _⟩ =>
    show win0_6.index _ (1 : Fin 2) * 512 ≤ (i 1).val ∧ (i 1).val < win0_6.index _ (1 : Fin 2) * 512 + 512
    rw [e1]; omega

/-- Row `i` of the projection array is covered by point `i / 256`. -/
theorem cover7 (i : S1024x128.Idx) : ∃ t : Fin cfg0.N, (cfg0.win 7).flush t = true ∧ i ∈ ((cfg0.win 7).blk t).view.set := by
  have hN : cfg0.N = 4 := N_0
  have hi0 : (i 0).val < 1024 := (i 0).isLt
  have hi1 : (i 1).val < 128 := (i 1).isLt
  refine ⟨⟨(i 0).val / 256, by omega⟩, flush0_7 _, ?_⟩
  rw [mem_blk7]
  obtain ⟨-, -, -, -, -, -, -, -, -, -, -, -, e0, e1⟩ := idx_facts ⟨(i 0).val / 256, by omega⟩
  intro a
  match a with
  | ⟨0, _⟩ =>
    show win0_7.index _ (0 : Fin 2) * 256 ≤ (i 0).val ∧ (i 0).val < win0_7.index _ (0 : Fin 2) * 256 + 256
    rw [e0]; show (i 0).val / 256 * 256 ≤ (i 0).val ∧ (i 0).val < (i 0).val / 256 * 256 + 256; omega
  | ⟨1, _⟩ =>
    show win0_7.index _ (1 : Fin 2) * 128 ≤ (i 1).val ∧ (i 1).val < win0_7.index _ (1 : Fin 2) * 128 + 128
    rw [e1]; omega

/-! ## The arrays after the region -/

/-- The feature array after the region is the specification's. -/
theorem final6 (c : Dev nD) (hV0 : (V c main_arg0 : S1024x512.Idx → EReal) = x)
    (hV1 : (V c main_arg1 : S512x1024.Idx → EReal) = Wb0) (hV2 : (V c main_arg2 : S1024.Idx → EReal) = bb0)
    (hV3 : (V c main_arg3 : S1024x512.Idx → EReal) = Wb1) (hV4 : (V c main_arg4 : S512.Idx → EReal) = bb1) :
    (dat (F := Ideal) V c).arrAt 6 cfg0.N = featArr x Wb0 bb0 Wb1 bb1 :=
  (dat (F := Ideal) V c).arrAt_eq_of_cover 6 (featArr x Wb0 bb0 Wb1 bb1)
    (fun t _ => flushed6_eq V x Wb0 bb0 Wb1 bb1 c hV0 hV1 hV2 hV3 hV4 t) cover6

/-- The projection array after the region is the specification's. -/
theorem final7 (c : Dev nD) (hV0 : (V c main_arg0 : S1024x512.Idx → EReal) = x)
    (hV1 : (V c main_arg1 : S512x1024.Idx → EReal) = Wb0) (hV2 : (V c main_arg2 : S1024.Idx → EReal) = bb0)
    (hV3 : (V c main_arg3 : S1024x512.Idx → EReal) = Wb1) (hV4 : (V c main_arg4 : S512.Idx → EReal) = bb1)
    (hV5 : (V c main_arg5 : S512x128.Idx → EReal) = T) :
    (dat (F := Ideal) V c).arrAt 7 cfg0.N = mbArr x Wb0 bb0 Wb1 bb1 T :=
  (dat (F := Ideal) V c).arrAt_eq_of_cover 7 (mbArr x Wb0 bb0 Wb1 bb1 T)
    (fun t _ => flushed7_eq V x Wb0 bb0 Wb1 bb1 T c hV0 hV1 hV2 hV3 hV4 hV5 t) cover7

end Cert.KernelIdeal.R0

end
-- ==== Proof.SpecHeads.lean ====
/-
  What the second kernel leaves, as functions of the arrays it is handed.

  Given the projection matrix M (1024 × 128), the features Fe (1024 × 512), the upper and lower row blocks Wu, Wl of the
  first head's weights, its bias bm, and the second head's weights Wc and bias bc, the two result arrays are, entry by
  entry: head8 — features times Wu, plus the similarities (for row i and lane k the sum over ALL rows a of
  exp (−|M i k − M a k|), less the word 1.0) times Wl, plus bm; head9 — features times Wc plus bc.
  These are the specification's two heads once M and Fe are the specification's own projection and features and
  Wu, Wl are rows 0 … 511 and 512 … 639 of the first head's weights.
-/
import proofs.«161479_j81209241633290_1_alg».proof.Proof.Spec

noncomputable section

open scoped BigOperators

namespace Cert.Spec

open Idealize.ShloMosaic Idealize.ShloMosaic.ValueIdx

/-- The first head's array from the arrays the second kernel is handed. -/
def head8 (M : Mat 1024 128) (Fe : Mat 1024 512) (Wu : Mat 512 17) (Wl : Mat 128 17) (bm : Row 17) : Mat 1024 17 := fun j =>
  ((∑ k : Fin 512, Fe (ix2 (⟨(j 0).val, idx2_lt0 j⟩ : Fin 1024) k) * Wu (ix2 k (⟨(j 1).val, idx2_lt1 j⟩ : Fin 17)))
    + (∑ k : Fin 128, ((∑ a : Fin 1024, term (M (ix2 (⟨(j 0).val, idx2_lt0 j⟩ : Fin 1024) k)) (M (ix2 a k))) - w1)
        * Wl (ix2 k (⟨(j 1).val, idx2_lt1 j⟩ : Fin 17))))
    + bm (ix1 (⟨(j 1).val, idx2_lt1 j⟩ : Fin 17))

/-- The second head's array from the arrays the second kernel is handed. -/
def head9 (Fe : Mat 1024 512) (Wc : Mat 512 10) (bc : Row 10) : Mat 1024 10 := fun j =>
  (∑ k : Fin 512, Fe (ix2 (⟨(j 0).val, idx2_lt0 j⟩ : Fin 1024) k) * Wc (ix2 k (⟨(j 1).val, idx2_lt1 j⟩ : Fin 10)))
    + bc (ix1 (⟨(j 1).val, idx2_lt1 j⟩ : Fin 10))

theorem head8_apply (M : Mat 1024 128) (Fe : Mat 1024 512) (Wu : Mat 512 17) (Wl : Mat 128 17) (bm : Row 17) (i : Fin 1024) (j : Fin 17) :
    head8 M Fe Wu Wl bm (ix2 i j) = ((∑ k : Fin 512, Fe (ix2 i k) * Wu (ix2 k j))
      + (∑ k : Fin 128, ((∑ a : Fin 1024, term (M (ix2 i k)) (M (ix2 a k))) - w1) * Wl (ix2 k j))) + bm (ix1 j) := rfl

theorem head9_apply (Fe : Mat 1024 512) (Wc : Mat 512 10) (bc : Row 10) (i : Fin 1024) (j : Fin 10) :
    head9 Fe Wc bc (ix2 i j) = (∑ k : Fin 512, Fe (ix2 i k) * Wc (ix2 k j)) + bc (ix1 j) := rfl

end Cert.Spec

end
-- ==== Proof.R0Glue.lean ====
import proofs.«161479_j81209241633290_1_alg».proof.Proof.Gen.KernelIdeal
import proofs.«161479_j81209241633290_1_alg».proof.Proof.SpecHeads
import Idealize.ShloMosaic.Lib.ValueIdx
import Idealize.ShloMosaic.Lib.ValueLayout
import Idealize.ShloMosaic.Lib.Pipeline.Value

noncomputable section

open scoped BigOperators

namespace Cert.KernelIdeal.Glue

open Cert.KernelIdeal Cert.KernelIdeal.Gen
open Idealize.ShloMosaic Idealize.ShloMosaic.ValueIdx
open Cert.Spec

/-! # From the second kernel's arrays to the specification's two heads

Between the two kernels the first head's weight matrix (640 × 17) is cut into its upper 512 rows and its lower 128
rows. Handed the specification's own projections and features and these two cuts, the second kernel's two results
are the specification's two heads: the sums are the same sums, term by term. -/

/-- Row `k` of the upper cut is row `k` of the weights. -/
theorem slice_upper (Wm : Vec Ideal S640x17 .f32) (k : Fin 512) (j : Fin 17) :
    extractStridedSlice S512x17 ![0, 0] Wm slices_S640x17_S512x17_0_0 (ix2 k j) = Wm (ix2 (Cert.Spec.upper k) j) :=
  slice2_axis0_apply 0 Wm slices_S640x17_S512x17_0_0 k j (Cert.Spec.upper k) (Nat.zero_add _).symm

/-- Row `k` of the lower cut is row `512 + k` of the weights. -/
theorem slice_lower (Wm : Vec Ideal S640x17 .f32) (k : Fin 128) (j : Fin 17) :
    extractStridedSlice S128x17 ![512, 0] Wm slices_S640x17_S128x17_512_0 (ix2 k j) = Wm (ix2 (Cert.Spec.lower k) j) :=
  slice2_axis0_apply 512 Wm slices_S640x17_S128x17_512_0 k j (Cert.Spec.lower k) rfl

variable (x : Mat 1024 512) (Wb0 : Mat 512 1024) (bb0 : Row 1024) (Wb1 : Mat 1024 512) (bb1 : Row 512) (T : Mat 512 128)

/-- The first head: features times the upper cut, plus similarities times the lower cut, plus the bias. -/
theorem head8_spec (Wm : Mat 640 17) (bm : Row 17) :
    Cert.Spec.head8 (Cert.Spec.mbArr x Wb0 bb0 Wb1 bb1 T) (Cert.Spec.featArr x Wb0 bb0 Wb1 bb1)
        (extractStridedSlice S512x17 ![0, 0] Wm slices_S640x17_S512x17_0_0)
        (extractStridedSlice S128x17 ![512, 0] Wm slices_S640x17_S128x17_512_0) bm
      = Cert.Spec.madArr x Wb0 bb0 Wb1 bb1 T Wm bm := by
  funext j
  obtain ⟨i, q, rfl⟩ : ∃ (i : Fin 1024) (q : Fin 17), j = ix2 i q := ⟨j 0, j 1, eq_ix2 j⟩
  rw [head8_apply, madArr_apply]
  unfold mad sim
  refine congrArg (· + bm (ix1 q)) (congrArg₂ (· + ·) (Finset.sum_congr rfl fun k _ => ?_) (Finset.sum_congr rfl fun k _ => ?_))
  · rw [featArr_apply, slice_upper Wm k q]
  · rw [slice_lower Wm k q]
    refine congrArg (fun s => (s - w1) * Wm (ix2 (lower k) q)) (Finset.sum_congr rfl fun a _ => ?_)
    rw [mbArr_apply, mbArr_apply]

/-- The second head: features times its weights plus its bias. -/
theorem head9_spec (Wc : Mat 512 10) (bc : Row 10) :
    Cert.Spec.head9 (Cert.Spec.featArr x Wb0 bb0 Wb1 bb1) Wc bc = Cert.Spec.clfArr x Wb0 bb0 Wb1 bb1 Wc bc := by
  funext j
  obtain ⟨i, q, rfl⟩ : ∃ (i : Fin 1024) (q : Fin 10), j = ix2 i q := ⟨j 0, j 1, eq_ix2 j⟩
  rw [head9_apply, clfArr_apply]
  unfold clf
  refine congrArg (· + bc (ix1 q)) (Finset.sum_congr rfl fun k _ => ?_)
  rw [featArr_apply]

end Cert.KernelIdeal.Glue

end
-- ==== Proof.Val1Lib.lean ====
/-
  Reading tools that mention no program: a block of rows or of rows by lanes re-laid on a cube and read at
  its coordinates, a sum over the first axis of a cube read at a coordinate pair, a product of two matrices
  into a zero accumulator read at an entry, and a sum over 1024 rows cut into eight runs of 128.
-/
import Idealize.ShloMosaic.Lib.ValueLayout
import Idealize.ShloMosaic.PureOps.Ideal.Laws

noncomputable section

open scoped BigOperators

namespace Cert.KernelIdeal.Val1

open Idealize.ShloMosaic Idealize.ShloMosaic.ValueIdx

variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [a, 1, c] array broadcast to [a, b, c] reads, at (p, i, j), the operand at (p, 0, j). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ v h (ix3 p i j) = v (ix3 p (0 : Fin 1) j) := by
  refine broadcastTo_apply v h (ix3 p i j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- The sum over the first axis of an [a, b, c] cube of extended reals, read at (r, k), is the sum over p of
    the cube at (p, r, k). -/
theorem multiReduction_add_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ p : Fin a, src (ix3 p r k) :=
  (Ideal.multiReduction_add_single src 0x00000000#32 h hφ hacc (ix2 r k)).trans
    (Finset.sum_congr rfl fun p _ => congrArg src (funext fun ax => Fin.ext (by
      match ax with
      | ⟨0, _⟩ => rfl
      | ⟨1, _⟩ => rfl
      | ⟨2, _⟩ => rfl)))

/-- The product of an m × K by a K × n matrix into the zero accumulator, read at (p, q), is the sum over the
    contracted coordinate of the products of the entries. -/
theorem matmul_zero_plain_apply {m K n : ℕ} {φ₁ φ₂ : FTy}
    (w : DotDims.WF ⟨2, ![m, K]⟩ ⟨2, ![K, n]⟩ ⟨2, ![m, n]⟩ [1] [0] [0] [1] [] [])
    (prec : Option ContractPrecision) (A : FVec Ideal ⟨2, ![m, K]⟩ φ₁) (B : FVec Ideal ⟨2, ![K, n]⟩ φ₂)
    (p : Fin m) (q : Fin n) :
    matmul (F := Ideal) (⟨[1], [0], [0], [1], [], [], w⟩ : DotDims _ _ _) prec A B
        (constant (F := Ideal) ⟨2, ![m, n]⟩ .f32 0x00000000#32) (ix2 p q)
      = ∑ c : Fin K, A (ix2 p c) * B (ix2 c q) := by
  show FloatOps.matmul _ prec A B _ (ix2 p q) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 p q)
      ((contrEquiv1 _ K rfl rfl).symm c) = ix2 c q := by
    funext ax; apply Fin.ext
    match ax with
    | ⟨0, _⟩ => simp [DotDims.rhsIdx]; exact c2
    | ⟨1, _⟩ => simp [DotDims.rhsIdx]; rfl
  rw [l2, r2]

/-- A sum over 1024 rows is the sum, over eight runs t of 128 rows, of the sums over row 128 t + s of the run. -/
theorem sum_rows_by_runs {M : Type*} [AddCommMonoid M] (f : Fin 1024 → M) :
    ∑ a : Fin 1024, f a
      = ∑ t : Fin 8, ∑ s : Fin 128, f ⟨128 * t.val + s.val, by have := t.isLt; have := s.isLt; omega⟩ := by
  refine (Equiv.sum_comp (finProdFinEquiv (m := 8) (n := 128)) f).symm.trans ?_
  rw [Fintype.sum_prod_type]
  refine Finset.sum_congr rfl fun t _ => Finset.sum_congr rfl fun s _ => congrArg f (Fin.ext ?_)
  show s.val + 128 * t.val = 128 * t.val + s.val
  omega

end Cert.KernelIdeal.Val1

end
-- ==== Proof.Val1Chunk.lean ====
/-
  One block of 128 rows against the 128 query rows.

  The body lays the query block q on the cube (a, r, k) as q[r, k] and a block c of rows as c[a, k], takes
  |q[r, k] − c[a, k]|, then exp (z − ·) with z the word 0.0, and sums over a. At the extended reals the
  result at (r, k) is the sum over the block's rows a of exp (−|q[r, k] − c[a, k]|): 0.0 − d = −d, and
  |d| is max d (−d).
-/
import proofs.«161479_j81209241633290_1_alg».proof.Proof.Val1Defs
import proofs.«161479_j81209241633290_1_alg».proof.Proof.Val1Lib
import proofs.«161479_j81209241633290_1_alg».proof.Proof.Spec

noncomputable section

open scoped BigOperators

namespace Cert.KernelIdeal.Val1

open Idealize.ShloMosaic Idealize.ShloMosaic.ValueIdx Cert.KernelIdeal Cert.KernelIdeal.Gen

section Generic

variable {F : FTy → Type} [FloatOps F]

/-- The distances |q[r, k] − c[a, k]| on the cube (a, r, k). -/
def dist (v1 : FVec F S128x128 .f32) (v : Vec F S128x128 .f32) : FVec F S128x128x128 .f32 :=
  absf (subf
    (broadcastTo S128x128x128 (shapeCast S1x128x128 v1 shapeCasts_S128x128_S1x128x128)
      broadcasts_S1x128x128_S128x128x128)
    (broadcastTo S128x128x128
      (shapeCast S128x1x128 (shapeCast S128x128 v shapeCasts_S128x128_S128x128) shapeCasts_S128x128_S128x1x128)
      broadcasts_S128x1x128_S128x128x128))

/-- The sum over a of exp (z − d[a, r, k]). -/
def expSum (z : F .f32) (d : FVec F S128x128x128 .f32) : FVec F S128x128 .f32 :=
  multiReduction .add [0] S128x128 (exp (subf (broadcast S128x128x128 z) d)) 0x00000000#32
    reduces_S128x128x128_S128x128 (.inl rfl) rfl

/-- What one block of rows adds to the accumulator. -/
def chunkSum (v1 : FVec F S128x128 .f32) (v : Vec F S128x128 .f32) : FVec F S128x128 .f32 :=
  expSum (Scalar.ofBits .f32 0x00000000#32) (dist v1 v)

end Generic

/-- The distance at (a, r, k). -/
theorem dist_apply (v1 : FVec Ideal S128x128 .f32) (v : Vec Ideal S128x128 .f32) (a r k : Fin 128) :
    dist (F := Ideal) v1 v (ix3 a r k)
      = max (v1 (ix2 r k) - v (ix2 a k)) (-(v1 (ix2 r k) - v (ix2 a k))) := by
  unfold dist
  show max (broadcastTo S128x128x128 _ _ (ix3 a r k) - broadcastTo S128x128x128 _ _ (ix3 a r k))
      (-(broadcastTo S128x128x128 _ _ (ix3 a r k) - broadcastTo S128x128x128 _ _ (ix3 a r k))) = _
  rw [broadcastTo_1bc_abc_apply, broadcastTo_a1c_abc_apply, shapeCast_ab_1ab_apply, shapeCast_ab_a1b_apply,
    shapeCast_self]

/-- The sum of exponentials at (r, k). -/
theorem expSum_apply (z : Ideal .f32) (d : FVec Ideal S128x128x128 .f32) (r k : Fin 128) :
    expSum (F := Ideal) z d (ix2 r k) = ∑ a : Fin 128, Ideal.exp (z - d (ix3 a r k)) := by
  unfold expSum
  exact multiReduction_add_axis0_apply _ _ _ _ r k

/-- One block's contribution at (r, k): the sum over its rows a of the similarity term of q[r, k] and c[a, k]. -/
theorem chunkSum_apply (v1 : FVec Ideal S128x128 .f32) (v : Vec Ideal S128x128 .f32) (r k : Fin 128) :
    chunkSum (F := Ideal) v1 v (ix2 r k) = ∑ a : Fin 128, Cert.Spec.term (v1 (ix2 r k)) (v (ix2 a k)) := by
  unfold chunkSum
  rw [expSum_apply]
  refine Finset.sum_congr rfl fun a _ => ?_
  rw [dist_apply]
  show Ideal.exp (Cert.Spec.w0 - _) = Ideal.exp (-_)
  rw [Cert.Spec.w0_eq, zero_sub]

end Cert.KernelIdeal.Val1

end
-- ==== Proof.Val1Acc.lean ====
/-
  The accumulator of similarities after all eight blocks of rows.

  It starts at the word 0.0 and takes in the eight blocks' contributions in turn. Block t holds rows
  128 t … 128 t + 127 of the 1024, so its contribution at (r, k) is the sum of the similarity terms of
  x1[r, k] with x2[128 t + s, k] over s < 128; the eight of them together are the sum over all 1024 rows.
  Only the commutative-monoid laws of the extended reals are used.
-/
import proofs.«161479_j81209241633290_1_alg».proof.Proof.Val1Chunk

noncomputable section

open scoped BigOperators

namespace Cert.KernelIdeal.Val1

open Idealize.ShloMosaic Idealize.ShloMosaic.ValueIdx Cert.KernelIdeal Cert.KernelIdeal.Gen

section Generic

variable {F : FTy → Type} [FloatOps F]

/-- The body's first reshape of the query block changes nothing. -/
theorem pay2_eq (v0 : Vec F S128x128 .f32) : k1_pay2 v0 = v0 :=
  shapeCast_self v0 shapeCasts_S128x128_S128x128

/-- The query block read whole is the block. -/
theorem q_eq (x1 : Vec F S128x128 .f32) : q x1 = x1 :=
  View.ld_unit_zero (S := S128x128) (funext fun a => by match a with | ⟨0, _⟩ => rfl | ⟨1, _⟩ => rfl)
    inb_S128x128_S128x128_0_0 x1

theorem q1_eq (x1 : Vec F S128x128 .f32) : q1 x1 = x1 := by
  unfold q1; rw [pay2_eq, q_eq]

/-- The first three blocks: the word 0.0, then one contribution after another. -/
theorem pay3_eq (v0 v3 v16 v29 : Vec F S128x128 .f32) :
    k1_pay3 v0 v3 v16 v29
      = addf (addf (addf (broadcast S128x128 (Scalar.ofBits .f32 0x00000000#32)) (chunkSum (k1_pay2 v0) v3))
          (chunkSum (k1_pay2 v0) v16)) (chunkSum (k1_pay2 v0) v29) := rfl

/-- The next three blocks. -/
theorem pay4_eq (v1 v41 : FVec F S128x128 .f32) (v42 v55 v68 : Vec F S128x128 .f32) :
    k1_pay4 v1 v41 v42 v55 v68 = addf (addf (addf v41 (chunkSum v1 v42)) (chunkSum v1 v55)) (chunkSum v1 v68) := rfl

/-- The seventh block's distances. -/
theorem pay5_eq (v1 : FVec F S128x128 .f32) (v81 : Vec F S128x128 .f32) : k1_pay5 v1 v81 = dist v1 v81 := rfl

end Generic

/-- The contribution of the run of 128 rows that starts at row o: the sum over s < 128 of the similarity
    term of x1[r, k] and x2[o + s, k]. -/
def run (x1 : Vec Ideal S128x128 .f32) (x2 : Vec Ideal S1024x128 .f32) (r k : Fin 128) (o : ℕ)
    (ho : o + 128 ≤ 1024) : EReal :=
  ∑ s : Fin 128, Cert.Spec.term (x1 (ix2 r k)) (x2 (ix2 ⟨o + s.val, by have := s.isLt; omega⟩ k))

/-- A block of 128 rows read from row o on: entry (s, k) of the block is entry (o + s, k) of the rows. -/
theorem ld_rows (x2 : Vec Ideal S1024x128 .f32) (o : ℕ)
    (inb : ∀ a, (![o, 0] : Fin 2 → Nat) a + S128x128.size a ≤ S1024x128.size a) (s k : Fin 128)
    (h : o + s.val < 1024) :
    View.ld x2 (Rect.unit (s := S1024x128) ![o, 0] S128x128.size inb) (ix2 s k) = x2 (ix2 ⟨o + s.val, h⟩ k) := by
  show x2 _ = x2 _
  refine congrArg x2 (funext fun ax => Fin.ext ?_)
  match ax with
  | ⟨0, _⟩ => show o + 1 * s.val = o + s.val; omega
  | ⟨1, _⟩ => show 0 + 1 * k.val = k.val; omega

/-- So such a block's contribution is the run's. -/
theorem chunkSum_ld (x1 : Vec Ideal S128x128 .f32) (x2 : Vec Ideal S1024x128 .f32) (o : ℕ)
    (inb : ∀ a, (![o, 0] : Fin 2 → Nat) a + S128x128.size a ≤ S1024x128.size a) (ho : o + 128 ≤ 1024)
    (r k : Fin 128) :
    chunkSum (F := Ideal) x1 (View.ld x2 (Rect.unit (s := S1024x128) ![o, 0] S128x128.size inb)) (ix2 r k)
      = run x1 x2 r k o ho := by
  rw [chunkSum_apply]
  unfold run
  refine Finset.sum_congr rfl fun s _ => ?_
  rw [ld_rows x2 o inb s k (by have := s.isLt; omega)]

/-- The eight runs together are all 1024 rows. -/
theorem runs_eq_all (x1 : Vec Ideal S128x128 .f32) (x2 : Vec Ideal S1024x128 .f32) (r k : Fin 128) :
    (((((((Cert.Spec.w0 + run x1 x2 r k 0 (by omega)) + run x1 x2 r k 128 (by omega))
        + run x1 x2 r k 256 (by omega)) + run x1 x2 r k 384 (by omega)) + run x1 x2 r k 512 (by omega))
        + run x1 x2 r k 640 (by omega)) + run x1 x2 r k 768 (by omega)) + run x1 x2 r k 896 (by omega)
      = ∑ a : Fin 1024, Cert.Spec.term (x1 (ix2 r k)) (x2 (ix2 a k)) := by
  rw [sum_rows_by_runs (fun a => Cert.Spec.term (x1 (ix2 r k)) (x2 (ix2 a k))), Fin.sum_univ_eight,
    Cert.Spec.w0_eq, zero_add]
  unfold run
  rfl

/-- The accumulator after blocks 0, 1, 2. -/
theorem acc3_apply (x1 : Vec Ideal S128x128 .f32) (x2 : Vec Ideal S1024x128 .f32) (r k : Fin 128) :
    acc3 (F := Ideal) x1 x2 (ix2 r k)
      = ((Cert.Spec.w0 + run x1 x2 r k 0 (by omega)) + run x1 x2 r k 128 (by omega))
          + run x1 x2 r k 256 (by omega) := by
  unfold acc3
  rw [pay3_eq, pay2_eq, q_eq]
  unfold chunk0 chunk1 chunk2
  show ((Cert.Spec.w0 + chunkSum (F := Ideal) _ _ (ix2 r k)) + chunkSum (F := Ideal) _ _ (ix2 r k))
      + chunkSum (F := Ideal) _ _ (ix2 r k) = _
  rw [chunkSum_ld x1 x2 0 _ (by omega), chunkSum_ld x1 x2 128 _ (by omega), chunkSum_ld x1 x2 256 _ (by omega)]

/-- The accumulator after blocks 0 … 5. -/
theorem acc6_apply (x1 : Vec Ideal S128x128 .f32) (x2 : Vec Ideal S1024x128 .f32) (r k : Fin 128) :
    acc6 (F := Ideal) x1 x2 (ix2 r k)
      = (((((Cert.Spec.w0 + run x1 x2 r k 0 (by omega)) + run x1 x2 r k 128 (by omega))
          + run x1 x2 r k 256 (by omega)) + run x1 x2 r k 384 (by omega)) + run x1 x2 r k 512 (by omega))
          + run x1 x2 r k 640 (by omega) := by
  unfold acc6
  rw [pay4_eq, q1_eq]
  unfold chunk3 chunk4 chunk5
  show ((acc3 x1 x2 (ix2 r k) + chunkSum (F := Ideal) _ _ (ix2 r k)) + chunkSum (F := Ideal) _ _ (ix2 r k))
      + chunkSum (F := Ideal) _ _ (ix2 r k) = _
  rw [acc3_apply, chunkSum_ld x1 x2 384 _ (by omega), chunkSum_ld x1 x2 512 _ (by omega),
    chunkSum_ld x1 x2 640 _ (by omega)]

/-- The seventh block's contribution, whose distances and exponentials the body computes in two steps. -/
theorem seventh_apply (x1 : Vec Ideal S128x128 .f32) (x2 : Vec Ideal S1024x128 .f32) (r k : Fin 128) :
    expSum (F := Ideal) (Scalar.ofBits .f32 0x00000000#32) (dist6 x1 x2) (ix2 r k)
      = run x1 x2 r k 768 (by omega) := by
  unfold dist6
  rw [pay5_eq, q1_eq]
  unfold chunk6
  exact chunkSum_ld x1 x2 768 _ (by omega) r k

end Cert.KernelIdeal.Val1

end
-- ==== Proof.Val1Head.lean ====
/-
  The two stored blocks read at an entry.

  First head, at (r, j): the features' row r times column j of the upper weights, plus the similarities'
  row r times column j of the lower weights, plus the bias at j; the similarity at (r, k) is the sum over
  all 1024 rows a of the term of x1[r, k] and x2[a, k], less the word 1.0. Second head, at (r, j): the
  features' row r times column j of its weights, plus its bias at j. A product into the zero accumulator
  is a plain sum over the contracted coordinate, a change of float format is the identity on the extended
  reals, and a bias row laid over 128 rows reads the bias at the column.
-/
import proofs.«161479_j81209241633290_1_alg».proof.Proof.Val1Acc

noncomputable section

open scoped BigOperators

namespace Cert.KernelIdeal.Val1

open Idealize.ShloMosaic Idealize.ShloMosaic.ValueIdx Cert.KernelIdeal Cert.KernelIdeal.Gen

theorem zeros1 : (![0] : Fin 1 → ℕ) = fun _ => 0 := funext fun a => by match a with | ⟨0, _⟩ => rfl
theorem zeros2 : (![0, 0] : Fin 2 → ℕ) = fun _ => 0 :=
  funext fun a => by match a with | ⟨0, _⟩ => rfl | ⟨1, _⟩ => rfl

section Generic

variable {F : FTy → Type} [FloatOps F]

/-- The first head from the similarities (before the word 1.0 is taken away they are the accumulator). -/
def head17 (sim : FVec F S128x128 .f32) (v109 : Vec F S128x512 .bf16) (v112 : Vec F S512x17 .f32)
    (v115 : Vec F S128x17 .f32) (v121 : Vec F S17 .f32) : FVec F S128x17 .f32 :=
  addf (addf
      (matmul dot_S128x512_S512x17_S128x17_1_0_0_1_n_n none (k1_pay6 v109)
        (truncf .bf16 (shapeCast S512x17 v112 shapeCasts_S512x17_S512x17) bitsLt_bf16_f32)
        (constant S128x17 .f32 0x00000000#32))
      (matmul dot_S128x128_S128x17_S128x17_1_0_0_1_n_n none (truncf .bf16 sim bitsLt_bf16_f32)
        (truncf .bf16 (shapeCast S128x17 v115 shapeCasts_S128x17_S128x17) bitsLt_bf16_f32)
        (constant S128x17 .f32 0x00000000#32)))
    (broadcastTo S128x17 (shapeCast S1x17 v121 shapeCasts_S17_S1x17) broadcasts_S1x17_S128x17)

/-- The first head's block: the last two blocks of rows join the accumulator, the word 1.0 leaves it, and
    the head is taken of the result. -/
theorem pay7_eq (v1 v80 : FVec F S128x128 .f32) (v88 : FVec F S128x128x128 .f32) (c : F .f32)
    (v94 : Vec F S128x128 .f32) (v109 : Vec F S128x512 .bf16) (v112 : Vec F S512x17 .f32)
    (v115 : Vec F S128x17 .f32) (v121 : Vec F S17 .f32) :
    k1_pay7 v1 v80 v88 c v94 v109 v112 v115 v121
      = head17 (subf (addf (addf v80 (expSum c v88)) (chunkSum v1 v94))
          (broadcast S128x128 (Scalar.ofBits .f32 0x3F800000#32))) v109 v112 v115 v121 := rfl

/-- The body's reshape of the features' block changes nothing. -/
theorem pay6_eq (v109 : Vec F S128x512 .bf16) : k1_pay6 v109 = v109 :=
  shapeCast_self v109 shapeCasts_S128x512_S128x512

end Generic

/-- The first head at (r, j). -/
theorem head17_apply (sim : FVec Ideal S128x128 .f32) (v109 : Vec Ideal S128x512 .bf16)
    (v112 : Vec Ideal S512x17 .f32) (v115 : Vec Ideal S128x17 .f32) (v121 : Vec Ideal S17 .f32)
    (r : Fin 128) (j : Fin 17) :
    head17 (F := Ideal) sim v109 v112 v115 v121 (ix2 r j)
      = ((∑ k : Fin 512, v109 (ix2 r k) * v112 (ix2 k j)) + (∑ k : Fin 128, sim (ix2 r k) * v115 (ix2 k j)))
          + v121 (ix1 j) := by
  unfold head17
  show (matmul (F := Ideal) _ none _ _ _ (ix2 r j) + matmul (F := Ideal) _ none _ _ _ (ix2 r j))
      + broadcastTo S128x17 _ _ (ix2 r j) = _
  rw [broadcastTo_1b_ab_apply, shapeCast_a_1a_apply]
  refine congrArg₂ (· + ·) (congrArg₂ (· + ·) ?_ ?_) rfl
  · refine (matmul_zero_plain_apply _ none _ _ r j).trans (Finset.sum_congr rfl fun k _ => ?_)
    rw [pay6_eq, truncf_apply, shapeCast_self]
  · refine (matmul_zero_plain_apply _ none _ _ r j).trans (Finset.sum_congr rfl fun k _ => ?_)
    rw [truncf_apply, truncf_apply, shapeCast_self]

/-- The first head's stored block at (r, j). -/
theorem o8_apply (x1 : Vec Ideal S128x128 .f32) (x2 : Vec Ideal S1024x128 .f32) (x3 : Vec Ideal S128x512 .bf16)
    (x4 : Vec Ideal S512x17 .f32) (x5 : Vec Ideal S128x17 .f32) (x6 : Vec Ideal S17 .f32)
    (r : Fin 128) (j : Fin 17) :
    o8 (F := Ideal) x1 x2 x3 x4 x5 x6 (ix2 r j)
      = ((∑ k : Fin 512, x3 (ix2 r k) * x4 (ix2 k j))
          + (∑ k : Fin 128, ((∑ a : Fin 1024, Cert.Spec.term (x1 (ix2 r k)) (x2 (ix2 a k))) - Cert.Spec.w1)
              * x5 (ix2 k j))) + x6 (ix1 j) := by
  unfold o8
  rw [pay7_eq, head17_apply, View.ld_unit_zero (S := S128x512) zeros2, View.ld_unit_zero (S := S512x17) zeros2,
    View.ld_unit_zero (S := S128x17) zeros2, View.ld_unit_zero (S := S17) zeros1]
  refine congrArg₂ (· + ·) (congrArg₂ (· + ·) rfl (Finset.sum_congr rfl fun k _ => ?_)) rfl
  refine congrArg (· * x5 (ix2 k j)) ?_
  show ((acc6 x1 x2 (ix2 r k) + expSum (F := Ideal) _ (dist6 x1 x2) (ix2 r k))
        + chunkSum (F := Ideal) (q1 x1) (chunk7 x2) (ix2 r k))
      - Cert.Spec.w1 = _
  rw [acc6_apply, seventh_apply, q1_eq]
  unfold chunk7
  rw [chunkSum_ld x1 x2 896 _ (by omega), runs_eq_all]

/-- The second head's stored block at (r, j). -/
theorem o9_apply (x3 : Vec Ideal S128x512 .bf16) (x7 : Vec Ideal S512x10 .f32) (x8 : Vec Ideal S10 .f32)
    (r : Fin 128) (j : Fin 10) :
    o9 (F := Ideal) x3 x7 x8 (ix2 r j) = (∑ k : Fin 512, x3 (ix2 r k) * x7 (ix2 k j)) + x8 (ix1 j) := by
  unfold o9
  rw [View.ld_unit_zero (S := S128x512) zeros2, View.ld_unit_zero (S := S512x10) zeros2,
    View.ld_unit_zero (S := S10) zeros1]
  unfold k1_pay1
  show matmul (F := Ideal) _ none _ _ _ (ix2 r j) + broadcastTo S128x10 _ _ (ix2 r j) = _
  rw [broadcastTo_1b_ab_apply, shapeCast_a_1a_apply]
  refine congrArg₂ (· + ·) ?_ rfl
  refine (matmul_zero_plain_apply _ none _ _ r j).trans (Finset.sum_congr rfl fun k _ => ?_)
  rw [pay6_eq]
  rfl

end Cert.KernelIdeal.Val1

end
-- ==== Proof.Val1Arr.lean ====
/-
  The two arrays the second region leaves, as functions of the arrays it finds.

  Point t of the grid reads rows 128 t … 128 t + 127 of the projection matrix and of the features, the whole
  projection matrix once more, and the weight and bias arrays whole; it writes back rows 128 t … 128 t + 127
  of each head's array. Row i of either result is therefore written by point i / 128, from row i of the
  projection matrix and of the features: each array ends as one function of the region's inputs, entry by
  entry.
-/
import proofs.«161479_j81209241633290_1_alg».proof.Proof.Body1
import proofs.«161479_j81209241633290_1_alg».proof.Proof.Val1Head
import proofs.«161479_j81209241633290_1_alg».proof.Proof.SpecHeads
import Idealize.ShloMosaic.Lib.Pipeline.Value

noncomputable section

open scoped BigOperators

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

variable (V : (c : Dev nD) → (b : Ref sig .tc) → Buf (Elt Ideal) ((c : Thread nD τ).loc b))

/-- The index maps over the grid: the two row-block inputs and the two outputs are at block row t, column
    block 0; every other window stays at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

theorem row_lt (t : Fin cfg1.N) (r : Fin 128) : 128 * t.val + r.val < 1024 := by
  have hN : cfg1.N = 8 := N_1
  have := t.isLt; have := r.isLt; omega

/-! ## Each input block read where it lies in its array -/

/-- The projection block at point t is rows 128 t … of the projection matrix. -/
theorem iblk0_apply (c : Dev nD) (t : Fin cfg1.N) (r k : Fin 128) :
    (iblk V c 0 t : Vec Ideal S128x128 .f32) (ix2 r k)
      = (V c main_v0_1 : S1024x128.Idx → EReal) (ix2 ⟨128 * t.val + r.val, row_lt t r⟩ k) := by
  obtain ⟨e0, e1, -⟩ := idx_facts t
  unfold iblk
  rw [View.read_apply]
  show V c main_v0_1 _ = V c main_v0_1 _
  refine congrArg _ (funext fun a => Fin.ext ?_)
  match a with
  | ⟨0, _⟩ => show win1_0.index t (0 : Fin 2) * 128 + 1 * r.val = 128 * t.val + r.val; rw [e0]; omega
  | ⟨1, _⟩ => show win1_0.index t (1 : Fin 2) * 128 + 1 * k.val = k.val; rw [e1]; omega

/-- The second window on the projection matrix holds it whole. -/
theorem iblk1_eq (c : Dev nD) (t : Fin cfg1.N) :
    (iblk V c 1 t : Vec Ideal S1024x128 .f32) = (V c main_v0_1 : S1024x128.Idx → EReal) := by
  obtain ⟨-, -, e0, e1, -⟩ := idx_facts t
  funext j
  unfold iblk
  rw [View.read_apply]
  show V c main_v0_1 _ = V c main_v0_1 _
  refine congrArg _ (funext fun a => Fin.ext ?_)
  match a with
  | ⟨0, _⟩ => show win1_1.index t (0 : Fin 2) * 1024 + 1 * (j 0).val = (j 0).val; rw [e0]; omega
  | ⟨1, _⟩ => show win1_1.index t (1 : Fin 2) * 128 + 1 * (j 1).val = (j 1).val; rw [e1]; omega

/-- The features' block at point t is rows 128 t … of the features. -/
theorem iblk2_apply (c : Dev nD) (t : Fin cfg1.N) (r : Fin 128) (k : Fin 512) :
    (iblk V c 2 t : Vec Ideal S128x512 .bf16) (ix2 r k)
      = (V c main_v0_0 : S1024x512.Idx → EReal) (ix2 ⟨128 * t.val + r.val, row_lt t r⟩ k) := by
  obtain ⟨-, -, -, -, e0, e1, -⟩ := idx_facts t
  unfold iblk
  rw [View.read_apply]
  show V c main_v0_0 _ = V c main_v0_0 _
  refine congrArg _ (funext fun a => Fin.ext ?_)
  match a with
  | ⟨0, _⟩ => show win1_2.index t (0 : Fin 2) * 128 + 1 * r.val = 128 * t.val + r.val; rw [e0]; omega
  | ⟨1, _⟩ => show win1_2.index t (1 : Fin 2) * 512 + 1 * k.val = k.val; rw [e1]; omega

/-- The weight and bias windows hold their arrays whole. -/
theorem iblk3_eq (c : Dev nD) (t : Fin cfg1.N) :
    (iblk V c 3 t : Vec Ideal S512x17 .f32) = (V c main_v1 : S512x17.Idx → EReal) := by
  obtain ⟨-, -, -, -, -, -, e0, e1, -⟩ := idx_facts t
  funext j
  unfold iblk
  rw [View.read_apply]
  show V c main_v1 _ = V c main_v1 _
  refine congrArg _ (funext fun a => Fin.ext ?_)
  match a with
  | ⟨0, _⟩ => show win1_3.index t (0 : Fin 2) * 512 + 1 * (j 0).val = (j 0).val; rw [e0]; omega
  | ⟨1, _⟩ => show win1_3.index t (1 : Fin 2) * 17 + 1 * (j 1).val = (j 1).val; rw [e1]; omega

theorem iblk4_eq (c : Dev nD) (t : Fin cfg1.N) :
    (iblk V c 4 t : Vec Ideal S128x17 .f32) = (V c main_v2 : S128x17.Idx → EReal) := by
  obtain ⟨-, -, -, -, -, -, -, -, e0, e1, -⟩ := idx_facts t
  funext j
  unfold iblk
  rw [View.read_apply]
  show V c main_v2 _ = V c main_v2 _
  refine congrArg _ (funext fun a => Fin.ext ?_)
  match a with
  | ⟨0, _⟩ => show win1_4.index t (0 : Fin 2) * 128 + 1 * (j 0).val = (j 0).val; rw [e0]; omega
  | ⟨1, _⟩ => show win1_4.index t (1 : Fin 2) * 17 + 1 * (j 1).val = (j 1).val; rw [e1]; omega

theorem iblk5_eq (c : Dev nD) (t : Fin cfg1.N) :
    (iblk V c 5 t : Vec Ideal S17 .f32) = (V c main_arg7 : S17.Idx → EReal) := by
  obtain ⟨-, -, -, -, -, -, -, -, -, -, e0, -⟩ := idx_facts t
  funext j
  unfold iblk
  rw [View.read_apply]
  show V c main_arg7 _ = V c main_arg7 _
  refine congrArg _ (funext fun a => Fin.ext ?_)
  match a with
  | ⟨0, _⟩ => show win1_5.index t (0 : Fin 1) * 17 + 1 * (j 0).val = (j 0).val; rw [e0]; omega

theorem iblk6_eq (c : Dev nD) (t : Fin cfg1.N) :
    (iblk V c 6 t : Vec Ideal S512x10 .f32) = (V c main_arg8 : S512x10.Idx → EReal) := by
  obtain ⟨-, -, -, -, -, -, -, -, -, -, -, e0, e1, -⟩ := idx_facts t
  funext j
  unfold iblk
  rw [View.read_apply]
  show V c main_arg8 _ = V c main_arg8 _
  refine congrArg _ (funext fun a => Fin.ext ?_)
  match a with
  | ⟨0, _⟩ => show win1_6.index t (0 : Fin 2) * 512 + 1 * (j 0).val = (j 0).val; rw [e0]; omega
  | ⟨1, _⟩ => show win1_6.index t (1 : Fin 2) * 10 + 1 * (j 1).val = (j 1).val; rw [e1]; omega

theorem iblk7_eq (c : Dev nD) (t : Fin cfg1.N) :
    (iblk V c 7 t : Vec Ideal S10 .f32) = (V c main_arg9 : S10.Idx → EReal) := by
  obtain ⟨-, -, -, -, -, -, -, -, -, -, -, -, -, e0, -⟩ := idx_facts t
  funext j
  unfold iblk
  rw [View.read_apply]
  show V c main_arg9 _ = V c main_arg9 _
  refine congrArg _ (funext fun a => Fin.ext ?_)
  match a with
  | ⟨0, _⟩ => show win1_7.index t (0 : Fin 1) * 10 + 1 * (j 0).val = (j 0).val; rw [e0]; omega

/-! ## A stored block's row is the result array's row -/

/-- Row r of the first head's stored block, when the block's rows r of the projection and of the features
    are row i of the arrays M and Fe, and the other operands are whole. -/
theorem o8_row (x1 : Vec Ideal S128x128 .f32) (x3 : Vec Ideal S128x512 .bf16) (M : Mat 1024 128)
    (Fe : Mat 1024 512) (Wu : Mat 512 17) (Wl : Mat 128 17) (bm : Row 17) (i : Fin 1024) (r : Fin 128) (q : Fin 17)
    (h1 : ∀ k : Fin 128, x1 (ix2 r k) = M (ix2 i k)) (h3 : ∀ k : Fin 512, x3 (ix2 r k) = Fe (ix2 i k)) :
    Val1.o8 (F := Ideal) x1 M x3 Wu Wl bm (ix2 r q) = head8 M Fe Wu Wl bm (ix2 i q) := by
  rw [Val1.o8_apply, head8_apply]
  simp only [h1, h3]

/-- Row r of the second head's stored block likewise. -/
theorem o9_row (x3 : Vec Ideal S128x512 .bf16) (Fe : Mat 1024 512) (Wc : Mat 512 10) (bc : Row 10)
    (i : Fin 1024) (r : Fin 128) (q : Fin 10) (h3 : ∀ k : Fin 512, x3 (ix2 r k) = Fe (ix2 i k)) :
    Val1.o9 (F := Ideal) x3 Wc bc (ix2 r q) = head9 Fe Wc bc (ix2 i q) := by
  rw [Val1.o9_apply, head9_apply]
  simp only [h3]

/-! ## What point t writes back -/

/-- An entry of the first head's block at point t lies at row 128 t + r of its array. -/
theorem emb8 (t : Fin cfg1.N) (r : Fin 128) (q : Fin 17) :
    (((cfg1.win 8).blk t).view.emb (ix2 r q) : S1024x17.Idx) = ix2 ⟨128 * t.val + r.val, row_lt t r⟩ q := by
  obtain ⟨-, -, -, -, -, -, -, -, -, -, -, -, -, -, e0, e1, -⟩ := idx_facts t
  refine funext fun a => Fin.ext ?_
  match a with
  | ⟨0, _⟩ => show win1_8.index t (0 : Fin 2) * 128 + 1 * r.val = 128 * t.val + r.val; rw [e0]; omega
  | ⟨1, _⟩ => show win1_8.index t (1 : Fin 2) * 17 + 1 * q.val = q.val; rw [e1]; omega

/-- An entry of the second head's block at point t lies at row 128 t + r of its array. -/
theorem emb9 (t : Fin cfg1.N) (r : Fin 128) (q : Fin 10) :
    (((cfg1.win 9).blk t).view.emb (ix2 r q) : S1024x10.Idx) = ix2 ⟨128 * t.val + r.val, row_lt t r⟩ q := by
  obtain ⟨-, -, -, -, -, -, -, -, -, -, -, -, -, -, -, -, e0, e1⟩ := idx_facts t
  refine funext fun a => Fin.ext ?_
  match a with
  | ⟨0, _⟩ => show win1_9.index t (0 : Fin 2) * 128 + 1 * r.val = 128 * t.val + r.val; rw [e0]; omega
  | ⟨1, _⟩ => show win1_9.index t (1 : Fin 2) * 10 + 1 * q.val = q.val; rw [e1]; omega

/-- Point t writes back block t of the first head's array. -/
theorem flushed8_eq (c : Dev nD) (M : Mat 1024 128) (Fe : Mat 1024 512) (Wu : Mat 512 17)
    (Wl : Mat 128 17) (bm : Row 17) (hM : (V c main_v0_1 : S1024x128.Idx → EReal) = M)
    (hFe : (V c main_v0_0 : S1024x512.Idx → EReal) = Fe) (hWu : (V c main_v1 : S512x17.Idx → EReal) = Wu)
    (hWl : (V c main_v2 : S128x17.Idx → EReal) = Wl) (hbm : (V c main_arg7 : S17.Idx → EReal) = bm)
    (t : Fin cfg1.N) :
    (dat (F := Ideal) V c).flushed 8 t = ((cfg1.win 8).blk t).view.read (Elt Ideal) (head8 M Fe Wu Wl bm) := by
  show (cfg1.win 8).cut (grid1.coords t) ((dat (F := Ideal) V c).after 8 t) = _
  rw [after_8]
  unfold out8
  rw [View.canon_unit_zero Val1.zeros2]
  funext j
  obtain ⟨r, q, rfl⟩ : ∃ (r : Fin 128) (q : Fin 17), j = ix2 r q := ⟨j 0, j 1, eq_ix2 j⟩
  show Val1.o8 (iblk V c 0 t) (iblk V c 1 t) (iblk V c 2 t) (iblk V c 3 t) (iblk V c 4 t) (iblk V c 5 t) (ix2 r q)
    = head8 M Fe Wu Wl bm (((cfg1.win 8).blk t).view.emb (ix2 r q))
  rw [emb8 t r q, iblk1_eq V c t, iblk3_eq V c t, iblk4_eq V c t, iblk5_eq V c t, hM, hWu, hWl, hbm]
  exact o8_row (iblk V c 0 t) (iblk V c 2 t) M Fe Wu Wl bm _ r q
    (fun k => by rw [iblk0_apply V c t r k, hM]) (fun k => by rw [iblk2_apply V c t r k, hFe])

/-- Point t writes back block t of the second head's array. -/
theorem flushed9_eq (c : Dev nD) (Fe : Mat 1024 512) (Wc : Mat 512 10) (bc : Row 10)
    (hFe : (V c main_v0_0 : S1024x512.Idx → EReal) = Fe)
    (hWc : (V c main_arg8 : S512x10.Idx → EReal) = Wc) (hbc : (V c main_arg9 : S10.Idx → EReal) = bc)
    (t : Fin cfg1.N) :
    (dat (F := Ideal) V c).flushed 9 t = ((cfg1.win 9).blk t).view.read (Elt Ideal) (head9 Fe Wc bc) := by
  show (cfg1.win 9).cut (grid1.coords t) ((dat (F := Ideal) V c).after 9 t) = _
  rw [after_9]
  unfold out9
  rw [View.canon_unit_zero Val1.zeros2]
  funext j
  obtain ⟨r, q, rfl⟩ : ∃ (r : Fin 128) (q : Fin 10), j = ix2 r q := ⟨j 0, j 1, eq_ix2 j⟩
  show Val1.o9 (iblk V c 2 t) (iblk V c 6 t) (iblk V c 7 t) (ix2 r q)
    = head9 Fe Wc bc (((cfg1.win 9).blk t).view.emb (ix2 r q))
  rw [emb9 t r q, iblk6_eq V c t, iblk7_eq V c t, hWc, hbc]
  exact o9_row (iblk V c 2 t) Fe Wc bc _ r q (fun k => by rw [iblk2_apply V c t r k, hFe])

/-! ## Every row is some point's -/

/-- An index of the first head's array is in point t's block iff its coordinates are in the block's ranges. -/
theorem mem_blk8 (t : Fin cfg1.N) (i : S1024x17.Idx) :
    i ∈ ((cfg1.win 8).blk t).view.set ↔ ∀ a : Fin 2, win1_8.index t a * S128x17.size a ≤ (i a).val
      ∧ (i a).val < win1_8.index t a * S128x17.size a + S128x17.size a := by
  show i ∈ ((View.whole main_v3_0).slice (win1_8.rect t)).set ↔ _
  rw [View.set_slice_whole, Rect.mem_set_unit]
  exact Iff.rfl

theorem mem_blk9 (t : Fin cfg1.N) (i : S1024x10.Idx) :
    i ∈ ((cfg1.win 9).blk t).view.set ↔ ∀ a : Fin 2, win1_9.index t a * S128x10.size a ≤ (i a).val
      ∧ (i a).val < win1_9.index t a * S128x10.size a + S128x10.size a := by
  show i ∈ ((View.whole main_v3_1).slice (win1_9.rect t)).set ↔ _
  rw [View.set_slice_whole, Rect.mem_set_unit]
  exact Iff.rfl

/-- Row i of the first head's array is covered by point i / 128. -/
theorem cover8_arr (i : S1024x17.Idx) :
    ∃ t : Fin cfg1.N, (cfg1.win 8).flush t = true ∧ i ∈ ((cfg1.win 8).blk t).view.set := by
  have hN : cfg1.N = 8 := N_1
  have hi0 : (i 0).val < 1024 := (i 0).isLt
  have hi1 : (i 1).val < 17 := (i 1).isLt
  refine ⟨⟨(i 0).val / 128, by omega⟩, flush1_8 _, ?_⟩
  rw [mem_blk8]
  obtain ⟨-, -, -, -, -, -, -, -, -, -, -, -, -, -, e0, e1, -⟩ := idx_facts ⟨(i 0).val / 128, by omega⟩
  intro a
  match a with
  | ⟨0, _⟩ =>
    show win1_8.index _ (0 : Fin 2) * 128 ≤ (i 0).val ∧ (i 0).val < win1_8.index _ (0 : Fin 2) * 128 + 128
    rw [e0]; show (i 0).val / 128 * 128 ≤ (i 0).val ∧ (i 0).val < (i 0).val / 128 * 128 + 128; omega
  | ⟨1, _⟩ =>
    show win1_8.index _ (1 : Fin 2) * 17 ≤ (i 1).val ∧ (i 1).val < win1_8.index _ (1 : Fin 2) * 17 + 17
    rw [e1]; omega

/-- Row i of the second head's array is covered by point i / 128. -/
theorem cover9_arr (i : S1024x10.Idx) :
    ∃ t : Fin cfg1.N, (cfg1.win 9).flush t = true ∧ i ∈ ((cfg1.win 9).blk t).view.set := by
  have hN : cfg1.N = 8 := N_1
  have hi0 : (i 0).val < 1024 := (i 0).isLt
  have hi1 : (i 1).val < 10 := (i 1).isLt
  refine ⟨⟨(i 0).val / 128, by omega⟩, flush1_9 _, ?_⟩
  rw [mem_blk9]
  obtain ⟨-, -, -, -, -, -, -, -, -, -, -, -, -, -, -, -, e0, e1⟩ := idx_facts ⟨(i 0).val / 128, by omega⟩
  intro a
  match a with
  | ⟨0, _⟩ =>
    show win1_9.index _ (0 : Fin 2) * 128 ≤ (i 0).val ∧ (i 0).val < win1_9.index _ (0 : Fin 2) * 128 + 128
    rw [e0]; show (i 0).val / 128 * 128 ≤ (i 0).val ∧ (i 0).val < (i 0).val / 128 * 128 + 128; omega
  | ⟨1, _⟩ =>
    show win1_9.index _ (1 : Fin 2) * 10 ≤ (i 1).val ∧ (i 1).val < win1_9.index _ (1 : Fin 2) * 10 + 10
    rw [e1]; omega

/-! ## The arrays after the region -/

/-- The first head's array after the region. -/
theorem final8 (c : Dev nD) (M : Mat 1024 128) (Fe : Mat 1024 512) (Wu : Mat 512 17)
    (Wl : Mat 128 17) (bm : Row 17) (hM : (V c main_v0_1 : S1024x128.Idx → EReal) = M)
    (hFe : (V c main_v0_0 : S1024x512.Idx → EReal) = Fe) (hWu : (V c main_v1 : S512x17.Idx → EReal) = Wu)
    (hWl : (V c main_v2 : S128x17.Idx → EReal) = Wl) (hbm : (V c main_arg7 : S17.Idx → EReal) = bm) :
    (dat (F := Ideal) V c).arrAt 8 cfg1.N = head8 M Fe Wu Wl bm :=
  (dat (F := Ideal) V c).arrAt_eq_of_cover 8 (head8 M Fe Wu Wl bm)
    (fun t _ => flushed8_eq V c M Fe Wu Wl bm hM hFe hWu hWl hbm t) cover8_arr

/-- The second head's array after the region. -/
theorem final9 (c : Dev nD) (Fe : Mat 1024 512) (Wc : Mat 512 10) (bc : Row 10)
    (hFe : (V c main_v0_0 : S1024x512.Idx → EReal) = Fe)
    (hWc : (V c main_arg8 : S512x10.Idx → EReal) = Wc) (hbc : (V c main_arg9 : S10.Idx → EReal) = bc) :
    (dat (F := Ideal) V c).arrAt 9 cfg1.N = head9 Fe Wc bc :=
  (dat (F := Ideal) V c).arrAt_eq_of_cover 9 (head9 Fe Wc bc)
    (fun t _ => flushed9_eq V c Fe Wc bc hFe hWc hbc t) cover9_arr

end Cert.KernelIdeal.R1

end
-- ==== Proof.RunReadVal.lean ====
import proofs.«161479_j81209241633290_1_alg».proof.Proof.RunVal
import proofs.«161479_j81209241633290_1_alg».proof.Proof.RunRead
import proofs.«161479_j81209241633290_1_alg».proof.Proof.R0ValArr
import proofs.«161479_j81209241633290_1_alg».proof.Proof.R0Glue
import proofs.«161479_j81209241633290_1_alg».proof.Proof.Val1Arr
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat)
open Cert.Spec

variable (m : (ℓ : Loc nD τ sig) → Buf (Elt Ideal) ℓ) (ρ : Dev nD → PrngReg)

/-! # The two results at the end, as the specification's two heads

The first kernel finds the arguments as launched, so it leaves the specification's features and projections of them.
The second kernel finds those two arrays, the two cuts of the first head's weights, and its biases and second-head
weights as launched; what it leaves in its two result arrays — the two heads as functions of what it is handed —
is then the specification's two heads of the launch arguments. -/

/-- The first head at the end. -/
theorem W3_mad (c : Dev nD) :
    W3 (F := Ideal) m ρ c (Proc.devRef .tc main_v3_0)
      = Cert.Spec.madArr (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [W3_out8]
  refine (R1.final8 (V2 m ρ) c _ _ _ _ _
    ((V2_mb m ρ c).trans (R0.final7 (V0 m ρ) _ _ _ _ _ _ c rfl rfl rfl rfl rfl rfl))
    ((V2_feat m ρ c).trans (R0.final6 (V0 m ρ) _ _ _ _ _ c rfl rfl rfl rfl rfl))
    (V2_upper m ρ c) (V2_lower m ρ c) (V2_bm m ρ c)).trans ?_
  exact Glue.head8_spec _ _ _ _ _ _ _ _

/-- The second head at the end, likewise. -/
theorem W3_clf (c : Dev nD) :
    W3 (F := Ideal) m ρ c (Proc.devRef .tc main_v3_1)
      = Cert.Spec.clfArr (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg8)) (m ((c : Thread nD τ).loc main_arg9)) := by
  rw [W3_out9]
  refine (R1.final9 (V2 m ρ) c _ _ _
    ((V2_feat m ρ c).trans (R0.final6 (V0 m ρ) _ _ _ _ _ c rfl rfl rfl rfl rfl))
    (V2_Wc m ρ c) (V2_bc m ρ c)).trans ?_
  exact Glue.head9_spec _ _ _ _ _ _ _

end Cert.KernelIdeal.Run

end
-- ==== Proof.RunReadFrame.lean ====
import proofs.«161479_j81209241633290_1_alg».proof.Proof.RunVal
import proofs.«161479_j81209241633290_1_alg».proof.Proof.RunRead
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-! # The arguments in a final memory

A final memory that holds, on core `c`, every unscoped buffer at the contents followed through the three steps holds
each of the ten arguments as launched: no step writes an argument. -/

/-- An unscoped TensorCore reference is among the core's unscoped buffers. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The ten arguments end as launched. -/
theorem post_args (mem : (ℓ : Loc nD τ sig) → Buf (Elt F) ℓ) (c : Dev nD)
    (h : ∀ b ∈ Pipeline.ucRefs τ sig, mem (((c : Thread nD τ)).1, b) = W3 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9) :=
  ⟨(h _ (uc_mem main_arg0 (by decide))).trans (W3_main_arg0 m ρ c),
    (h _ (uc_mem main_arg1 (by decide))).trans (W3_main_arg1 m ρ c),
    (h _ (uc_mem main_arg2 (by decide))).trans (W3_main_arg2 m ρ c),
    (h _ (uc_mem main_arg3 (by decide))).trans (W3_main_arg3 m ρ c),
    (h _ (uc_mem main_arg4 (by decide))).trans (W3_main_arg4 m ρ c),
    (h _ (uc_mem main_arg5 (by decide))).trans (W3_main_arg5 m ρ c),
    (h _ (uc_mem main_arg6 (by decide))).trans (W3_main_arg6 m ρ c),
    (h _ (uc_mem main_arg7 (by decide))).trans (W3_main_arg7 m ρ c),
    (h _ (uc_mem main_arg8 (by decide))).trans (W3_main_arg8 m ρ c),
    (h _ (uc_mem main_arg9 (by decide))).trans (W3_main_arg9 m ρ c)⟩

end Cert.KernelIdeal.Run

end
-- ==== Proof.RunReadAll.lean ====
import proofs.«161479_j81209241633290_1_alg».proof.Proof.RunVal
import proofs.«161479_j81209241633290_1_alg».proof.Proof.RunReadVal
import proofs.«161479_j81209241633290_1_alg».proof.Proof.RunReadFrame
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat)
open Cert.Spec

variable (m : (ℓ : Loc nD τ sig) → Buf (Elt Ideal) ℓ) (ρ : Dev nD → PrngReg)

/-! # The results and the arguments in a final memory

On the extended reals, a final memory that holds every unscoped buffer of core `c` at the contents followed through
the three steps holds the specification's two heads of the launch arguments in the two result arrays, and the ten
arguments as launched. -/

/-- The two results are the specification's two heads, and the ten arguments end as launched. -/
theorem post_all (mem : (ℓ : Loc nD τ sig) → Buf (Elt Ideal) ℓ) (c : Dev nD)
    (h : ∀ b ∈ Pipeline.ucRefs τ sig, mem (((c : Thread nD τ)).1, b) = W3 (F := Ideal) m ρ c b) :
    mem ((c.tc : Thread nD τ).loc main_v3_0)
        = Cert.Spec.madArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ mem ((c.tc : Thread nD τ).loc main_v3_1)
        = Cert.Spec.clfArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9))
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9) :=
  ⟨(h _ (uc_mem main_v3_0 (by decide))).trans (W3_mad m ρ c),
    (h _ (uc_mem main_v3_1 (by decide))).trans (W3_clf m ρ c),
    post_args m ρ mem c h⟩

end Cert.KernelIdeal.Run

end
-- ==== Proof.RefOps.lean ====
/-
  The reference program as a straight line. Its entry function calls the exponential linear unit twice, and
  each unit calls two selections; a call in this language runs the callee's body on the caller's buffers, so with
  every call replaced by the callee's operations the program is one list of sixty-one host operations:
  thirty-one of the entry function and fifteen for each unit (the zero word and its broadcast compared with
  the argument, twice; the inner selection of the zero word where the argument is positive; exp minus one of
  that; the word one broadcast and multiplied in; the outer selection of the argument where it is positive).
-/
import proofs.«161479_j81209241633290_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The sixty-one operations, in program order, each call's operations listed where the call stands. -/
abbrev ops : List (HloOp τ sig (Elt F)) :=
  [ binary main_arg0 main_arg1 main_v0 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S1024x1024 ![0, 1] bcast_S1x1024_S1024x1024_0_1 : (⟨S1x1024, .f32⟩ : BufTy).Contents (Elt F) → (⟨S1024x1024, .f32⟩ : BufTy).Contents (Elt F)),
    binary main_v0 main_v2 main_v3 (addf : (⟨S1024x1024, .f32⟩ : BufTy).Contents (Elt F) → (⟨S1024x1024, .f32⟩ : BufTy).Contents (Elt F) → (⟨S1024x1024, .f32⟩ : BufTy).Contents (Elt F)),
    TRef.nullary main_call0.cst (constant S_ .f32 0x00000000#32),
    TRef.unary main_call0.cst main_call0.v0 (broadcastInDim S1024x1024 ![] bcast_S_S1024x1024),
    TRef.binary (.of main_v3) main_call0.v0 main_call0.v1 (cmpf .ogt),
    TRef.nullary main_call0.cst_0 (constant S_ .f32 0x00000000#32),
    TRef.unary main_call0.cst_0 main_call0.v2 (broadcastInDim S1024x1024 ![] bcast_S_S1024x1024),
    TRef.binary (.of main_v3) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S1024x1024 ![] bcast_S_S1024x1024),
    TRef.ternary main_call0.v3 main_call0.call0.v1 (.of main_v3) main_call0.call0.v2 select,
    TRef.unary main_call0.call0.v2 main_call0.v5 Host.expm1,
    TRef.nullary main_call0.cst_2 (constant S_ .f32 0x3F800000#32),
    TRef.unary main_call0.cst_2 main_call0.v6 (broadcastInDim S1024x1024 ![] bcast_S_S1024x1024),
    TRef.binary main_call0.v6 main_call0.v5 main_call0.v7 mulf,
    TRef.ternary main_call0.v1 (.of main_v3) main_call0.v7 main_call0.call1.v0 select,
    binary main_v4 main_arg3 main_v5 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    unary main_arg4 main_v6 (broadcastInDim S1x512 ![1] bcast_S512_S1x512_1 : (⟨S512, .f32⟩ : BufTy).Contents (Elt F) → (⟨S1x512, .f32⟩ : BufTy).Contents (Elt F)),
    unary main_v6 main_v7 (broadcastInDim S1024x512 ![0, 1] bcast_S1x512_S1024x512_0_1 : (⟨S1x512, .f32⟩ : BufTy).Contents (Elt F) → (⟨S1024x512, .f32⟩ : BufTy).Contents (Elt F)),
    binary main_v5 main_v7 main_v8 (addf : (⟨S1024x512, .f32⟩ : BufTy).Contents (Elt F) → (⟨S1024x512, .f32⟩ : BufTy).Contents (Elt F) → (⟨S1024x512, .f32⟩ : BufTy).Contents (Elt F)),
    TRef.nullary main_call1.cst (constant S_ .f32 0x00000000#32),
    TRef.unary main_call1.cst main_call1.v0 (broadcastInDim S1024x512 ![] bcast_S_S1024x512),
    TRef.binary (.of main_v8) main_call1.v0 main_call1.v1 (cmpf .ogt),
    TRef.nullary main_call1.cst_0 (constant S_ .f32 0x00000000#32),
    TRef.unary main_call1.cst_0 main_call1.v2 (broadcastInDim S1024x512 ![] bcast_S_S1024x512),
    TRef.binary (.of main_v8) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S1024x512 ![] bcast_S_S1024x512),
    TRef.ternary main_call1.v3 main_call1.call0.v1 (.of main_v8) main_call1.call0.v2 select,
    TRef.unary main_call1.call0.v2 main_call1.v5 Host.expm1,
    TRef.nullary main_call1.cst_2 (constant S_ .f32 0x3F800000#32),
    TRef.unary main_call1.cst_2 main_call1.v6 (broadcastInDim S1024x512 ![] bcast_S_S1024x512),
    TRef.binary main_call1.v6 main_call1.v5 main_call1.v7 mulf,
    TRef.ternary main_call1.v1 (.of main_v8) main_call1.v7 main_call1.call1.v0 select,
    binary main_v9 main_arg5 main_v10 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    unary main_v10 main_v11 (broadcastInDim S1x1024x128 ![1, 2] bcast_S1024x128_S1x1024x128_1_2 : (⟨S1024x128, .f32⟩ : BufTy).Contents (Elt F) → (⟨S1x1024x128, .f32⟩ : BufTy).Contents (Elt F)),
    unary main_v10 main_v12 (broadcastInDim S1024x1x128 ![0, 2] bcast_S1024x128_S1024x1x128_0_2 : (⟨S1024x128, .f32⟩ : BufTy).Contents (Elt F) → (⟨S1024x1x128, .f32⟩ : BufTy).Contents (Elt F)),
    unary main_v11 main_v13 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    unary main_v12 main_v14 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    binary main_v13 main_v14 main_v15 (subf : (⟨S1024x1024x128, .f32⟩ : BufTy).Contents (Elt F) → (⟨S1024x1024x128, .f32⟩ : BufTy).Contents (Elt F) → (⟨S1024x1024x128, .f32⟩ : BufTy).Contents (Elt F)),
    unary main_v15 main_v16 (Host.absf : (⟨S1024x1024x128, .f32⟩ : BufTy).Contents (Elt F) → (⟨S1024x1024x128, .f32⟩ : BufTy).Contents (Elt F)),
    unary main_v16 main_v17 (Host.negf : (⟨S1024x1024x128, .f32⟩ : BufTy).Contents (Elt F) → (⟨S1024x1024x128, .f32⟩ : BufTy).Contents (Elt F)),
    unary main_v17 main_v18 (Host.exp : (⟨S1024x1024x128, .f32⟩ : BufTy).Contents (Elt F) → (⟨S1024x1024x128, .f32⟩ : BufTy).Contents (Elt F)),
    nullary main_cst (constant S_ .f32 0x00000000#32),
    binary main_v18 main_cst main_v19 ((fun x v => Host.reduceAdd x v reducesTo_S1024x1024x128_S1024x128_d0 h_S_) : (⟨S1024x1024x128, .f32⟩ : BufTy).Contents (Elt F) → (⟨S_, .f32⟩ : BufTy).Contents (Elt F) → (⟨S1024x128, .f32⟩ : BufTy).Contents (Elt F)),
    nullary main_cst_0 (constant S_ .f32 0x3F800000#32),
    unary main_cst_0 main_v20 (broadcastInDim S1024x128 ![] bcast_S_S1024x128 : (⟨S_, .f32⟩ : BufTy).Contents (Elt F) → (⟨S1024x128, .f32⟩ : BufTy).Contents (Elt F)),
    binary main_v19 main_v20 main_v21 (subf : (⟨S1024x128, .f32⟩ : BufTy).Contents (Elt F) → (⟨S1024x128, .f32⟩ : BufTy).Contents (Elt F) → (⟨S1024x128, .f32⟩ : BufTy).Contents (Elt F)),
    binary main_v9 main_v21 main_v22 ((fun a b => concatenate S1024x640 1 [⟨S1024x512, a⟩, ⟨S1024x128, b⟩] concatenates_S1024x512_S1024x128_S1024x640_d1) : (⟨S1024x512, .f32⟩ : BufTy).Contents (Elt F) → (⟨S1024x128, .f32⟩ : BufTy).Contents (Elt F) → (⟨S1024x640, .f32⟩ : BufTy).Contents (Elt F)),
    binary main_v22 main_arg6 main_v23 ((fun l r => Host.dotGeneral dot_S1024x640_S640x17_S1024x17_1_0_0_1_n_n none l r) : (⟨S1024x640, .f32⟩ : BufTy).Contents (Elt F) → (⟨S640x17, .f32⟩ : BufTy).Contents (Elt F) → (⟨S1024x17, .f32⟩ : BufTy).Contents (Elt F)),
    unary main_arg7 main_v24 (broadcastInDim S1x17 ![1] bcast_S17_S1x17_1 : (⟨S17, .f32⟩ : BufTy).Contents (Elt F) → (⟨S1x17, .f32⟩ : BufTy).Contents (Elt F)),
    unary main_v24 main_v25 (broadcastInDim S1024x17 ![0, 1] bcast_S1x17_S1024x17_0_1 : (⟨S1x17, .f32⟩ : BufTy).Contents (Elt F) → (⟨S1024x17, .f32⟩ : BufTy).Contents (Elt F)),
    binary main_v23 main_v25 main_v26 (addf : (⟨S1024x17, .f32⟩ : BufTy).Contents (Elt F) → (⟨S1024x17, .f32⟩ : BufTy).Contents (Elt F) → (⟨S1024x17, .f32⟩ : BufTy).Contents (Elt F)),
    binary main_v9 main_arg8 main_v27 ((fun l r => Host.dotGeneral dot_S1024x512_S512x10_S1024x10_1_0_0_1_n_n none l r) : (⟨S1024x512, .f32⟩ : BufTy).Contents (Elt F) → (⟨S512x10, .f32⟩ : BufTy).Contents (Elt F) → (⟨S1024x10, .f32⟩ : BufTy).Contents (Elt F)),
    unary main_arg9 main_v28 (broadcastInDim S1x10 ![1] bcast_S10_S1x10_1 : (⟨S10, .f32⟩ : BufTy).Contents (Elt F) → (⟨S1x10, .f32⟩ : BufTy).Contents (Elt F)),
    unary main_v28 main_v29 (broadcastInDim S1024x10 ![0, 1] bcast_S1x10_S1024x10_0_1 : (⟨S1x10, .f32⟩ : BufTy).Contents (Elt F) → (⟨S1024x10, .f32⟩ : BufTy).Contents (Elt F)),
    binary main_v27 main_v29 main_v30 (addf : (⟨S1024x10, .f32⟩ : BufTy).Contents (Elt F) → (⟨S1024x10, .f32⟩ : BufTy).Contents (Elt F) → (⟨S1024x10, .f32⟩ : BufTy).Contents (Elt F)) ]

/-- The entry function is that straight line: with the callees' bodies written out at their calls, both sides
    are one chain of single steps once sequencing is reassociated. -/
theorem main_eq (c : Dev nD) : main (F := F) c = seq ops := by
  simp only [main, fn_elu.body, fn_elu_1.body, fn_where.body, fn_where_0.body, fn_where_2.body, fn_where_3.body,
    seq, bind_assoc, pure_bind]

/-- No buffer and no semaphore of this program is scoped to a region. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., unary_bufs_sub .., unary_bufs_sub .., binary_bufs_sub .., unary_bufs_sub .., unary_bufs_sub .., unary_bufs_sub .., nullary_bufs_sub .., binary_bufs_sub .., nullary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub ..⟩

end Cert.ReferenceIdeal.RefValue

end
-- ==== Proof.RefStages.lean ====
/-
  The reference's values as staged array functions of its ten arguments, written with the program's own
  operations so that they are what the straight line computes, buffer by buffer:
  a dense layer before its unit (the product plus the bias broadcast down the rows), the exponential linear
  unit as the program spells it (two comparisons with the zero word, an inner selection, exp minus one, a
  product with the word one, an outer selection), the projection, the similarities (both broadcasts of the
  projection to rank three, their difference, its absolute value negated and exponentiated, the sum over the
  leading axis from the zero word, the word one taken away), and the two heads.
-/
import proofs.«161479_j81209241633290_1_alg».proof.Proof.Gen.ReferenceIdeal

noncomputable section

namespace Cert.ReferenceIdeal.RefValue

open Cert.ReferenceIdeal Cert.ReferenceIdeal.Gen Idealize.ShloMosaic

variable {F : FTy → Type} [FloatOps F]

/-- The exponential linear unit on an array of any shape, as the program computes it. -/
def eluVec {S : Shape} (h : S_.BroadcastsInDim S (![] : Fin 0 → Fin S.rank)) (v : FVec F S .f32) : FVec F S .f32 :=
  select (cmpf .ogt v (broadcastInDim S ![] h (constant S_ .f32 0x00000000#32))) v
    (mulf (broadcastInDim S ![] h (constant S_ .f32 0x3F800000#32))
      (Host.expm1 (select (cmpf .ogt v (broadcastInDim S ![] h (constant S_ .f32 0x00000000#32)))
        (broadcastInDim S ![] h (id (constant S_ .f32 0x00000000#32))) v)))

/-- The first layer before its unit: x · Wb0 + bb0. -/
def hidPre (x : FVec F S1024x512 .f32) (Wb0 : FVec F S512x1024 .f32) (bb0 : FVec F S1024 .f32) : FVec F S1024x1024 .f32 :=
  addf (Host.dotGeneral dot_S1024x512_S512x1024_S1024x1024_1_0_0_1_n_n none x Wb0)
    (broadcastInDim S1024x1024 ![0, 1] bcast_S1x1024_S1024x1024_0_1 (broadcastInDim S1x1024 ![1] bcast_S1024_S1x1024_1 bb0))

/-- The second layer before its unit: h · Wb1 + bb1. -/
def featPre (h : FVec F S1024x1024 .f32) (Wb1 : FVec F S1024x512 .f32) (bb1 : FVec F S512 .f32) : FVec F S1024x512 .f32 :=
  addf (Host.dotGeneral dot_S1024x1024_S1024x512_S1024x512_1_0_0_1_n_n none h Wb1)
    (broadcastInDim S1024x512 ![0, 1] bcast_S1x512_S1024x512_0_1 (broadcastInDim S1x512 ![1] bcast_S512_S1x512_1 bb1))

/-- The features: both layers, each followed by its unit. -/
def featVec (x : FVec F S1024x512 .f32) (Wb0 : FVec F S512x1024 .f32) (bb0 : FVec F S1024 .f32)
    (Wb1 : FVec F S1024x512 .f32) (bb1 : FVec F S512 .f32) : FVec F S1024x512 .f32 :=
  eluVec bcast_S_S1024x512 (featPre (eluVec bcast_S_S1024x1024 (hidPre x Wb0 bb0)) Wb1 bb1)

/-- The projection of the features by T. -/
def mbVec (f : FVec F S1024x512 .f32) (T : FVec F S512x128 .f32) : FVec F S1024x128 .f32 :=
  Host.dotGeneral dot_S1024x512_S512x128_S1024x128_1_0_0_1_n_n none f T

/-- The similarities of a projection p: over the leading axis, the sum from the zero word of
    exp (−|p at (row, lane) − p at (leading, lane)|), the word one taken away. -/
def simVec (p : FVec F S1024x128 .f32) : FVec F S1024x128 .f32 :=
  subf
    (Host.reduceAdd
      (Host.exp (Host.negf (Host.absf (subf
        (broadcastInDim S1024x1024x128 ![0, 1, 2] bcast_S1x1024x128_S1024x1024x128_0_1_2
          (broadcastInDim S1x1024x128 ![1, 2] bcast_S1024x128_S1x1024x128_1_2 p))
        (broadcastInDim S1024x1024x128 ![0, 1, 2] bcast_S1024x1x128_S1024x1024x128_0_1_2
          (broadcastInDim S1024x1x128 ![0, 2] bcast_S1024x128_S1024x1x128_0_2 p))))))
      (constant S_ .f32 0x00000000#32) reducesTo_S1024x1024x128_S1024x128_d0 h_S_)
    (broadcastInDim S1024x128 ![] bcast_S_S1024x128 (constant S_ .f32 0x3F800000#32))

/-- The first head: the features and the similarities side by side, times Wm, plus bm. -/
def madVec (f : FVec F S1024x512 .f32) (s : FVec F S1024x128 .f32) (Wm : FVec F S640x17 .f32) (bm : FVec F S17 .f32) :
    FVec F S1024x17 .f32 :=
  addf (Host.dotGeneral dot_S1024x640_S640x17_S1024x17_1_0_0_1_n_n none
      (concatenate S1024x640 1 [⟨S1024x512, f⟩, ⟨S1024x128, s⟩] concatenates_S1024x512_S1024x128_S1024x640_d1) Wm)
    (broadcastInDim S1024x17 ![0, 1] bcast_S1x17_S1024x17_0_1 (broadcastInDim S1x17 ![1] bcast_S17_S1x17_1 bm))

/-- The second head: the features times Wc, plus bc. -/
def clfVec (f : FVec F S1024x512 .f32) (Wc : FVec F S512x10 .f32) (bc : FVec F S10 .f32) : FVec F S1024x10 .f32 :=
  addf (Host.dotGeneral dot_S1024x512_S512x10_S1024x10_1_0_0_1_n_n none f Wc)
    (broadcastInDim S1024x10 ![0, 1] bcast_S1x10_S1024x10_0_1 (broadcastInDim S1x10 ![1] bcast_S10_S1x10_1 bc))

/-- The program's first result as a function of its arguments. -/
def madRes (x : FVec F S1024x512 .f32) (Wb0 : FVec F S512x1024 .f32) (bb0 : FVec F S1024 .f32)
    (Wb1 : FVec F S1024x512 .f32) (bb1 : FVec F S512 .f32) (T : FVec F S512x128 .f32)
    (Wm : FVec F S640x17 .f32) (bm : FVec F S17 .f32) : FVec F S1024x17 .f32 :=
  madVec (featVec x Wb0 bb0 Wb1 bb1) (simVec (mbVec (featVec x Wb0 bb0 Wb1 bb1) T)) Wm bm

/-- The program's second result as a function of its arguments. -/
def clfRes (x : FVec F S1024x512 .f32) (Wb0 : FVec F S512x1024 .f32) (bb0 : FVec F S1024 .f32)
    (Wb1 : FVec F S1024x512 .f32) (bb1 : FVec F S512 .f32) (Wc : FVec F S512x10 .f32) (bc : FVec F S10 .f32) :
    FVec F S1024x10 .f32 :=
  clfVec (featVec x Wb0 bb0 Wb1 bb1) Wc bc

end Cert.ReferenceIdeal.RefValue

end
-- ==== Proof.RefRaw.lean ====
/-
  The run of the reference. The straight line of host operations runs to its end from any memory with zero
  counters, and every buffer then holds the fold of the operations over the launch contents. The line is cut
  where the features are complete: its first thirty-eight operations (both layers with their units) leave the
  features in their buffer as the staged function of the first five arguments and every argument as it was; the
  remaining twenty-three, run from ANY contents, leave in the two result buffers the two heads of whatever the
  features' buffer and the argument buffers held. Read at an argument buffer the whole fold is the argument,
  no operation writing one.
-/
import proofs.«161479_j81209241633290_1_alg».proof.Proof.RefOps
import proofs.«161479_j81209241633290_1_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first thirty-eight operations: the two layers, each with its unit. -/
abbrev opsA : List (HloOp τ sig (Elt F)) :=
  [ binary main_arg0 main_arg1 main_v0 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S1024x1024 ![0, 1] bcast_S1x1024_S1024x1024_0_1 : (⟨S1x1024, .f32⟩ : BufTy).Contents (Elt F) → (⟨S1024x1024, .f32⟩ : BufTy).Contents (Elt F)),
    binary main_v0 main_v2 main_v3 (addf : (⟨S1024x1024, .f32⟩ : BufTy).Contents (Elt F) → (⟨S1024x1024, .f32⟩ : BufTy).Contents (Elt F) → (⟨S1024x1024, .f32⟩ : BufTy).Contents (Elt F)),
    TRef.nullary main_call0.cst (constant S_ .f32 0x00000000#32),
    TRef.unary main_call0.cst main_call0.v0 (broadcastInDim S1024x1024 ![] bcast_S_S1024x1024),
    TRef.binary (.of main_v3) main_call0.v0 main_call0.v1 (cmpf .ogt),
    TRef.nullary main_call0.cst_0 (constant S_ .f32 0x00000000#32),
    TRef.unary main_call0.cst_0 main_call0.v2 (broadcastInDim S1024x1024 ![] bcast_S_S1024x1024),
    TRef.binary (.of main_v3) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S1024x1024 ![] bcast_S_S1024x1024),
    TRef.ternary main_call0.v3 main_call0.call0.v1 (.of main_v3) main_call0.call0.v2 select,
    TRef.unary main_call0.call0.v2 main_call0.v5 Host.expm1,
    TRef.nullary main_call0.cst_2 (constant S_ .f32 0x3F800000#32),
    TRef.unary main_call0.cst_2 main_call0.v6 (broadcastInDim S1024x1024 ![] bcast_S_S1024x1024),
    TRef.binary main_call0.v6 main_call0.v5 main_call0.v7 mulf,
    TRef.ternary main_call0.v1 (.of main_v3) main_call0.v7 main_call0.call1.v0 select,
    binary main_v4 main_arg3 main_v5 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    unary main_arg4 main_v6 (broadcastInDim S1x512 ![1] bcast_S512_S1x512_1 : (⟨S512, .f32⟩ : BufTy).Contents (Elt F) → (⟨S1x512, .f32⟩ : BufTy).Contents (Elt F)),
    unary main_v6 main_v7 (broadcastInDim S1024x512 ![0, 1] bcast_S1x512_S1024x512_0_1 : (⟨S1x512, .f32⟩ : BufTy).Contents (Elt F) → (⟨S1024x512, .f32⟩ : BufTy).Contents (Elt F)),
    binary main_v5 main_v7 main_v8 (addf : (⟨S1024x512, .f32⟩ : BufTy).Contents (Elt F) → (⟨S1024x512, .f32⟩ : BufTy).Contents (Elt F) → (⟨S1024x512, .f32⟩ : BufTy).Contents (Elt F)),
    TRef.nullary main_call1.cst (constant S_ .f32 0x00000000#32),
    TRef.unary main_call1.cst main_call1.v0 (broadcastInDim S1024x512 ![] bcast_S_S1024x512),
    TRef.binary (.of main_v8) main_call1.v0 main_call1.v1 (cmpf .ogt),
    TRef.nullary main_call1.cst_0 (constant S_ .f32 0x00000000#32),
    TRef.unary main_call1.cst_0 main_call1.v2 (broadcastInDim S1024x512 ![] bcast_S_S1024x512),
    TRef.binary (.of main_v8) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S1024x512 ![] bcast_S_S1024x512),
    TRef.ternary main_call1.v3 main_call1.call0.v1 (.of main_v8) main_call1.call0.v2 select,
    TRef.unary main_call1.call0.v2 main_call1.v5 Host.expm1,
    TRef.nullary main_call1.cst_2 (constant S_ .f32 0x3F800000#32),
    TRef.unary main_call1.cst_2 main_call1.v6 (broadcastInDim S1024x512 ![] bcast_S_S1024x512),
    TRef.binary main_call1.v6 main_call1.v5 main_call1.v7 mulf,
    TRef.ternary main_call1.v1 (.of main_v8) main_call1.v7 main_call1.call1.v0 select ]

/-- The remaining twenty-three: the projection, the similarities and the two heads. -/
abbrev opsB : List (HloOp τ sig (Elt F)) :=
  [ binary main_v9 main_arg5 main_v10 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    unary main_v10 main_v11 (broadcastInDim S1x1024x128 ![1, 2] bcast_S1024x128_S1x1024x128_1_2 : (⟨S1024x128, .f32⟩ : BufTy).Contents (Elt F) → (⟨S1x1024x128, .f32⟩ : BufTy).Contents (Elt F)),
    unary main_v10 main_v12 (broadcastInDim S1024x1x128 ![0, 2] bcast_S1024x128_S1024x1x128_0_2 : (⟨S1024x128, .f32⟩ : BufTy).Contents (Elt F) → (⟨S1024x1x128, .f32⟩ : BufTy).Contents (Elt F)),
    unary main_v11 main_v13 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    unary main_v12 main_v14 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    binary main_v13 main_v14 main_v15 (subf : (⟨S1024x1024x128, .f32⟩ : BufTy).Contents (Elt F) → (⟨S1024x1024x128, .f32⟩ : BufTy).Contents (Elt F) → (⟨S1024x1024x128, .f32⟩ : BufTy).Contents (Elt F)),
    unary main_v15 main_v16 (Host.absf : (⟨S1024x1024x128, .f32⟩ : BufTy).Contents (Elt F) → (⟨S1024x1024x128, .f32⟩ : BufTy).Contents (Elt F)),
    unary main_v16 main_v17 (Host.negf : (⟨S1024x1024x128, .f32⟩ : BufTy).Contents (Elt F) → (⟨S1024x1024x128, .f32⟩ : BufTy).Contents (Elt F)),
    unary main_v17 main_v18 (Host.exp : (⟨S1024x1024x128, .f32⟩ : BufTy).Contents (Elt F) → (⟨S1024x1024x128, .f32⟩ : BufTy).Contents (Elt F)),
    nullary main_cst (constant S_ .f32 0x00000000#32),
    binary main_v18 main_cst main_v19 ((fun x v => Host.reduceAdd x v reducesTo_S1024x1024x128_S1024x128_d0 h_S_) : (⟨S1024x1024x128, .f32⟩ : BufTy).Contents (Elt F) → (⟨S_, .f32⟩ : BufTy).Contents (Elt F) → (⟨S1024x128, .f32⟩ : BufTy).Contents (Elt F)),
    nullary main_cst_0 (constant S_ .f32 0x3F800000#32),
    unary main_cst_0 main_v20 (broadcastInDim S1024x128 ![] bcast_S_S1024x128 : (⟨S_, .f32⟩ : BufTy).Contents (Elt F) → (⟨S1024x128, .f32⟩ : BufTy).Contents (Elt F)),
    binary main_v19 main_v20 main_v21 (subf : (⟨S1024x128, .f32⟩ : BufTy).Contents (Elt F) → (⟨S1024x128, .f32⟩ : BufTy).Contents (Elt F) → (⟨S1024x128, .f32⟩ : BufTy).Contents (Elt F)),
    binary main_v9 main_v21 main_v22 ((fun a b => concatenate S1024x640 1 [⟨S1024x512, a⟩, ⟨S1024x128, b⟩] concatenates_S1024x512_S1024x128_S1024x640_d1) : (⟨S1024x512, .f32⟩ : BufTy).Contents (Elt F) → (⟨S1024x128, .f32⟩ : BufTy).Contents (Elt F) → (⟨S1024x640, .f32⟩ : BufTy).Contents (Elt F)),
    binary main_v22 main_arg6 main_v23 ((fun l r => Host.dotGeneral dot_S1024x640_S640x17_S1024x17_1_0_0_1_n_n none l r) : (⟨S1024x640, .f32⟩ : BufTy).Contents (Elt F) → (⟨S640x17, .f32⟩ : BufTy).Contents (Elt F) → (⟨S1024x17, .f32⟩ : BufTy).Contents (Elt F)),
    unary main_arg7 main_v24 (broadcastInDim S1x17 ![1] bcast_S17_S1x17_1 : (⟨S17, .f32⟩ : BufTy).Contents (Elt F) → (⟨S1x17, .f32⟩ : BufTy).Contents (Elt F)),
    unary main_v24 main_v25 (broadcastInDim S1024x17 ![0, 1] bcast_S1x17_S1024x17_0_1 : (⟨S1x17, .f32⟩ : BufTy).Contents (Elt F) → (⟨S1024x17, .f32⟩ : BufTy).Contents (Elt F)),
    binary main_v23 main_v25 main_v26 (addf : (⟨S1024x17, .f32⟩ : BufTy).Contents (Elt F) → (⟨S1024x17, .f32⟩ : BufTy).Contents (Elt F) → (⟨S1024x17, .f32⟩ : BufTy).Contents (Elt F)),
    binary main_v9 main_arg8 main_v27 ((fun l r => Host.dotGeneral dot_S1024x512_S512x10_S1024x10_1_0_0_1_n_n none l r) : (⟨S1024x512, .f32⟩ : BufTy).Contents (Elt F) → (⟨S512x10, .f32⟩ : BufTy).Contents (Elt F) → (⟨S1024x10, .f32⟩ : BufTy).Contents (Elt F)),
    unary main_arg9 main_v28 (broadcastInDim S1x10 ![1] bcast_S10_S1x10_1 : (⟨S10, .f32⟩ : BufTy).Contents (Elt F) → (⟨S1x10, .f32⟩ : BufTy).Contents (Elt F)),
    unary main_v28 main_v29 (broadcastInDim S1024x10 ![0, 1] bcast_S1x10_S1024x10_0_1 : (⟨S1x10, .f32⟩ : BufTy).Contents (Elt F) → (⟨S1024x10, .f32⟩ : BufTy).Contents (Elt F)),
    binary main_v27 main_v29 main_v30 (addf : (⟨S1024x10, .f32⟩ : BufTy).Contents (Elt F) → (⟨S1024x10, .f32⟩ : BufTy).Contents (Elt F) → (⟨S1024x10, .f32⟩ : BufTy).Contents (Elt F)) ]

theorem ops_split : (ops : List (HloOp τ sig (Elt F))) = opsA ++ opsB := rfl

/-- After the first part the features' buffer holds the features of the first five arguments. -/
theorem featA (V : Valuation τ sig (Elt F)) :
    after opsA V (main_v9 : DevRef τ sig)
      = featVec (V (main_arg0 : DevRef τ sig)) (V (main_arg1 : DevRef τ sig)) (V (main_arg2 : DevRef τ sig)) (V (main_arg3 : DevRef τ sig)) (V (main_arg4 : DevRef τ sig)) := by
  after_results_simp
  rfl

theorem argA5 (V : Valuation τ sig (Elt F)) :
    after opsA V (main_arg5 : DevRef τ sig) = V (main_arg5 : DevRef τ sig) := by
  after_results_simp

theorem argA6 (V : Valuation τ sig (Elt F)) :
    after opsA V (main_arg6 : DevRef τ sig) = V (main_arg6 : DevRef τ sig) := by
  after_results_simp

theorem argA7 (V : Valuation τ sig (Elt F)) :
    after opsA V (main_arg7 : DevRef τ sig) = V (main_arg7 : DevRef τ sig) := by
  after_results_simp

theorem argA8 (V : Valuation τ sig (Elt F)) :
    after opsA V (main_arg8 : DevRef τ sig) = V (main_arg8 : DevRef τ sig) := by
  after_results_simp

theorem argA9 (V : Valuation τ sig (Elt F)) :
    after opsA V (main_arg9 : DevRef τ sig) = V (main_arg9 : DevRef τ sig) := by
  after_results_simp

/-- The second part, from any contents W: the first result buffer ends at the first head of W's features,
    projection matrix, head matrix and bias. -/
theorem madB (W : Valuation τ sig (Elt F)) :
    after opsB W (main_v26 : DevRef τ sig)
      = madVec (W (main_v9 : DevRef τ sig)) (simVec (mbVec (W (main_v9 : DevRef τ sig)) (W (main_arg5 : DevRef τ sig)))) (W (main_arg6 : DevRef τ sig)) (W (main_arg7 : DevRef τ sig)) := by
  after_results_simp
  rfl

/-- … and the second result buffer at the second head. -/
theorem clfB (W : Valuation τ sig (Elt F)) :
    after opsB W (main_v30 : DevRef τ sig) = clfVec (W (main_v9 : DevRef τ sig)) (W (main_arg8 : DevRef τ sig)) (W (main_arg9 : DevRef τ sig)) := by
  after_results_simp
  rfl

/-- The whole fold at the first result buffer is the first head of the arguments. -/
theorem out_mad (V : Valuation τ sig (Elt F)) :
    after ops V (main_v26 : DevRef τ sig)
      = madRes (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, after_append, madB, featA, argA5, argA6, argA7]
  rfl

/-- The whole fold at the second result buffer is the second head of the arguments. -/
theorem out_clf (V : Valuation τ sig (Elt F)) :
    after ops V (main_v30 : DevRef τ sig)
      = clfRes (V (main_arg0 : DevRef τ sig)) (V (main_arg1 : DevRef τ sig)) (V (main_arg2 : DevRef τ sig)) (V (main_arg3 : DevRef τ sig)) (V (main_arg4 : DevRef τ sig)) (V (main_arg8 : DevRef τ sig)) (V (main_arg9 : DevRef τ sig)) := by
  rw [ops_split, after_append, clfB, featA, argA8, argA9]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-- On the device, for any float values, from any memory with zero counters: every weakly fair execution of the
    reference terminates with its two results at the staged functions of the arguments and the arguments unchanged. -/
theorem run_raw (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = madRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v30) = clfRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v26).trans (out_mad _), (h c main_v30).trans (out_clf _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefValue

end
-- ==== Proof.RefLaws.lean ====
/-
  Reading the host operations at one entry, on the extended reals.

  A product of an M × K by a K × N array contracted over the one shared axis is, at (i, j), the sum over k of
  the left factor at (i, k) times the right at (k, j): the contraction index has one coordinate, and the two
  operand indices take the row from the result, the column from the result, and that coordinate.
  A bias broadcast first to one row and then down the rows reads, at (i, k), the bias at k.
  The exponential linear unit as the programs spell it is the unit of the specification: where the entry is
  above the zero word both selections return the entry; elsewhere the inner selection returns the entry, so
  the line is the word one times (exp of the entry less one), and the word one is 1.
  Two arrays side by side along the columns read as the left one in its columns and the right one in the
  columns after; so a sum over all 640 columns is the sum over the first 512 plus the sum over the last 128.
  A rank-two array given a unit axis and repeated along it reads as itself at the two kept coordinates, and a
  sum over the leading axis from a word is the word's value plus the sum over that coordinate.
-/
import Idealize.ShloMosaic.PureOps.Ideal.Laws
import Idealize.ShloMosaic.Lib.ValueIdx
import Idealize.ShloMosaic.Lib.Pipeline.Value
import proofs.«161479_j81209241633290_1_alg».proof.Proof.Spec

noncomputable section

open scoped BigOperators

namespace Cert.ReferenceIdeal.RefValue

open Idealize.ShloMosaic Idealize.ShloMosaic.ValueIdx

section Dot

variable {M K N : Nat}
  (wf : DotDims.WF (⟨2, ![M, K]⟩ : Shape) ⟨2, ![K, N]⟩ ⟨2, ![M, N]⟩ [1] [0] [0] [1] [] [])

/-- The dimension numbers of a plain product: rows by the shared axis, the shared axis by columns. -/
abbrev plainDims : DotDims (⟨2, ![M, K]⟩ : Shape) ⟨2, ![K, N]⟩ ⟨2, ![M, N]⟩ := ⟨[1], [0], [0], [1], [], [], wf⟩

theorem plain_lhs0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

theorem plain_lhs1 (j : (⟨2, ![M, N]⟩ : Shape).Idx) (q : (plainDims wf).contr.Idx) :
    ((plainDims wf).lhsIdx j q 1).val = (q ⟨0, Nat.one_pos⟩).val :=
  (plainDims wf).lhsIdx_val_of_single rfl j q

theorem plain_rhs0 (j : (⟨2, ![M, N]⟩ : Shape).Idx) (q : (plainDims wf).contr.Idx) :
    ((plainDims wf).rhsIdx j q 0).val = (q ⟨0, Nat.one_pos⟩).val :=
  (plainDims wf).rhsIdx_val_of_single rfl j q

theorem plain_rhs1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- A plain product read at (i, j): the sum over the shared axis of the factors' products. -/
theorem dot_plain_apply (l : FVec Ideal ⟨2, ![M, K]⟩ .f32) (r : FVec Ideal ⟨2, ![K, N]⟩ .f32) (i : Fin M) (j : Fin N) :
    Host.dotGeneral (plainDims wf) none l r (ix2 i j) = ∑ k : Fin K, l (ix2 i k) * r (ix2 k j) := by
  simp only [Host.dotGeneral]
  rw [Ideal.dotGeneral_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 i j) ((contrEquiv1 (plainDims wf) K rfl rfl).symm k) = ix2 i k :=
    funext fun a => Fin.ext (by
      match a with
      | ⟨0, _⟩ => exact plain_lhs0 wf _ _
      | ⟨1, _⟩ => exact (plain_lhs1 wf _ _).trans hk)
  have er : (plainDims wf).rhsIdx (ix2 i j) ((contrEquiv1 (plainDims wf) K rfl rfl).symm k) = ix2 k j :=
    funext fun a => Fin.ext (by
      match a with
      | ⟨0, _⟩ => exact (plain_rhs0 wf _ _).trans hk
      | ⟨1, _⟩ => exact plain_rhs1 wf _ _)
  rw [el, er]

end Dot

/-- A bias broadcast to one row and then down the rows, read at (i, k): the bias at k. -/
theorem bias_apply {α : Type} {M N : Nat} (h1 : (⟨1, ![N]⟩ : Shape).BroadcastsInDim ⟨2, ![1, N]⟩ ![1])
    (h2 : (⟨2, ![1, N]⟩ : Shape).BroadcastsInDim ⟨2, ![M, N]⟩ ![0, 1])
    (b : (⟨1, ![N]⟩ : Shape).Idx → α) (i : Fin M) (k : Fin N) :
    broadcastInDim ⟨2, ![M, N]⟩ ![0, 1] h2 (broadcastInDim ⟨2, ![1, N]⟩ ![1] h1 b) (ix2 i k) = b (ix1 k) := by
  have hk := k.isLt
  rw [broadcastInDim_apply ![0, 1] h2 _ (ix2 i k) (ix2 (0 : Fin 1) k) (fun a => by
      match a with
      | ⟨0, _⟩ => show (0 : Nat) = if (1 : Nat) = 1 then 0 else i.val; rw [if_pos rfl]
      | ⟨1, _⟩ => show k.val = if N = 1 then 0 else k.val; split <;> omega),
    broadcastInDim_apply ![1] h1 b (ix2 (0 : Fin 1) k) (ix1 k) (fun a => by
      match a with
      | ⟨0, _⟩ => show k.val = if N = 1 then 0 else k.val; split <;> omega)]

/-- The unit as the programs spell it, at one entry v, is the specification's unit of v. -/
theorem elu_word (v : EReal) :
    Scalar.select (Ideal.cmp .ogt v Cert.Spec.w0) v
        (Cert.Spec.w1 * (Ideal.exp (Scalar.select (Ideal.cmp .ogt v Cert.Spec.w0) Cert.Spec.w0 v) - 1))
      = Cert.Spec.elu v := by
  unfold Cert.Spec.elu
  by_cases hc : Ideal.cmp .ogt v Cert.Spec.w0 = 1#1
  · rw [hc, select_one, select_one]
  · rw [eq_zero_of_ne_one hc, select_zero, select_zero, select_zero, Cert.Spec.w1_eq, one_mul]

/-- One term of a similarity as the program spells it. -/
theorem term_word (p q : EReal) : Ideal.exp (-(max (p - q) (-(p - q)))) = Cert.Spec.term p q := rfl

/-- A sum over 640 columns is the sum over the first 512 plus the sum over the last 128. -/
theorem sum_upper_lower {A : Type*} [AddCommMonoid A] (g : Fin 640 → A) :
    ∑ k : Fin 640, g k = (∑ k : Fin 512, g (Cert.Spec.upper k)) + ∑ k : Fin 128, g (Cert.Spec.lower k) :=
  (Fin.sum_univ_add (a := 512) (b := 128) g).trans
    (congrArg₂ (· + ·) (Finset.sum_congr rfl fun _ _ => congrArg g (Fin.ext rfl))
      (Finset.sum_congr rfl fun _ _ => congrArg g (Fin.ext rfl)))

section Cat

variable {α : Type}
  (h : Shape.Concatenates [(⟨2, ![1024, 512]⟩ : Shape), ⟨2, ![1024, 128]⟩] ⟨2, ![1024, 640]⟩ 1)
  (f : (⟨2, ![1024, 512]⟩ : Shape).Idx → α) (s : (⟨2, ![1024, 128]⟩ : Shape).Idx → α)

/-- Two arrays side by side, read in one of the first 512 columns: the left array there. -/
theorem cat_upper (i : Fin 1024) (k : Fin 512) :
    concatenate ⟨2, ![1024, 640]⟩ 1 [⟨⟨2, ![1024, 512]⟩, f⟩, ⟨⟨2, ![1024, 128]⟩, s⟩] h (ix2 i (Cert.Spec.upper k)) = f (ix2 i k) :=
  concatenate_pair_apply_left 1 f s h (ix2 i (Cert.Spec.upper k)) rfl (ix2 i k) (fun b => by
    match b with
    | ⟨0, _⟩ => rfl
    | ⟨1, _⟩ => rfl)

/-- … and in one of the last 128 columns: the right array, 512 columns to the left. -/
theorem cat_lower (i : Fin 1024) (k : Fin 128) :
    concatenate ⟨2, ![1024, 640]⟩ 1 [⟨⟨2, ![1024, 512]⟩, f⟩, ⟨⟨2, ![1024, 128]⟩, s⟩] h (ix2 i (Cert.Spec.lower k)) = s (ix2 i k) :=
  concatenate_pair_apply_right 1 f s h (ix2 i (Cert.Spec.lower k)) rfl rfl (ix2 i k) (fun b hb => by
    match b with
    | ⟨0, _⟩ => rfl
    | ⟨1, _⟩ => exact absurd rfl hb)
    (by show k.val + 512 = 512 + k.val; omega)

end Cat

section Pairs

variable {α : Type} (p : (⟨2, ![1024, 128]⟩ : Shape).Idx → α)

/-- The projection given a unit leading axis and repeated along it, read at (a, i, b): the projection at (i, b). -/
theorem pair_lead_apply
    (h1 : (⟨2, ![1024, 128]⟩ : Shape).BroadcastsInDim ⟨3, ![1, 1024, 128]⟩ ![1, 2])
    (h2 : (⟨3, ![1, 1024, 128]⟩ : Shape).BroadcastsInDim ⟨3, ![1024, 1024, 128]⟩ ![0, 1, 2])
    (a i : Fin 1024) (b : Fin 128) :
    broadcastInDim ⟨3, ![1024, 1024, 128]⟩ ![0, 1, 2] h2 (broadcastInDim ⟨3, ![1, 1024, 128]⟩ ![1, 2] h1 p) (ix3 a i b)
      = p (ix2 i b) := by
  rw [broadcastInDim_apply ![0, 1, 2] h2 _ (ix3 a i b) (ix3 (0 : Fin 1) i b) (fun c => by
      match c with
      | ⟨0, _⟩ => show (0 : Nat) = if (1 : Nat) = 1 then 0 else a.val; rw [if_pos rfl]
      | ⟨1, _⟩ => show i.val = if (1024 : Nat) = 1 then 0 else i.val; rw [if_neg (by decide)]
      | ⟨2, _⟩ => show b.val = if (128 : Nat) = 1 then 0 else b.val; rw [if_neg (by decide)]),
    broadcastInDim_apply ![1, 2] h1 p (ix3 (0 : Fin 1) i b) (ix2 i b) (fun c => by
      match c with
      | ⟨0, _⟩ => show i.val = if (1024 : Nat) = 1 then 0 else i.val; rw [if_neg (by decide)]
      | ⟨1, _⟩ => show b.val = if (128 : Nat) = 1 then 0 else b.val; rw [if_neg (by decide)])]

/-- The projection given a unit middle axis and repeated along it, read at (a, i, b): the projection at (a, b). -/
theorem pair_mid_apply
    (h1 : (⟨2, ![1024, 128]⟩ : Shape).BroadcastsInDim ⟨3, ![1024, 1, 128]⟩ ![0, 2])
    (h2 : (⟨3, ![1024, 1, 128]⟩ : Shape).BroadcastsInDim ⟨3, ![1024, 1024, 128]⟩ ![0, 1, 2])
    (a i : Fin 1024) (b : Fin 128) :
    broadcastInDim ⟨3, ![1024, 1024, 128]⟩ ![0, 1, 2] h2 (broadcastInDim ⟨3, ![1024, 1, 128]⟩ ![0, 2] h1 p) (ix3 a i b)
      = p (ix2 a b) := by
  rw [broadcastInDim_apply ![0, 1, 2] h2 _ (ix3 a i b) (ix3 a (0 : Fin 1) b) (fun c => by
      match c with
      | ⟨0, _⟩ => show a.val = if (1024 : Nat) = 1 then 0 else a.val; rw [if_neg (by decide)]
      | ⟨1, _⟩ => show (0 : Nat) = if (1 : Nat) = 1 then 0 else i.val; rw [if_pos rfl]
      | ⟨2, _⟩ => show b.val = if (128 : Nat) = 1 then 0 else b.val; rw [if_neg (by decide)]),
    broadcastInDim_apply ![0, 2] h1 p (ix3 a (0 : Fin 1) b) (ix2 a b) (fun c => by
      match c with
      | ⟨0, _⟩ => show a.val = if (1024 : Nat) = 1 then 0 else a.val; rw [if_neg (by decide)]
      | ⟨1, _⟩ => show b.val = if (128 : Nat) = 1 then 0 else b.val; rw [if_neg (by decide)])]

end Pairs

/-- The sum over the leading axis of a 1024 × 1024 × 128 array from a word, read at (i, b): the word's value plus the
    sum over a of the array at (a, i, b). -/
theorem reduce_lead_apply (h' : (⟨3, ![1024, 1024, 128]⟩ : Shape).ReducesTo [0] ⟨2, ![1024, 128]⟩)
    (hu : 0 < (⟨0, ![]⟩ : Shape).numel) (x : FVec Ideal ⟨3, ![1024, 1024, 128]⟩ .f32) (w : BitVec 32)
    (i : Fin 1024) (b : Fin 128) :
    Host.reduceAdd x (constant (F := Ideal) ⟨0, ![]⟩ .f32 w) h' hu (ix2 i b)
      = Ideal.ofBits .f32 w + ∑ a : Fin 1024, x (ix3 a i b) := by
  unfold Host.reduceAdd
  rw [Ideal.hostReduceAdd_def, Ideal.hostReduceAdd_single h' (by decide)]
  refine congrArg (_ + ·) (Finset.sum_congr rfl fun k _ => ?_)
  exact congrArg x (funext fun c => Fin.ext (by
    match c with
    | ⟨0, _⟩ => rfl
    | ⟨1, _⟩ => rfl
    | ⟨2, _⟩ => rfl))

end Cert.ReferenceIdeal.RefValue

end
-- ==== Proof.RefRead.lean ====
/-
  The staged functions of the reference read at one entry, on the extended reals: each dense layer is the sum
  over the shared axis plus the bias, the unit is the specification's unit of the entry, the projection is a
  sum over the 512 features, the similarity at (i, b) is the sum over all rows a of
  exp (−|p (i, b) − p (a, b)|) less the word one (the sum starts from the zero word, which is 0), and the first
  head's contraction over the 640 columns of the side-by-side array is the sum over the features' 512 columns
  against the upper rows of Wm plus the sum over the similarities' 128 columns against its lower rows.
-/
import proofs.«161479_j81209241633290_1_alg».proof.Proof.RefStages
import proofs.«161479_j81209241633290_1_alg».proof.Proof.RefLaws

noncomputable section

open scoped BigOperators

namespace Cert.ReferenceIdeal.RefValue

open Cert.ReferenceIdeal Cert.ReferenceIdeal.Gen Idealize.ShloMosaic Idealize.ShloMosaic.ValueIdx

/-- The unit at an entry. -/
theorem eluVec_apply {S : Shape} (h : S_.BroadcastsInDim S (![] : Fin 0 → Fin S.rank)) (v : FVec Ideal S .f32) (j : S.Idx) :
    eluVec h v j = Cert.Spec.elu (v j) :=
  elu_word (v j)

/-- The first layer before its unit, at (i, k). -/
theorem hidPre_apply (x : FVec Ideal S1024x512 .f32) (Wb0 : FVec Ideal S512x1024 .f32) (bb0 : FVec Ideal S1024 .f32)
    (i : Fin 1024) (k : Fin 1024) :
    hidPre x Wb0 bb0 (ix2 i k) = (∑ d : Fin 512, x (ix2 i d) * Wb0 (ix2 d k)) + bb0 (ix1 k) := by
  unfold hidPre
  exact congrArg₂ (· + ·) (dot_plain_apply _ x Wb0 i k) (bias_apply _ _ bb0 i k)

/-- The second layer before its unit, at (i, k). -/
theorem featPre_apply (h : FVec Ideal S1024x1024 .f32) (Wb1 : FVec Ideal S1024x512 .f32) (bb1 : FVec Ideal S512 .f32)
    (i : Fin 1024) (k : Fin 512) :
    featPre h Wb1 bb1 (ix2 i k) = (∑ d : Fin 1024, h (ix2 i d) * Wb1 (ix2 d k)) + bb1 (ix1 k) := by
  unfold featPre
  exact congrArg₂ (· + ·) (dot_plain_apply _ h Wb1 i k) (bias_apply _ _ bb1 i k)

/-- The projection at (i, b). -/
theorem mbVec_apply (f : FVec Ideal S1024x512 .f32) (T : FVec Ideal S512x128 .f32) (i : Fin 1024) (b : Fin 128) :
    mbVec f T (ix2 i b) = ∑ d : Fin 512, f (ix2 i d) * T (ix2 d b) := by
  unfold mbVec
  exact dot_plain_apply _ f T i b

/-- The similarity at (i, b). -/
theorem simVec_apply (p : FVec Ideal S1024x128 .f32) (i : Fin 1024) (b : Fin 128) :
    simVec p (ix2 i b) = (∑ a : Fin 1024, Cert.Spec.term (p (ix2 i b)) (p (ix2 a b))) - Cert.Spec.w1 := by
  unfold simVec
  refine congrArg₂ (· - ·) ((reduce_lead_apply _ _ _ _ i b).trans ?_) rfl
  rw [Ideal.ofBits_zero_f32, zero_add]
  refine Finset.sum_congr rfl fun a _ => ?_
  exact congrArg₂ (fun u v : EReal => Ideal.exp (-(max (u - v) (-(u - v)))))
    (pair_lead_apply p _ _ a i b) (pair_mid_apply p _ _ a i b)

/-- The second head at (i, j). -/
theorem clfVec_apply (f : FVec Ideal S1024x512 .f32) (Wc : FVec Ideal S512x10 .f32) (bc : FVec Ideal S10 .f32)
    (i : Fin 1024) (j : Fin 10) :
    clfVec f Wc bc (ix2 i j) = (∑ k : Fin 512, f (ix2 i k) * Wc (ix2 k j)) + bc (ix1 j) := by
  unfold clfVec
  exact congrArg₂ (· + ·) (dot_plain_apply _ f Wc i j) (bias_apply _ _ bc i j)

/-- The first head at (i, j). -/
theorem madVec_apply (f : FVec Ideal S1024x512 .f32) (s : FVec Ideal S1024x128 .f32) (Wm : FVec Ideal S640x17 .f32)
    (bm : FVec Ideal S17 .f32) (i : Fin 1024) (j : Fin 17) :
    madVec f s Wm bm (ix2 i j)
      = ((∑ k : Fin 512, f (ix2 i k) * Wm (ix2 (Cert.Spec.upper k) j))
          + (∑ k : Fin 128, s (ix2 i k) * Wm (ix2 (Cert.Spec.lower k) j))) + bm (ix1 j) := by
  unfold madVec
  refine congrArg₂ (· + ·) ((dot_plain_apply _ _ Wm i j).trans ((sum_upper_lower _).trans ?_)) (bias_apply _ _ bm i j)
  refine congrArg₂ (· + ·) (Finset.sum_congr rfl fun k _ => ?_) (Finset.sum_congr rfl fun k _ => ?_)
  · exact congrArg (· * Wm (ix2 (Cert.Spec.upper k) j)) (cat_upper _ f s i k)
  · exact congrArg (· * Wm (ix2 (Cert.Spec.lower k) j)) (cat_lower _ f s i k)

end Cert.ReferenceIdeal.RefValue

end
-- ==== Proof.RefSpec.lean ====
/-
  The reference's two results are the specification's two arrays. Entry by entry: the features are the second
  unit of the second layer of the first unit of the first layer; the projections are the features against T;
  the similarities are those of the projections; the first head is the features against the upper rows of Wm
  plus the similarities against its lower rows plus bm; the second head is the features against Wc plus bc.
  No step looks inside an entry of an argument.
-/
import proofs.«161479_j81209241633290_1_alg».proof.Proof.RefRead

noncomputable section

open scoped BigOperators

namespace Cert.ReferenceIdeal.RefValue

open Cert.ReferenceIdeal Cert.ReferenceIdeal.Gen Idealize.ShloMosaic Idealize.ShloMosaic.ValueIdx

variable (x : FVec Ideal S1024x512 .f32) (Wb0 : FVec Ideal S512x1024 .f32) (bb0 : FVec Ideal S1024 .f32)
  (Wb1 : FVec Ideal S1024x512 .f32) (bb1 : FVec Ideal S512 .f32) (T : FVec Ideal S512x128 .f32)
  (Wm : FVec Ideal S640x17 .f32) (bm : FVec Ideal S17 .f32) (Wc : FVec Ideal S512x10 .f32) (bc : FVec Ideal S10 .f32)

/-- The first layer with its unit, at (i, k). -/
theorem hidVec_apply (i : Fin 1024) (k : Fin 1024) :
    eluVec bcast_S_S1024x1024 (hidPre x Wb0 bb0) (ix2 i k) = Cert.Spec.hid x Wb0 bb0 i k := by
  rw [eluVec_apply, hidPre_apply]
  rfl

/-- The features at (i, k). -/
theorem featVec_apply (i : Fin 1024) (k : Fin 512) :
    featVec x Wb0 bb0 Wb1 bb1 (ix2 i k) = Cert.Spec.feat x Wb0 bb0 Wb1 bb1 i k := by
  unfold featVec
  rw [eluVec_apply, featPre_apply]
  unfold Cert.Spec.feat
  refine congrArg Cert.Spec.elu (congrArg (· + bb1 (ix1 k)) (Finset.sum_congr rfl fun d _ => ?_))
  rw [hidVec_apply]

/-- The projections at (i, b). -/
theorem mb_apply (i : Fin 1024) (b : Fin 128) :
    mbVec (featVec x Wb0 bb0 Wb1 bb1) T (ix2 i b) = Cert.Spec.mb x Wb0 bb0 Wb1 bb1 T i b := by
  rw [mbVec_apply]
  unfold Cert.Spec.mb
  refine Finset.sum_congr rfl fun d _ => ?_
  rw [featVec_apply]

/-- The similarities at (i, b). -/
theorem sim_apply (i : Fin 1024) (b : Fin 128) :
    simVec (mbVec (featVec x Wb0 bb0 Wb1 bb1) T) (ix2 i b) = Cert.Spec.sim x Wb0 bb0 Wb1 bb1 T i b := by
  rw [simVec_apply]
  unfold Cert.Spec.sim
  refine congrArg (· - Cert.Spec.w1) (Finset.sum_congr rfl fun a _ => ?_)
  rw [mb_apply, mb_apply]

/-- The first result at (i, j). -/
theorem mad_apply (i : Fin 1024) (j : Fin 17) :
    madRes x Wb0 bb0 Wb1 bb1 T Wm bm (ix2 i j) = Cert.Spec.mad x Wb0 bb0 Wb1 bb1 T Wm bm i j := by
  unfold madRes
  rw [madVec_apply]
  unfold Cert.Spec.mad
  refine congrArg (· + bm (ix1 j)) (congrArg₂ (· + ·) (Finset.sum_congr rfl fun k _ => ?_) (Finset.sum_congr rfl fun k _ => ?_))
  · rw [featVec_apply]
  · rw [sim_apply]

/-- The second result at (i, j). -/
theorem clf_apply (i : Fin 1024) (j : Fin 10) :
    clfRes x Wb0 bb0 Wb1 bb1 Wc bc (ix2 i j) = Cert.Spec.clf x Wb0 bb0 Wb1 bb1 Wc bc i j := by
  unfold clfRes
  rw [clfVec_apply]
  unfold Cert.Spec.clf
  refine congrArg (· + bc (ix1 j)) (Finset.sum_congr rfl fun k _ => ?_)
  rw [featVec_apply]

/-- The first result is the specification's first array. -/
theorem madRes_eq : madRes x Wb0 bb0 Wb1 bb1 T Wm bm = Cert.Spec.madArr x Wb0 bb0 Wb1 bb1 T Wm bm := by
  funext jj
  obtain ⟨i, j, rfl⟩ : ∃ (i : Fin 1024) (j : Fin 17), jj = ix2 i j := ⟨jj 0, jj 1, eq_ix2 jj⟩
  rw [Cert.Spec.madArr_apply]
  exact mad_apply x Wb0 bb0 Wb1 bb1 T Wm bm i j

/-- The second result is the specification's second array. -/
theorem clfRes_eq : clfRes x Wb0 bb0 Wb1 bb1 Wc bc = Cert.Spec.clfArr x Wb0 bb0 Wb1 bb1 Wc bc := by
  funext jj
  obtain ⟨i, j, rfl⟩ : ∃ (i : Fin 1024) (j : Fin 10), jj = ix2 i j := ⟨jj 0, jj 1, eq_ix2 jj⟩
  rw [Cert.Spec.clfArr_apply]
  exact clf_apply x Wb0 bb0 Wb1 bb1 Wc bc i j

end Cert.ReferenceIdeal.RefValue

end
-- ==== Proof.RefRun.lean ====
/-
  The reference's run with its results named by the specification: from any memory with zero counters every
  weakly fair execution terminates, the first result buffer holds the specification's first array of the
  arguments, the second its second, and the ten argument buffers hold what they held.
-/
import proofs.«161479_j81209241633290_1_alg».proof.Proof.RefRaw
import proofs.«161479_j81209241633290_1_alg».proof.Proof.RefSpec

noncomputable section

namespace Cert.ReferenceIdeal.RefValue

open Cert.ReferenceIdeal Cert.ReferenceIdeal.Gen Idealize.ShloMosaic Idealize.ShloMosaic.TcCoe Idealize.SL.Sem

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v26) = Cert.Spec.madArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v30) = Cert.Spec.clfArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono
    (fun _ h c => ⟨(h c).1.trans (madRes_eq _ _ _ _ _ _ _ _), (h c).2.1.trans (clfRes_eq _ _ _ _ _ _ _), (h c).2.2⟩)
    (run_raw (F := Ideal) m ρ)

end Cert.ReferenceIdeal.RefValue

end
-- ==== Proof.KR0Kernel.lean ====
import proofs.«161479_j81209241633290_1_alg».proof.Proof.Gen.Kernel.Launch
import proofs.«161479_j81209241633290_1_alg».proof.Proof.Gen.Kernel.Skeleton
import proofs.«161479_j81209241633290_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body on whole staging buffers

The body reads its six inputs whole — a 256-row block of `x`, the two weight matrices, the two bias rows and the
projection `T` —, and overwrites its two output buffers whole: the 256×512 block of features (rounded to bf16) and
the 256×128 block of their projection. It also loads each output buffer once before storing into it; the loaded
values are never used. -/

/-! ## The rectangles the body accesses: each is a whole buffer -/

abbrev rX : Rect S256x512 := Rect.unit (s := S256x512) ![0, 0] S256x512.size inb_S256x512_S256x512_0_0
abbrev rW0 : Rect S512x1024 := Rect.unit (s := S512x1024) ![0, 0] S512x1024.size inb_S512x1024_S512x1024_0_0
abbrev rB0 : Rect S1024 := Rect.unit (s := S1024) ![0] S1024.size inb_S1024_S1024_0
abbrev rW1 : Rect S1024x512 := Rect.unit (s := S1024x512) ![0, 0] S1024x512.size inb_S1024x512_S1024x512_0_0
abbrev rB1 : Rect S512 := Rect.unit (s := S512) ![0] S512.size inb_S512_S512_0
abbrev rT : Rect S512x128 := Rect.unit (s := S512x128) ![0, 0] S512x128.size inb_S512x128_S512x128_0_0
abbrev rM : Rect S256x128 := Rect.unit (s := S256x128) ![0, 0] S256x128.size inb_S256x128_S256x128_0_0

/-! ## What the body leaves in each output buffer -/

/-- The feature buffer after the body: its one store, of the features of the loaded inputs, over the whole buffer. -/
def outFeat (x0 : Vec F S256x512 .f32) (x1 : Vec F S512x1024 .f32) (x2 : Vec F S1024 .f32) (x3 : Vec F S1024x512 .f32)
    (x4 : Vec F S512 .f32) : Vec F S256x512 .bf16 :=
  View.canon [⟨rX, k0_pay2 (View.ld x0 rX) (View.ld x1 rW0) (View.ld x2 rB0) (View.ld x3 rW1) (View.ld x4 rB1)⟩]

/-- The projection buffer after the body: its one store, of the features times `T`, over the whole buffer. -/
def outMb (x0 : Vec F S256x512 .f32) (x1 : Vec F S512x1024 .f32) (x2 : Vec F S1024 .f32) (x3 : Vec F S1024x512 .f32)
    (x4 : Vec F S512 .f32) (x5 : Vec F S512x128 .f32) : Vec F S256x128 .f32 :=
  View.canon [⟨rM, k0_pay3 (View.ld x0 rX) (View.ld x1 rW0) (View.ld x2 rB0) (View.ld x3 rW1) (View.ld x4 rB1) (View.ld x5 rT)⟩]

/-- A store over the whole 256×512 buffer covers it. -/
theorem coverFeat (p : Vec F S256x512 .bf16) (y : S256x512.Idx) :
    ∃ pc ∈ ([⟨rX, p⟩] : List (View.Piece (Elt F) S256x512 .bf16)), y ∈ pc.1.set :=
  View.cover_of_tiled [⟨rX, p⟩] S256x512.size (by rfl) y

/-- A store over the whole 256×128 buffer covers it. -/
theorem coverMb (p : Vec F S256x128 .f32) (y : S256x128.Idx) :
    ∃ pc ∈ ([⟨rM, p⟩] : List (View.Piece (Elt F) S256x128 .f32)), y ∈ pc.1.set :=
  View.cover_of_tiled [⟨rM, p⟩] S256x128.size (by rfl) y

/-! ## The body's triple -/

set_option maxHeartbeats 1000000 in
/-- The body on whole staging buffers, the six inputs' at read contents `x0 … x5` and the two outputs' at anything,
    runs to the continuation holding the inputs' as they were and the outputs' at `outFeat` and `outMb` of the
    inputs. -/
theorem sound_kernel (c : Dev nD) (E : Set ℕ) (i : grid0.Coords)
    (arg1 : Memref sig .tc .vmem S256x512 .f32) (harg1 : arg1.IsWhole) (arg2 : Memref sig .tc .vmem S512x1024 .f32) (harg2 : arg2.IsWhole)
    (arg3 : Memref sig .tc .vmem S1024 .f32) (harg3 : arg3.IsWhole) (arg4 : Memref sig .tc .vmem S1024x512 .f32) (harg4 : arg4.IsWhole)
    (arg5 : Memref sig .tc .vmem S512 .f32) (harg5 : arg5.IsWhole) (arg6 : Memref sig .tc .vmem S512x128 .f32) (harg6 : arg6.IsWhole)
    (arg7 : Memref sig .tc .vmem S256x512 .bf16) (harg7 : arg7.IsWhole) (arg8 : Memref sig .tc .vmem S256x128 .f32) (harg8 : arg8.IsWhole)
    (x0 : Vec F S256x512 .f32) (x1 : Vec F S512x1024 .f32) (x2 : Vec F S1024 .f32) (x3 : Vec F S1024x512 .f32)
    (x4 : Vec F S512 .f32) (x5 : Vec F S512x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outFeat x0 x1 x2 x3 x4)
            ∗ owns (c : Thread nD τ) arg8 fullShare (outMb x0 x1 x2 x3 x4 x5)) -∗ K ⟨⟩))
      ⊢ wp frame (wpE (defs₀ (F := F)) Variants.none c none) E
          (cc0__feat_kernel i arg1 harg1 arg2 harg2 arg3 harg3 arg4 harg4 arg5 harg5 arg6 harg6 arg7 harg7 arg8 harg8) K := by
  simp only [cc0__feat_kernel_eq_skeleton]; unfold cc0__feat_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverFeat _)
  iexists _; isplitr
  swap; · iexact H7
  ipureintro
  exact View.read_writes_eq_canon _ _ _ (coverMb _)

end Cert.Kernel.R0

end
-- ==== Proof.KR0Body.lean ====
import proofs.«161479_j81209241633290_1_alg».proof.Proof.Gen.Kernel.Launch
import proofs.«161479_j81209241633290_1_alg».proof.Proof.Gen.Kernel.Skeleton
import proofs.«161479_j81209241633290_1_alg».proof.Proof.Gen.Kernel.Points
import proofs.«161479_j81209241633290_1_alg».proof.Proof.KR0Kernel
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data and its body obligation

The region runs the first kernel on a grid of four points. Point `t` is handed rows `256·t … 256·t + 255` of `x` and
the five parameter arrays whole, and writes back the same rows of the feature array and of the projection array.
Everything is stated at the contents `V` the region finds in the buffers when it is entered. -/

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- The proof data of the region on core `c`: the arrays as the region finds them; after the body at point `t` each
    input's buffer at its block and each output's at what the body's one store leaves there; the invariant is the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outFeat (iblk V c 0 t) (iblk V c 1 t) (iblk V c 2 t) (iblk V c 3 t) (iblk V c 4 t)
    | ⟨7, _⟩ => outMb (iblk V c 0 t) (iblk V c 1 t) (iblk V c 2 t) (iblk V c 3 t) (iblk V c 4 t) (iblk V c 5 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = outFeat (iblk V c 0 t) (iblk V c 1 t) (iblk V c 2 t) (iblk V c 3 t) (iblk V c 4 t) := by dsimp only [dat]
theorem after_7 (c : Dev nD) (t : Fin cfg0.N) : (dat V c).after 7 t
    = outMb (iblk V c 0 t) (iblk V c 1 t) (iblk V c 2 t) (iblk V c 3 t) (iblk V c 4 t) (iblk V c 5 t) := by dsimp only [dat]

/-- Each input's current staging buffer holds its block at every point, fetched there or not: where it is not
    fetched the block index has not moved since the point before, and the body leaves the block in place. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.KVal1Defs.lean ====
/-
  The two blocks that one grid point of the second kernel stores, as pure functions of its whole input
  blocks.

  x1 holds the 128 query rows of the projection, x2 all 1024 rows of it, x3 the query rows of the
  features; x4 and x5 are the upper 512 and the lower 128 rows of the first head's weights, x6 its bias,
  x7 and x8 the second head's weights and bias. The body reads x2 in eight blocks of 128 rows, block t
  being rows 128 t … 128 t + 127, and every other operand whole. An accumulator that starts at the word
  0.0 takes in, block after block, the lane sums of exp (0.0 − |x1 − row of the block|); the first head
  then takes away the word 1.0, multiplies by x5, adds the product of x3 and x4 and the bias; the second
  head is the product of x3 and x7 plus its bias.
-/
import proofs.«161479_j81209241633290_1_alg».proof.Proof.Gen.Kernel.Skeleton
import Idealize.ShloMosaic.Lib.Pipeline.FrameBody

noncomputable section

namespace Cert.Kernel.Val1

open Idealize.ShloMosaic Cert.Kernel Cert.Kernel.Gen

variable {F : FTy → Type} [FloatOps F]

/-- Block t of the 1024 rows: rows 128 t … 128 t + 127, all 128 lanes. -/
def chunk0 (x2 : Vec F S1024x128 .f32) : Vec F S128x128 .f32 :=
  View.ld x2 (Rect.unit (s := S1024x128) ![0, 0] S128x128.size inb_S1024x128_S128x128_0_0)
def chunk1 (x2 : Vec F S1024x128 .f32) : Vec F S128x128 .f32 :=
  View.ld x2 (Rect.unit (s := S1024x128) ![128, 0] S128x128.size inb_S1024x128_S128x128_128_0)
def chunk2 (x2 : Vec F S1024x128 .f32) : Vec F S128x128 .f32 :=
  View.ld x2 (Rect.unit (s := S1024x128) ![256, 0] S128x128.size inb_S1024x128_S128x128_256_0)
def chunk3 (x2 : Vec F S1024x128 .f32) : Vec F S128x128 .f32 :=
  View.ld x2 (Rect.unit (s := S1024x128) ![384, 0] S128x128.size inb_S1024x128_S128x128_384_0)
def chunk4 (x2 : Vec F S1024x128 .f32) : Vec F S128x128 .f32 :=
  View.ld x2 (Rect.unit (s := S1024x128) ![512, 0] S128x128.size inb_S1024x128_S128x128_512_0)
def chunk5 (x2 : Vec F S1024x128 .f32) : Vec F S128x128 .f32 :=
  View.ld x2 (Rect.unit (s := S1024x128) ![640, 0] S128x128.size inb_S1024x128_S128x128_640_0)
def chunk6 (x2 : Vec F S1024x128 .f32) : Vec F S128x128 .f32 :=
  View.ld x2 (Rect.unit (s := S1024x128) ![768, 0] S128x128.size inb_S1024x128_S128x128_768_0)
def chunk7 (x2 : Vec F S1024x128 .f32) : Vec F S128x128 .f32 :=
  View.ld x2 (Rect.unit (s := S1024x128) ![896, 0] S128x128.size inb_S1024x128_S128x128_896_0)

/-- The query rows as the body reads them: the whole block. -/
def q (x1 : Vec F S128x128 .f32) : Vec F S128x128 .f32 :=
  View.ld x1 (Rect.unit (s := S128x128) ![0, 0] S128x128.size inb_S128x128_S128x128_0_0)

/-- The query rows after the body's first (trivial) reshape. -/
def q1 (x1 : Vec F S128x128 .f32) : FVec F S128x128 .f32 := k1_pay2 (q x1)

/-- The accumulator after blocks 0, 1, 2. -/
def acc3 (x1 : Vec F S128x128 .f32) (x2 : Vec F S1024x128 .f32) : FVec F S128x128 .f32 :=
  k1_pay3 (q x1) (chunk0 x2) (chunk1 x2) (chunk2 x2)

/-- The accumulator after blocks 0 … 5. -/
def acc6 (x1 : Vec F S128x128 .f32) (x2 : Vec F S1024x128 .f32) : FVec F S128x128 .f32 :=
  k1_pay4 (q1 x1) (acc3 x1 x2) (chunk3 x2) (chunk4 x2) (chunk5 x2)

/-- The distances |x1 − row| of block 6, before the exponential. -/
def dist6 (x1 : Vec F S128x128 .f32) (x2 : Vec F S1024x128 .f32) : FVec F S128x128x128 .f32 :=
  k1_pay5 (q1 x1) (chunk6 x2)

/-- The block stored whole into the first head's window. -/
def o8 (x1 : Vec F S128x128 .f32) (x2 : Vec F S1024x128 .f32) (x3 : Vec F S128x512 .bf16)
    (x4 : Vec F S512x17 .f32) (x5 : Vec F S128x17 .f32) (x6 : Vec F S17 .f32) : FVec F S128x17 .f32 :=
  k1_pay7 (q1 x1) (acc6 x1 x2) (dist6 x1 x2) (Scalar.ofBits .f32 0x00000000#32) (chunk7 x2)
    (View.ld x3 (Rect.unit (s := S128x512) ![0, 0] S128x512.size inb_S128x512_S128x512_0_0))
    (View.ld x4 (Rect.unit (s := S512x17) ![0, 0] S512x17.size inb_S512x17_S512x17_0_0))
    (View.ld x5 (Rect.unit (s := S128x17) ![0, 0] S128x17.size inb_S128x17_S128x17_0_0))
    (View.ld x6 (Rect.unit (s := S17) ![0] S17.size inb_S17_S17_0))

/-- The block stored whole into the second head's window. -/
def o9 (x3 : Vec F S128x512 .bf16) (x7 : Vec F S512x10 .f32) (x8 : Vec F S10 .f32) : FVec F S128x10 .f32 :=
  k1_pay1
    (k1_pay6 (View.ld x3 (Rect.unit (s := S128x512) ![0, 0] S128x512.size inb_S128x512_S128x512_0_0)))
    (k1_pay8 (View.ld x7 (Rect.unit (s := S512x10) ![0, 0] S512x10.size inb_S512x10_S512x10_0_0)))
    (constant S128x10 .f32 0x00000000#32)
    (View.ld x8 (Rect.unit (s := S10) ![0] S10.size inb_S10_S10_0))

end Cert.Kernel.Val1

end
-- ==== Proof.KBody1.lean ====
/-
  The second kernel's grid point, as a step of the pipeline.

  At grid point t the body is handed ten staging buffers. Eight hold inputs: rows 128 t … 128 t + 127 of the
  projection matrix (window 0), ALL 1024 rows of the same matrix (window 1, the same array seen through a second
  window), the same 128 rows of the features (window 2), the upper and lower row blocks of the first head's
  weights (windows 3, 4), its bias (5), the second head's weights (6) and bias (7). It reads the 1024 rows
  of window 1 as eight loads of 128 rows, adds up the eight partial similarity sums, forms the two heads and
  stores each head's 128-row block WHOLE into windows 8 and 9. So after the body each output buffer is one
  function of the input blocks (o8, o9: the stored values as terms over the blocks), the inputs are as they were,
  and nothing else is touched.

  The proof data of the pipeline says exactly that: every array as the region finds it (V), after the body each
  input buffer at its block and each output buffer at that function of the input blocks. The projection matrix is
  held through two windows, so its one full share is dealt to them as its left and right halves; every other
  input array is held whole.
-/
import proofs.«161479_j81209241633290_1_alg».proof.Proof.Gen.Kernel.Launch
import proofs.«161479_j81209241633290_1_alg».proof.Proof.Gen.Kernel.Skeleton
import proofs.«161479_j81209241633290_1_alg».proof.Proof.Gen.Kernel.Points
import proofs.«161479_j81209241633290_1_alg».proof.Proof.KVal1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The blocks -/

/-- Window w's block at grid point t: the rectangle of its array that the index map selects there. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or left it from an earlier point (then its block index has not moved), for any proof data whose array is
    V's (hA) and whose body leaves the block in place (hafter). One statement per input window. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The whole of an output block. -/
abbrev r8 : Rect S128x17 := Rect.unit (s := S128x17) ![0, 0] S128x17.size inb_S128x17_S128x17_0_0
abbrev r9 : Rect S128x10 := Rect.unit (s := S128x10) ![0, 0] S128x10.size inb_S128x10_S128x10_0_0

/-- Window 8's buffer after the body: its one store, of the first head's block. -/
def out8 (x0 : Vec F S128x128 .f32) (x1 : Vec F S1024x128 .f32) (x2 : Vec F S128x512 .bf16) (x3 : Vec F S512x17 .f32)
    (x4 : Vec F S128x17 .f32) (x5 : Vec F S17 .f32) : Vec F S128x17 .f32 :=
  View.canon [⟨r8, Val1.o8 x0 x1 x2 x3 x4 x5⟩]

/-- Window 9's buffer after the body: its one store, of the second head's block. -/
def out9 (x2 : Vec F S128x512 .bf16) (x6 : Vec F S512x10 .f32) (x7 : Vec F S10 .f32) : Vec F S128x10 .f32 :=
  View.canon [⟨r9, Val1.o9 x2 x6 x7⟩]

/-- One whole-block store covers the block. -/
theorem cover8 (p : Vec F S128x17 .f32) (y : S128x17.Idx) :
    ∃ pc ∈ ([⟨r8, p⟩] : List (View.Piece (Elt F) S128x17 .f32)), y ∈ pc.1.set :=
  View.cover_of_tiled [⟨r8, p⟩] S128x17.size (by rfl) y
theorem cover9 (p : Vec F S128x10 .f32) (y : S128x10.Idx) :
    ∃ pc ∈ ([⟨r9, p⟩] : List (View.Piece (Elt F) S128x10 .f32)), y ∈ pc.1.set :=
  View.cover_of_tiled [⟨r9, p⟩] S128x10.size (by rfl) y

/-! ## The body's triple -/

set_option maxHeartbeats 1000000 in
/-- On whole staging memrefs, the inputs' at contents x0 … x7 and the outputs' at anything, the body runs to its end
    holding the inputs' as they were and the outputs' at out8 and out9 of the inputs. -/
theorem sound_kernel (c : Dev nD) (E : Set ℕ) (i : grid1.Coords) (a0 : Memref sig .tc .vmem S128x128 .f32) (ha0 : a0.IsWhole) (a1 : Memref sig .tc .vmem S1024x128 .f32) (ha1 : a1.IsWhole) (a2 : Memref sig .tc .vmem S128x512 .bf16) (ha2 : a2.IsWhole) (a3 : Memref sig .tc .vmem S512x17 .f32) (ha3 : a3.IsWhole) (a4 : Memref sig .tc .vmem S128x17 .f32) (ha4 : a4.IsWhole) (a5 : Memref sig .tc .vmem S17 .f32) (ha5 : a5.IsWhole) (a6 : Memref sig .tc .vmem S512x10 .f32) (ha6 : a6.IsWhole) (a7 : Memref sig .tc .vmem S10 .f32) (ha7 : a7.IsWhole) (a8 : Memref sig .tc .vmem S128x17 .f32) (ha8 : a8.IsWhole) (a9 : Memref sig .tc .vmem S128x10 .f32) (ha9 : a9.IsWhole)
    (x0 : Vec F S128x128 .f32) (x1 : Vec F S1024x128 .f32) (x2 : Vec F S128x512 .bf16) (x3 : Vec F S512x17 .f32) (x4 : Vec F S128x17 .f32) (x5 : Vec F S17 .f32) (x6 : Vec F S512x10 .f32) (x7 : Vec F S10 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (out8 x0 x1 x2 x3 x4 x5) ∗ owns (c : Thread nD τ) a9 fullShare (out9 x2 x6 x7)) -∗ K ⟨⟩))
      ⊢ wp frame (wpE (defs₀ (F := F)) Variants.none c none) E (cc1__mad_heads_kernel i a0 ha0 a1 ha1 a2 ha2 a3 ha3 a4 ha4 a5 ha5 a6 ha6 a7 ha7 a8 ha8 a9 ha9) K := by
  simp only [cc1__mad_heads_kernel_eq_skeleton]; unfold cc1__mad_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8 _)
  iexists _; isplitr
  swap; · iexact H9
  ipureintro
  exact View.read_writes_eq_canon _ _ _ (cover9 _)

/-! ## The pipeline's proof data -/

/-- The proof data of the second pipeline on core c: the arrays as the region finds them; after the body at point t
    each input's buffer at its block and each output's at out8 / out9 of the input blocks; the invariant is the
    scoped rest and the generator register, untouched; nothing owed. The projection matrix is seen through windows
    0 and 1: its full share is dealt to them as its two halves; every other input array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 (iblk V c 0 t) (iblk V c 1 t) (iblk V c 2 t) (iblk V c 3 t) (iblk V c 4 t) (iblk V c 5 t)
    | ⟨9, _⟩ => out9 (iblk V c 2 t) (iblk V c 6 t) (iblk V c 7 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out8 (iblk V c 0 t) (iblk V c 1 t) (iblk V c 2 t) (iblk V c 3 t) (iblk V c 4 t) (iblk V c 5 t) := by dsimp only [dat]
theorem after_9 (c : Dev nD) (t : Fin cfg1.N) : (dat V c).after 9 t = out9 (iblk V c 2 t) (iblk V c 6 t) (iblk V c 7 t) := by dsimp only [dat]

/-- The shares the two windows on the projection matrix hold it at, and the others'. -/
theorem q_0 (c : Dev nD) : (dat V c).q 0 = fullShare.left := by dsimp only [dat]; rfl
theorem q_1 (c : Dev nD) : (dat V c).q 1 = fullShare.right := by dsimp only [dat]; rfl
theorem q_rest (c : Dev nD) (w : Fin cfg1.W) (h0 : w ≠ 0) (h1 : w ≠ 1) : (dat V c).q w = fullShare := by
  dsimp only [dat]
  match w, h0, h1 with
  | ⟨0, _⟩, h0, _ => exact absurd rfl h0
  | ⟨1, _⟩, _, h1 => exact absurd rfl h1
  | ⟨n + 2, _⟩, _, _ => rfl

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d
theorem before_6 (c : Dev nD) (t : Fin cfg1.N) (d) : (dat V c).before 6 t d = iblk V c 6 t :=
  before_of_6 V (dat V c) (A_eq V c 6) (after_6 V c) t d
theorem before_7 (c : Dev nD) (t : Fin cfg1.N) (d) : (dat V c).before 7 t d = iblk V c 7 t :=
  before_of_7 V (dat V c) (A_eq V c 7) (after_7 V c) t d

/-! ## The body obligation, at a generic point -/

/-- What the body is called with at point t: the invariant, the core's dues, and each window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨G0, G1, G2, G3, G4, G5, G6, G7, G8, G9⟩
  isplitl [HΦ]; · iexact HΦ
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KRunShare1.lean ====
/-
  One array seen through two windows.

  The second kernel is handed the projection matrix twice: window 0 reads its 128 rows of the current grid point,
  window 1 reads all 1024 rows. Both are inputs, so the pipeline only ever READS the array, and reading needs only a
  share of it. When the region is entered the core holds each of its buffers whole, at the full share. The pipeline's
  own account of its arrays has one term per WINDOW, each at that window's share. The two accounts are the same
  resource: the full share of the projection matrix is the composite of two shares ql and qr, one per window
  (a points-to splits along a composite share and the two parts hold the same contents), and every other buffer
  stands behind exactly one window, which holds it whole. ENTRY deals the nine buffers to the ten windows; EXIT
  collects them again. Both windows on the shared array hold the contents of that one buffer, which is why the
  two parts rejoin.
-/
import proofs.«161479_j81209241633290_1_alg».proof.Proof.Gen.Kernel.Launch
import proofs.«161479_j81209241633290_1_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.R1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.RA.PCS
open Idealize.ShloMosaic.Pipeline (Dat Cfg Window BodyObligation cellOf)

variable {F : FTy → Type} [FloatOps F]

local notation "𝕄" => MT nD τ sig Unit (Elt F) ℕ (UR sig nD τ) ℕ

/-- The nine distinct buffers behind the ten windows: window 1's array is window 0's. -/
abbrev bufs1 : List (Ref sig .tc) :=
  [Pipeline.arrRef spec1 0, Pipeline.arrRef spec1 2, Pipeline.arrRef spec1 3, Pipeline.arrRef spec1 4, Pipeline.arrRef spec1 5,
   Pipeline.arrRef spec1 6, Pipeline.arrRef spec1 7, Pipeline.arrRef spec1 8, Pipeline.arrRef spec1 9]

theorem img1 : Finset.univ.image (Pipeline.arrRef spec1) = bufs1.toFinset := by decide
theorem nodup1 : bufs1.Nodup := by decide
theorem ref10 : Pipeline.arrRef spec1 1 = Pipeline.arrRef spec1 0 := rfl

/-- A points-to at a buffer, transported along an equation of buffers. -/
theorem pts_ref {c : Dev nD} (V : (b : Ref sig .tc) → Buf (Elt F) ((c : Thread nD τ).loc b)) (q : PosShare TreeShare)
    {b b' : Ref sig .tc} (h : b = b') :
    ((((c : Thread nD τ).loc b) ↦{q} V b) : sProp 𝕄) = (((c : Thread nD τ).loc b') ↦{q} V b') := by
  subst h; rfl

set_option maxHeartbeats 400000 in
/-- ENTRY: the nine buffers behind the ten windows, each whole at the full share, are the windows' arrays: the
    projection matrix's share is dealt to its two windows, every other buffer goes to its one window. -/
theorem arrays_of_bufs (c : Dev nD) (dat : Dat τ (Elt F) Unit ℕ (UR sig nD τ) ℕ cfg1 c)
    (ql qr : PosShare TreeShare) (hsh : fullShare ∈ ql ·? qr)
    (hq0 : dat.q 0 = ql) (hq1 : dat.q 1 = qr)
    (hq : ∀ w : Fin cfg1.W, w ≠ 0 → w ≠ 1 → dat.q w = fullShare)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    (Pipeline.arrBufs spec1 c V : sProp 𝕄) ⊢ dat.arrays Fn := by
  have e : ∀ w : Fin cfg1.W, ((cfg1.win w).arr.view.loc (c : Thread nD τ) ↦[(cfg1.win w).arr.view.set]{dat.share w} Fn w : sProp 𝕄)
      = (((c : Thread nD τ).loc (Pipeline.arrRef spec1 w)) ↦{dat.share w} V (Pipeline.arrRef spec1 w)) := fun w => by
    rw [(arr_whole1 w).set_eq_univ, hF]
  have s0 : dat.share 0 = ql := by unfold Pipeline.Dat.share; rw [if_neg (by decide), hq0]
  have s1 : dat.share 1 = qr := by unfold Pipeline.Dat.share; rw [if_neg (by decide), hq1]
  have s2 : dat.share 2 = fullShare := by unfold Pipeline.Dat.share; rw [if_neg (by decide), hq 2 (by decide) (by decide)]
  have s3 : dat.share 3 = fullShare := by unfold Pipeline.Dat.share; rw [if_neg (by decide), hq 3 (by decide) (by decide)]
  have s4 : dat.share 4 = fullShare := by unfold Pipeline.Dat.share; rw [if_neg (by decide), hq 4 (by decide) (by decide)]
  have s5 : dat.share 5 = fullShare := by unfold Pipeline.Dat.share; rw [if_neg (by decide), hq 5 (by decide) (by decide)]
  have s6 : dat.share 6 = fullShare := by unfold Pipeline.Dat.share; rw [if_neg (by decide), hq 6 (by decide) (by decide)]
  have s7 : dat.share 7 = fullShare := by unfold Pipeline.Dat.share; rw [if_neg (by decide), hq 7 (by decide) (by decide)]
  have s8 : dat.share 8 = fullShare := by unfold Pipeline.Dat.share; rw [if_pos (by decide)]
  have s9 : dat.share 9 = fullShare := by unfold Pipeline.Dat.share; rw [if_pos (by decide)]
  unfold Pipeline.Dat.arrays Pipeline.arrBufs
  simp only [e]
  rw [bigSep_W1, bigSep_eq_bigSepL_of_eq bufs1 img1 nodup1]
  simp only [s0, s1, s2, s3, s4, s5, s6, s7, s8, s9, bigSepL_cons_cons, bigSepL_singleton]
  rw [pts_ref V qr ref10]
  exact (sep_mono (pointsTo_share hsh).1 .rfl).trans sep_assoc.1

set_option maxHeartbeats 400000 in
/-- EXIT: the converse; the two windows on the projection matrix hold the same contents, and their shares rejoin. -/
theorem bufs_of_arrays (c : Dev nD) (dat : Dat τ (Elt F) Unit ℕ (UR sig nD τ) ℕ cfg1 c)
    (ql qr : PosShare TreeShare) (hsh : fullShare ∈ ql ·? qr)
    (hq0 : dat.q 0 = ql) (hq1 : dat.q 1 = qr)
    (hq : ∀ w : Fin cfg1.W, w ≠ 0 → w ≠ 1 → dat.q w = fullShare)
    (V : (b : Ref sig .tc) → Buf (Elt F) ((c : Thread nD τ).loc b))
    (Fn : (w : Fin cfg1.W) → Buf (Elt F) ((cfg1.win w).arr.view.loc (c : Thread nD τ)))
    (hF : ∀ w, Fn w = V (Pipeline.arrRef spec1 w)) :
    dat.arrays Fn ⊢ (Pipeline.arrBufs spec1 c V : sProp 𝕄) := by
  have e : ∀ w : Fin cfg1.W, ((cfg1.win w).arr.view.loc (c : Thread nD τ) ↦[(cfg1.win w).arr.view.set]{dat.share w} Fn w : sProp 𝕄)
      = (((c : Thread nD τ).loc (Pipeline.arrRef spec1 w)) ↦{dat.share w} V (Pipeline.arrRef spec1 w)) := fun w => by
    rw [(arr_whole1 w).set_eq_univ, hF]
  have s0 : dat.share 0 = ql := by unfold Pipeline.Dat.share; rw [if_neg (by decide), hq0]
  have s1 : dat.share 1 = qr := by unfold Pipeline.Dat.share; rw [if_neg (by decide), hq1]
  have s2 : dat.share 2 = fullShare := by unfold Pipeline.Dat.share; rw [if_neg (by decide), hq 2 (by decide) (by decide)]
  have s3 : dat.share 3 = fullShare := by unfold Pipeline.Dat.share; rw [if_neg (by decide), hq 3 (by decide) (by decide)]
  have s4 : dat.share 4 = fullShare := by unfold Pipeline.Dat.share; rw [if_neg (by decide), hq 4 (by decide) (by decide)]
  have s5 : dat.share 5 = fullShare := by unfold Pipeline.Dat.share; rw [if_neg (by decide), hq 5 (by decide) (by decide)]
  have s6 : dat.share 6 = fullShare := by unfold Pipeline.Dat.share; rw [if_neg (by decide), hq 6 (by decide) (by decide)]
  have s7 : dat.share 7 = fullShare := by unfold Pipeline.Dat.share; rw [if_neg (by decide), hq 7 (by decide) (by decide)]
  have s8 : dat.share 8 = fullShare := by unfold Pipeline.Dat.share; rw [if_pos (by decide)]
  have s9 : dat.share 9 = fullShare := by unfold Pipeline.Dat.share; rw [if_pos (by decide)]
  unfold Pipeline.Dat.arrays Pipeline.arrBufs
  simp only [e]
  rw [bigSep_W1, bigSep_eq_bigSepL_of_eq bufs1 img1 nodup1]
  simp only [s0, s1, s2, s3, s4, s5, s6, s7, s8, s9, bigSepL_cons_cons, bigSepL_singleton]
  rw [pts_ref V qr ref10]
  exact sep_assoc.2.trans (sep_mono (pointsTo_share hsh).2 .rfl)

end Cert.Kernel.R1

end
-- ==== Proof.KRunVal.lean ====
/-
  The whole program as three steps: the first kernel, two slices on the host, the second kernel.

  What every buffer of a core holds is followed from the launch to the return. W0 is the launch memory. The first
  kernel changes only its two result arrays (the features and the projections), which end at what its pipeline
  leaves: W1. The host then cuts the first head's weights into its upper 512 and lower 128 rows: W2. The second
  kernel changes only ITS two result arrays, the two heads: W3. Nothing on the way writes an argument, so each
  argument array is read back through W3, W2, W1 to the launch memory; and the two results are read off W3 as what
  the second pipeline leaves.
-/
import proofs.«161479_j81209241633290_1_alg».proof.Proof.KR0Body
import proofs.«161479_j81209241633290_1_alg».proof.Proof.KBody1
import proofs.«161479_j81209241633290_1_alg».proof.Proof.KRunShare1
import proofs.«161479_j81209241633290_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the steps -/

/-- Core c's buffers at launch. -/
abbrev W0 : Dev nD → Valuation τ sig (Elt F) := fun c b => (s₀ m ρ).mem ((c : Dev nD), b)
/-- The same read at the TensorCore's references: what the first kernel finds. -/
abbrev V0 : (c : Dev nD) → (b : Ref sig .tc) → Buf (Elt F) ((c : Thread nD τ).loc b) := fun c b => W0 m ρ c b

/-- After the first kernel: its arrays at what its pipeline leaves, every other buffer as it was. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host slices: what the second kernel finds. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second kernel: its two result arrays at what its pipeline leaves, every other buffer as it was (its
    eight input windows only read). -/
def W3 (c : Dev nD) : Valuation τ sig (Elt F) :=
  Function.update (Function.update (W2 m ρ c) (Proc.devRef .tc main_v3_0) ((R1.dat (V2 m ρ) c).arrAt 8 cfg1.N))
    (Proc.devRef .tc main_v3_1) ((R1.dat (V2 m ρ) c).arrAt 9 cfg1.N)
abbrev V3 : (c : Dev nD) → (b : Ref sig .tc) → Buf (Elt F) ((c : Thread nD τ).loc b) := fun c b => W3 m ρ c b

theorem W3_out8 (c : Dev nD) : W3 m ρ c (Proc.devRef .tc main_v3_0) = (R1.dat (V2 m ρ) c).arrAt 8 cfg1.N := by
  unfold W3
  rw [Function.update_of_ne (StableHlo.devRef_ne_of_ne (by decide) : (Proc.devRef .tc main_v3_0 : DevRef τ sig) ≠ Proc.devRef .tc main_v3_1),
    Function.update_self]
theorem W3_out9 (c : Dev nD) : W3 m ρ c (Proc.devRef .tc main_v3_1) = (R1.dat (V2 m ρ) c).arrAt 9 cfg1.N := by
  unfold W3; rw [Function.update_self]
theorem W3_of_ne (c : Dev nD) (b : Ref sig .tc) (h8 : b ≠ main_v3_0) (h9 : b ≠ main_v3_1) :
    W3 m ρ c (Proc.devRef .tc b) = W2 m ρ c (Proc.devRef .tc b) := by
  unfold W3
  rw [Function.update_of_ne (StableHlo.devRef_ne_of_ne h9 : (Proc.devRef .tc b : DevRef τ sig) ≠ Proc.devRef .tc main_v3_1),
    Function.update_of_ne (StableHlo.devRef_ne_of_ne h8 : (Proc.devRef .tc b : DevRef τ sig) ≠ Proc.devRef .tc main_v3_0)]

end Cert.Kernel.Run

end
-- ==== Proof.KRunSeg.lean ====
/-
  The three steps as segments of one run, and the run.

  Between steps a core holds every unscoped buffer whole at the step's contents (W0, W1, W2, W3), the generator
  register at some state, and owes nothing. A kernel region takes its windows' arrays out of that holding when it is
  entered and puts them back, at what its pipeline leaves, when it ends; the register goes into the pipeline's
  invariant and comes back. The first kernel's eight arrays are eight distinct buffers, each held whole. The second
  kernel's ten windows stand on nine buffers: the projection matrix is dealt to windows 0 and 1 as the two halves of
  its full share at entry and the halves are joined again at exit, where both windows still hold the buffer's
  contents (they only read it). Every weakly fair execution of the program then terminates, and its final memory
  holds, on every core, every unscoped buffer at W3.
-/
import proofs.«161479_j81209241633290_1_alg».proof.Proof.KRunVal

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.RA.PCS
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 2) → (pcfgs (F := F) p).Adm := fun p => (cfgs p).toPCfg_adm

/-- Each pipeline's proof data at what its region finds. -/
def pdats : (p : Fin 2) → (c : Dev nD) → Dat τ (Elt F) Unit ℕ (UR sig nD τ) ℕ (Pipeline.pin (pcfgs (F := F)) adm p) c
  | ⟨0, _⟩ => fun c => R0.dat (V0 m ρ) c
  | ⟨1, _⟩ => fun c => R1.dat (V2 m ρ) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers: the generator register at some state, and nothing owed. -/
abbrev R (c : Dev nD) : sProp 𝕄 := iprop((∃ r, prngReg c r) ∗ ∃ W, owes (c : Thread nD τ) (0 : CellTallies nD τ sig Unit) W)

/-- The host stretch as a segment over the unscoped buffers from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last holding without the dues. -/
abbrev Tₙ (c : Dev nD) : sProp 𝕄 := iprop(StableHlo.held (c : Thread nD τ) (Pipeline.ucRefs τ sig) (W3 m ρ c) ∗ ∃ r, prngReg c r)

/-! ## The first kernel as a segment -/

set_option backward.isDefEq.respectTransparency.types false in
/-- Entered from every unscoped buffer at W0, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second kernel as a segment -/

/-- Off the second kernel's arrays nothing changes between W2 and W3. -/
theorem hrest1 (c : Dev nD) : ∀ b, b ∉ Finset.univ.image (Pipeline.arrRef spec1) → V3 m ρ c b = V2 m ρ c b :=
  fun b hb => W3_of_ne m ρ c b
    (fun e => hb (Finset.mem_image.mpr ⟨8, Finset.mem_univ _, e.symm⟩))
    (fun e => hb (Finset.mem_image.mpr ⟨9, Finset.mem_univ _, e.symm⟩))

/-- At its end each of its windows' arrays holds W3's contents: the inputs what they held (they were only read, and
    W3 keeps W2 there), the two results what the pipeline leaves. -/
theorem hF1 (c : Dev nD) : ∀ w : Fin cfg1.W, (R1.dat (V2 m ρ) c).arrAt w cfg1.N = V3 m ρ c (Pipeline.arrRef spec1 w)
  | ⟨0, _⟩ => (((R1.dat (V2 m ρ) c).arrAt_in 0 rfl _).trans (R1.A_eq (V2 m ρ) c 0)).trans (W3_of_ne m ρ c _ (by decide) (by decide)).symm
  | ⟨1, _⟩ => (((R1.dat (V2 m ρ) c).arrAt_in 1 rfl _).trans (R1.A_eq (V2 m ρ) c 1)).trans (W3_of_ne m ρ c _ (by decide) (by decide)).symm
  | ⟨2, _⟩ => (((R1.dat (V2 m ρ) c).arrAt_in 2 rfl _).trans (R1.A_eq (V2 m ρ) c 2)).trans (W3_of_ne m ρ c _ (by decide) (by decide)).symm
  | ⟨3, _⟩ => (((R1.dat (V2 m ρ) c).arrAt_in 3 rfl _).trans (R1.A_eq (V2 m ρ) c 3)).trans (W3_of_ne m ρ c _ (by decide) (by decide)).symm
  | ⟨4, _⟩ => (((R1.dat (V2 m ρ) c).arrAt_in 4 rfl _).trans (R1.A_eq (V2 m ρ) c 4)).trans (W3_of_ne m ρ c _ (by decide) (by decide)).symm
  | ⟨5, _⟩ => (((R1.dat (V2 m ρ) c).arrAt_in 5 rfl _).trans (R1.A_eq (V2 m ρ) c 5)).trans (W3_of_ne m ρ c _ (by decide) (by decide)).symm
  | ⟨6, _⟩ => (((R1.dat (V2 m ρ) c).arrAt_in 6 rfl _).trans (R1.A_eq (V2 m ρ) c 6)).trans (W3_of_ne m ρ c _ (by decide) (by decide)).symm
  | ⟨7, _⟩ => (((R1.dat (V2 m ρ) c).arrAt_in 7 rfl _).trans (R1.A_eq (V2 m ρ) c 7)).trans (W3_of_ne m ρ c _ (by decide) (by decide)).symm
  | ⟨8, _⟩ => (W3_out8 m ρ c).symm
  | ⟨9, _⟩ => (W3_out9 m ρ c).symm
  | ⟨_ + 10, h⟩ => absurd h (Nat.not_lt.2 (Nat.le_add_left _ _))

set_option backward.isDefEq.respectTransparency.types false in
/-- EXIT, the arrays: what the second pipeline's windows hold at its end is the nine buffers at W3. -/
theorem exit_collect (c : Dev nD) : (pdats m ρ 1 c).arrays ((pdats m ρ 1 c).arrAt · cfg1.N)
    ⊢ (Pipeline.arrBufs (Ix := Unit) (Name := ℕ) (U := UR sig nD τ) (Lvl := ℕ) spec1 c (V3 m ρ c) : sProp 𝕄) :=
  R1.bufs_of_arrays c (R1.dat (V2 m ρ) c) fullShare.left fullShare.right (PosShare.mem_left_op_right fullShare)
    (R1.q_0 (V2 m ρ) c) (R1.q_1 (V2 m ρ) c) (R1.q_rest (V2 m ρ) c) (V3 m ρ c) _ (hF1 m ρ c)

omit m ρ in
set_option backward.isDefEq.respectTransparency.types false in
/-- EXIT, in general: a resource that yields the nine buffers at contents V', beside the other unscoped buffers at
    contents V that agree with V' off the windows' arrays, is every unscoped buffer at V'. -/
theorem join_bufs (c : Dev nD) (A : sProp 𝕄) (V V' : (b : Ref sig .tc) → Buf (Elt F) ((c : Thread nD τ).loc b))
    (hcol : A ⊢ (Pipeline.arrBufs (Ix := Unit) (Name := ℕ) (U := UR sig nD τ) (Lvl := ℕ) spec1 c V' : sProp 𝕄))
    (hrest : ∀ b, b ∉ Finset.univ.image (Pipeline.arrRef spec1) → V' b = V b) :
    iprop(A ∗ Pipeline.unscopedRest (Ix := Unit) (Name := ℕ) (U := UR sig nD τ) (Lvl := ℕ) spec1 c V) ⊢ (unscopedBufs c V' : sProp 𝕄) := by
  rw [Pipeline.unscopedBufs_split₀ (Pipeline.pin (pcfgs (F := F)) adm) 1 winFacts₀1.arr_unscoped c V']
  refine sep_mono hcol (Entails.of_eq ?_)
  unfold Pipeline.unscopedRest
  exact bigSep_congr fun b hb => by rw [hrest b (Finset.mem_sdiff.mp hb).2]

set_option backward.isDefEq.respectTransparency.types false in
/-- Entered from every unscoped buffer at W2, left at W3. The nine buffers behind its ten windows are dealt to the
    windows at entry (the projection matrix to windows 0 and 1 as the halves of its full share) and collected at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have harr : (Pipeline.arrBufs (Ix := Unit) (Name := ℕ) (U := UR sig nD τ) (Lvl := ℕ) spec1 c (V2 m ρ c) : sProp 𝕄)
        ⊢ (pdats m ρ 1 c).arrays ((pdats m ρ 1 c).arrAt · 0) :=
      R1.arrays_of_bufs c (R1.dat (V2 m ρ) c) fullShare.left fullShare.right (PosShare.mem_left_op_right fullShare)
        (R1.q_0 (V2 m ρ) c) (R1.q_1 (V2 m ρ) c) (R1.q_rest (V2 m ρ) c) (V2 m ρ c) _ (fun _ => rfl)
    have hsplit : (unscopedBufs c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono harr .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join_bufs c _ (V2 m ρ c) (V3 m ρ c) (exit_collect m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]

/-- The program IS the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state every core holds every unscoped buffer at W3. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Run

end
-- ==== Proof.KRunRead.lean ====
import proofs.«161479_j81209241633290_1_alg».proof.Proof.KRunVal
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-! # The buffers read back through the three steps

The second kernel writes only the two heads; the host slices write only the two cuts of the first head's weights; the
first kernel writes only the features and the projections, and reads six of the arguments through input windows,
which it leaves as found. So every argument is read back to the launch memory, and what the second kernel finds is
the first kernel's two results, the two cuts, and three arguments untouched. -/

/-- The two host slices write the two cuts and nothing else. -/
theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h

/-! ## The arguments after the first kernel -/

/-- Argument 0 is input window 0 of the first kernel: left as found. -/
theorem W1_main_arg0 (c : Dev nD) : W1 m ρ c (Proc.devRef .tc main_arg0) = m ((c : Thread nD τ).loc main_arg0) :=
  (W1_arr m ρ c 0).trans (((R0.dat (V0 m ρ) c).arrAt_in 0 rfl _).trans (R0.A_eq (V0 m ρ) c 0))

/-- Argument 1 is input window 1 of the first kernel: left as found. -/
theorem W1_main_arg1 (c : Dev nD) : W1 m ρ c (Proc.devRef .tc main_arg1) = m ((c : Thread nD τ).loc main_arg1) :=
  (W1_arr m ρ c 1).trans (((R0.dat (V0 m ρ) c).arrAt_in 1 rfl _).trans (R0.A_eq (V0 m ρ) c 1))

/-- Argument 2 is input window 2 of the first kernel: left as found. -/
theorem W1_main_arg2 (c : Dev nD) : W1 m ρ c (Proc.devRef .tc main_arg2) = m ((c : Thread nD τ).loc main_arg2) :=
  (W1_arr m ρ c 2).trans (((R0.dat (V0 m ρ) c).arrAt_in 2 rfl _).trans (R0.A_eq (V0 m ρ) c 2))

/-- Argument 3 is input window 3 of the first kernel: left as found. -/
theorem W1_main_arg3 (c : Dev nD) : W1 m ρ c (Proc.devRef .tc main_arg3) = m ((c : Thread nD τ).loc main_arg3) :=
  (W1_arr m ρ c 3).trans (((R0.dat (V0 m ρ) c).arrAt_in 3 rfl _).trans (R0.A_eq (V0 m ρ) c 3))

/-- Argument 4 is input window 4 of the first kernel: left as found. -/
theorem W1_main_arg4 (c : Dev nD) : W1 m ρ c (Proc.devRef .tc main_arg4) = m ((c : Thread nD τ).loc main_arg4) :=
  (W1_arr m ρ c 4).trans (((R0.dat (V0 m ρ) c).arrAt_in 4 rfl _).trans (R0.A_eq (V0 m ρ) c 4))

/-- Argument 5 is input window 5 of the first kernel: left as found. -/
theorem W1_main_arg5 (c : Dev nD) : W1 m ρ c (Proc.devRef .tc main_arg5) = m ((c : Thread nD τ).loc main_arg5) :=
  (W1_arr m ρ c 5).trans (((R0.dat (V0 m ρ) c).arrAt_in 5 rfl _).trans (R0.A_eq (V0 m ρ) c 5))

/-- Argument 6 is no window of the first kernel. -/
theorem W1_main_arg6 (c : Dev nD) : W1 m ρ c (Proc.devRef .tc main_arg6) = m ((c : Thread nD τ).loc main_arg6) :=
  W1_of_ne m ρ c main_arg6 (by decide)

/-- Argument 7 is no window of the first kernel. -/
theorem W1_main_arg7 (c : Dev nD) : W1 m ρ c (Proc.devRef .tc main_arg7) = m ((c : Thread nD τ).loc main_arg7) :=
  W1_of_ne m ρ c main_arg7 (by decide)

/-- Argument 8 is no window of the first kernel. -/
theorem W1_main_arg8 (c : Dev nD) : W1 m ρ c (Proc.devRef .tc main_arg8) = m ((c : Thread nD τ).loc main_arg8) :=
  W1_of_ne m ρ c main_arg8 (by decide)

/-- Argument 9 is no window of the first kernel. -/
theorem W1_main_arg9 (c : Dev nD) : W1 m ρ c (Proc.devRef .tc main_arg9) = m ((c : Thread nD τ).loc main_arg9) :=
  W1_of_ne m ρ c main_arg9 (by decide)

/-! ## The arguments at the end -/

theorem W3_main_arg0 (c : Dev nD) : W3 m ρ c (Proc.devRef .tc main_arg0) = m ((c : Thread nD τ).loc main_arg0) :=
  (W3_of_ne m ρ c main_arg0 (by decide) (by decide)).trans <|
    (W2_of m ρ c main_arg0 (by decide)).trans <| W1_main_arg0 m ρ c

theorem W3_main_arg1 (c : Dev nD) : W3 m ρ c (Proc.devRef .tc main_arg1) = m ((c : Thread nD τ).loc main_arg1) :=
  (W3_of_ne m ρ c main_arg1 (by decide) (by decide)).trans <|
    (W2_of m ρ c main_arg1 (by decide)).trans <| W1_main_arg1 m ρ c

theorem W3_main_arg2 (c : Dev nD) : W3 m ρ c (Proc.devRef .tc main_arg2) = m ((c : Thread nD τ).loc main_arg2) :=
  (W3_of_ne m ρ c main_arg2 (by decide) (by decide)).trans <|
    (W2_of m ρ c main_arg2 (by decide)).trans <| W1_main_arg2 m ρ c

theorem W3_main_arg3 (c : Dev nD) : W3 m ρ c (Proc.devRef .tc main_arg3) = m ((c : Thread nD τ).loc main_arg3) :=
  (W3_of_ne m ρ c main_arg3 (by decide) (by decide)).trans <|
    (W2_of m ρ c main_arg3 (by decide)).trans <| W1_main_arg3 m ρ c

theorem W3_main_arg4 (c : Dev nD) : W3 m ρ c (Proc.devRef .tc main_arg4) = m ((c : Thread nD τ).loc main_arg4) :=
  (W3_of_ne m ρ c main_arg4 (by decide) (by decide)).trans <|
    (W2_of m ρ c main_arg4 (by decide)).trans <| W1_main_arg4 m ρ c

theorem W3_main_arg5 (c : Dev nD) : W3 m ρ c (Proc.devRef .tc main_arg5) = m ((c : Thread nD τ).loc main_arg5) :=
  (W3_of_ne m ρ c main_arg5 (by decide) (by decide)).trans <|
    (W2_of m ρ c main_arg5 (by decide)).trans <| W1_main_arg5 m ρ c

theorem W3_main_arg6 (c : Dev nD) : W3 m ρ c (Proc.devRef .tc main_arg6) = m ((c : Thread nD τ).loc main_arg6) :=
  (W3_of_ne m ρ c main_arg6 (by decide) (by decide)).trans <|
    (W2_of m ρ c main_arg6 (by decide)).trans <| W1_main_arg6 m ρ c

theorem W3_main_arg7 (c : Dev nD) : W3 m ρ c (Proc.devRef .tc main_arg7) = m ((c : Thread nD τ).loc main_arg7) :=
  (W3_of_ne m ρ c main_arg7 (by decide) (by decide)).trans <|
    (W2_of m ρ c main_arg7 (by decide)).trans <| W1_main_arg7 m ρ c

theorem W3_main_arg8 (c : Dev nD) : W3 m ρ c (Proc.devRef .tc main_arg8) = m ((c : Thread nD τ).loc main_arg8) :=
  (W3_of_ne m ρ c main_arg8 (by decide) (by decide)).trans <|
    (W2_of m ρ c main_arg8 (by decide)).trans <| W1_main_arg8 m ρ c

theorem W3_main_arg9 (c : Dev nD) : W3 m ρ c (Proc.devRef .tc main_arg9) = m ((c : Thread nD τ).loc main_arg9) :=
  (W3_of_ne m ρ c main_arg9 (by decide) (by decide)).trans <|
    (W2_of m ρ c main_arg9 (by decide)).trans <| W1_main_arg9 m ρ c

/-! ## What the second kernel finds -/

/-- The projections and the features are what the first kernel's pipeline left. -/
theorem V2_mb (c : Dev nD) : V2 m ρ c main_v0_1 = (R0.dat (V0 m ρ) c).arrAt 7 cfg0.N :=
  (W2_of m ρ c main_v0_1 (by decide)).trans (W1_arr m ρ c 7)
theorem V2_feat (c : Dev nD) : V2 m ρ c main_v0_0 = (R0.dat (V0 m ρ) c).arrAt 6 cfg0.N :=
  (W2_of m ρ c main_v0_0 (by decide)).trans (W1_arr m ρ c 6)

/-- The two cuts are the slices of the first head's weights as launched. -/
theorem V2_upper (c : Dev nD) : V2 m ρ c main_v1
    = extractStridedSlice S512x17 ![0, 0] (m ((c : Thread nD τ).loc main_arg6)) slices_S640x17_S512x17_0_0 := by
  show StableHlo.after hostOps1 (W1 m ρ c) (Proc.devRef .tc main_v1) = _
  after_results
  rw [W1_main_arg6 m ρ c]
theorem V2_lower (c : Dev nD) : V2 m ρ c main_v2
    = extractStridedSlice S128x17 ![512, 0] (m ((c : Thread nD τ).loc main_arg6)) slices_S640x17_S128x17_512_0 := by
  show StableHlo.after hostOps1 (W1 m ρ c) (Proc.devRef .tc main_v2) = _
  after_results
  rw [W1_main_arg6 m ρ c]

/-- The first head's bias and the second head's weights and bias are as launched. -/
theorem V2_bm (c : Dev nD) : V2 m ρ c main_arg7 = m ((c : Thread nD τ).loc main_arg7) :=
  (W2_of m ρ c main_arg7 (by decide)).trans (W1_main_arg7 m ρ c)
theorem V2_Wc (c : Dev nD) : V2 m ρ c main_arg8 = m ((c : Thread nD τ).loc main_arg8) :=
  (W2_of m ρ c main_arg8 (by decide)).trans (W1_main_arg8 m ρ c)
theorem V2_bc (c : Dev nD) : V2 m ρ c main_arg9 = m ((c : Thread nD τ).loc main_arg9) :=
  (W2_of m ρ c main_arg9 (by decide)).trans (W1_main_arg9 m ρ c)

end Cert.Kernel.Run

end
-- ==== Proof.KRunReadFrame.lean ====
import proofs.«161479_j81209241633290_1_alg».proof.Proof.KRunVal
import proofs.«161479_j81209241633290_1_alg».proof.Proof.KRunRead
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-! # The arguments in a final memory

A final memory that holds, on core `c`, every unscoped buffer at the contents followed through the three steps holds
each of the ten arguments as launched: no step writes an argument. -/

/-- An unscoped TensorCore reference is among the core's unscoped buffers. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The ten arguments end as launched. -/
theorem post_args (mem : (ℓ : Loc nD τ sig) → Buf (Elt F) ℓ) (c : Dev nD)
    (h : ∀ b ∈ Pipeline.ucRefs τ sig, mem (((c : Thread nD τ)).1, b) = W3 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9) :=
  ⟨(h _ (uc_mem main_arg0 (by decide))).trans (W3_main_arg0 m ρ c),
    (h _ (uc_mem main_arg1 (by decide))).trans (W3_main_arg1 m ρ c),
    (h _ (uc_mem main_arg2 (by decide))).trans (W3_main_arg2 m ρ c),
    (h _ (uc_mem main_arg3 (by decide))).trans (W3_main_arg3 m ρ c),
    (h _ (uc_mem main_arg4 (by decide))).trans (W3_main_arg4 m ρ c),
    (h _ (uc_mem main_arg5 (by decide))).trans (W3_main_arg5 m ρ c),
    (h _ (uc_mem main_arg6 (by decide))).trans (W3_main_arg6 m ρ c),
    (h _ (uc_mem main_arg7 (by decide))).trans (W3_main_arg7 m ρ c),
    (h _ (uc_mem main_arg8 (by decide))).trans (W3_main_arg8 m ρ c),
    (h _ (uc_mem main_arg9 (by decide))).trans (W3_main_arg9 m ρ c)⟩

end Cert.Kernel.Run

end
-- ==== Proof.lean ====
/-
  The certificate: a two-kernel network against its plain reference, equal entry by entry on the extended reals.

  The network sends 1024 input rows through two dense layers with an exponential linear unit after each, projects
  the features to 128 lanes, and for every row and lane adds exp (−|difference of projections|) over all 1024 rows,
  less the row's own term; two heads then read the features and these similarities. The kernel program does the
  layers and the projection in a first kernel over blocks of 256 rows, cuts the first head's weights into the rows
  that meet the features and the rows that meet the similarities, and does the similarities and both heads in a second
  kernel over blocks of 128 rows, which reads the 1024 rows of projections eight times 128 rows at a time. The
  reference does the same with whole-array operations, its exponential linear unit through exp x − 1 on the part
  where x is not positive, its similarity sum as one reduction over 1024 rows, its first head as one product with
  the features and similarities side by side.

  At the ideal instance every float is an extended real and every operation the exact one, so: rounding to the
  narrow format is the identity; exp x − 1 is what the reference's unit applies; the word 1.0 is 1 and 1 · y = y;
  0 − d = −d; a sum over 1024 rows is the sum of its eight 128-row parts; a product with two arrays side by side
  is the sum of the two products. Only commutativity and associativity of addition are used, so no entry has to be
  finite and the precondition is never opened. Both programs therefore compute the specification's two arrays
  (Cert.Spec.madArr, Cert.Spec.clfArr) of their arguments, and they agree on the arguments.

  The frames: each program runs to its end on every weakly fair schedule, nothing faulting, with its argument arrays
  as launched — for the kernel program because the run leaves every unscoped buffer at contents (W3) in which no
  step writes an argument, at the word-level instance and at the ideal one alike; for the reference because its
  run returns the arguments beside the results. The ideal pass rewrote nothing, so the idealized kernel is the
  kernel's own text and that conjunct is trivial.
-/
import proofs.«161479_j81209241633290_1_alg».proof.Defs
import proofs.«161479_j81209241633290_1_alg».proof.Proof.Gen.Kernel
import proofs.«161479_j81209241633290_1_alg».proof.Proof.Gen.KernelIdeal
import proofs.«161479_j81209241633290_1_alg».proof.Proof.Gen.ReferenceIdeal
import proofs.«161479_j81209241633290_1_alg».proof.Proof.Gen.Pre_finite_inputs
import proofs.«161479_j81209241633290_1_alg».proof.Proof.RunSeg
import proofs.«161479_j81209241633290_1_alg».proof.Proof.RunReadAll
import proofs.«161479_j81209241633290_1_alg».proof.Proof.RefRun
import proofs.«161479_j81209241633290_1_alg».proof.Proof.KRunSeg
import proofs.«161479_j81209241633290_1_alg».proof.Proof.KRunReadFrame

noncomputable section

namespace Cert.Proof

open Idealize.ShloMosaic Idealize.SL.Sem

/-- The word-level kernel program runs to its end and leaves its arguments as launched. -/
theorem frame_kernel : Cert.frame_Kernel (hKernel := Cert.Kernel.Gen.facts) (hPre_finite_inputs := Cert.Pre_finite_inputs.Gen.facts) :=
  fun m ρ _ => (θ_run (Cert.Kernel.defs (F := Bits)) _ _).mono (fun r h c => Cert.Kernel.Run.post_args m ρ r.2.mem c (h c)) (Cert.Kernel.Run.run (F := Bits) m ρ)

/-- The idealized kernel program runs to its end and leaves its arguments as launched. -/
theorem frame_kernelIdeal : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c => Cert.KernelIdeal.Run.post_args m ρ r.2.mem c (h c)) (Cert.KernelIdeal.Run.run (F := Ideal) m ρ)

/-- The reference runs to its end and leaves its arguments as launched: its run with the two results dropped. -/
theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.RefValue.run m ρ)

/-- The ideal pass rewrote no operation. -/
theorem preserves : Cert.preserves_Kernel_KernelIdeal := trivial

/-- From memories that agree on the ten arguments both idealized programs end with the specification's two arrays of
    those arguments as results, and with the arguments unchanged. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.Spec.madArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.clfArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono (fun r h c => Cert.KernelIdeal.Run.post_all m ρ r.2.mem c (h c)) (Cert.KernelIdeal.Run.run (F := Ideal) m ρ)
  · refine (θ_run (Cert.ReferenceIdeal.defs (F := Ideal)) _ _).mono (fun r h c => ?_) (Cert.ReferenceIdeal.RefValue.run m' ρ')
    obtain ⟨h1, h2, hargs⟩ := h c
    obtain ⟨a0, a1, a2, a3, a4, a5, a6, a7, a8, a9⟩ := hagree c
    refine ⟨h1.trans ?_, h2.trans ?_, hargs⟩
    · rw [a0, a1, a2, a3, a4, a5, a6, a7]
    · rw [a0, a1, a2, a3, a4, a8, a9]

/-- The certificate's claim. -/
theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
